-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S25000x128 : Shape := ⟨2, ![25000, 128]⟩
abbrev S400000 : Shape := ⟨1, ![400000]⟩
abbrev S256x256 : Shape := ⟨2, ![256, 256]⟩
abbrev S256 : Shape := ⟨1, ![256]⟩
abbrev S128x256 : Shape := ⟨2, ![128, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S25000x128 : S_.BroadcastsInDim S25000x128 (![] : Fin 0 → Fin S25000x128.rank)
  reducesTo_S25000x128_S_d0_1 : S25000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_

variable [Facts]

def fn_part5 {F : FTy → Type} [FloatOps F] (main_arg24 : FVec F S256 .f32) (main_arg25 : FVec F S256x256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg24
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg25
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  main_v98

def fn_part4 {F : FTy → Type} [FloatOps F] (main_arg20 : FVec F S256x256 .f32) (main_arg21 : FVec F S256 .f32) (main_arg22 : FVec F S256x256 .f32) (main_arg23 : FVec F S256x256 .f32) (main_arg24 : FVec F S256 .f32) (main_arg25 : FVec F S256x256 .f32) (main_v63 : IVec S_ 1) (main_v67 : IVec S_ 1) : IVec S_ 1 :=
  let main_v68 : IVec S_ 1 := andi main_v63 main_v67
  let main_v69 : FVec F S256x256 .f32 := Host.absf main_arg20
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg21
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg22
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x256 .f32) (main_arg24 : FVec F S256 .f32) (main_arg25 : FVec F S256x256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256x256 .f32 := Host.absf main_arg17
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg18
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg19
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg20 main_arg21 main_arg22 main_arg23 main_arg24 main_arg25 main_v63 main_v67

def fn_part2 {F : FTy → Type} [FloatOps F] (main_arg13 : FVec F S256x256 .f32) (main_arg14 : FVec F S256x256 .f32) (main_arg15 : FVec F S256 .f32) (main_arg16 : FVec F S128x256 .f32) (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x256 .f32) (main_arg24 : FVec F S256 .f32) (main_arg25 : FVec F S256x256 .f32) (main_v33 : IVec S_ 1) : IVec S_ 1 :=
  let main_v34 : FVec F S256x256 .f32 := Host.absf main_arg13
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg16
  let main_cst_18 : FVec F S_ .f32 := constant S_ .f32 0x7F800000#32
  let main_v50 : FVec F S128x256 .f32 := broadcastInDim S128x256 ![] bcast_S_S128x256 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S256x256 .f32) (main_arg11 : FVec F S128x256 .f32) (main_arg12 : FVec F S256 .f32) (main_arg13 : FVec F S256x256 .f32) (main_arg14 : FVec F S256x256 .f32) (main_arg15 : FVec F S256 .f32) (main_arg16 : FVec F S128x256 .f32) (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x256 .f32) (main_arg24 : FVec F S256 .f32) (main_arg25 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S128x256 .f32 := Host.absf main_arg11
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : FVec F S50000x256 .f32) (main_arg1 : FVec F S25000x128 .f32) (main_arg2 : IVec S400000 32) (main_arg3 : IVec S400000 32) (main_arg4 : IVec S400000 32) (main_arg5 : IVec S400000 32) (main_arg6 : IVec S400000 32) (main_arg7 : IVec S400000 32) (main_arg8 : FVec F S256x256 .f32) (main_arg9 : FVec F S256 .f32) (main_arg10 : FVec F S256x256 .f32) (main_arg11 : FVec F S128x256 .f32) (main_arg12 : FVec F S256 .f32) (main_arg13 : FVec F S256x256 .f32) (main_arg14 : FVec F S256x256 .f32) (main_arg15 : FVec F S256 .f32) (main_arg16 : FVec F S128x256 .f32) (main_arg17 : FVec F S256x256 .f32) (main_arg18 : FVec F S256 .f32) (main_arg19 : FVec F S256x256 .f32) (main_arg20 : FVec F S256x256 .f32) (main_arg21 : FVec F S256 .f32) (main_arg22 : FVec F S256x256 .f32) (main_arg23 : FVec F S256x256 .f32) (main_arg24 : FVec F S256 .f32) (main_arg25 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S25000x128 .f32 := Host.absf main_arg1
  let main_cst_0 : FVec F S_ .f32 := constant S_ .f32 0x7F800000#32
  let main_v5 : FVec F S25000x128 .f32 := broadcastInDim S25000x128 ![] bcast_S_S25000x128 main_cst_0
  let main_v6 : IVec S25000x128 1 := cmpf .olt main_v4 main_v5
  let main_c_1 : IVec S_ 1 := constantI S_ 1 1#1
  let main_v7 : IVec S_ 1 := (fun x v => Host.reduce IntOp.andi x v reducesTo_S25000x128_S_d0_1 h_S_) main_v6 main_c_1
  let main_v8 : IVec S_ 1 := andi main_v3 main_v7
  let main_v9 : FVec F S256x256 .f32 := Host.absf main_arg8
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x256 : Shape := ⟨2, ![50000, 256]⟩
abbrev S25000x128 : Shape := ⟨2, ![25000, 128]⟩
abbrev S400000 : Shape := ⟨1, ![400000]⟩
abbrev S256x256 : Shape := ⟨2, ![256, 256]⟩
abbrev S256 : Shape := ⟨1, ![256]⟩
abbrev S128x256 : Shape := ⟨2, ![128, 256]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S25000 : Shape := ⟨1, ![25000]⟩
abbrev S25000x1 : Shape := ⟨2, ![25000, 1]⟩
abbrev S400000x256 : Shape := ⟨2, ![400000, 256]⟩
abbrev S400000x128 : Shape := ⟨2, ![400000, 128]⟩
abbrev S50000x128 : Shape := ⟨2, ![50000, 128]⟩
abbrev S25000x256 : Shape := ⟨2, ![25000, 256]⟩
abbrev S1x256 : Shape := ⟨2, ![1, 256]⟩
abbrev S1000x256 : Shape := ⟨2, ![1000, 256]⟩
abbrev S1000x1 : Shape := ⟨2, ![1000, 1]⟩
abbrev S1000x128 : Shape := ⟨2, ![1000, 128]⟩

abbrev nBuf : Space → Nat
  | .hbm => 165
  | .vmem => 56
  | .smem => 0
  | _ => 0

abbrev hbmTy0_0 (i : Nat) : BufTy := match i % 128 with
  | 0 => ⟨S50000x256, .f32⟩
  | 1 => ⟨S25000x128, .f32⟩
  | 2 => ⟨S400000, .i32⟩
  | 3 => ⟨S400000, .i32⟩
  | 4 => ⟨S400000, .i32⟩
  | 5 => ⟨S400000, .i32⟩
  | 6 => ⟨S400000, .i32⟩
  | 7 => ⟨S400000, .i32⟩
  | 8 => ⟨S256x256, .f32⟩
  | 9 => ⟨S256, .f32⟩
  | 10 => ⟨S256x256, .f32⟩
  | 11 => ⟨S128x256, .f32⟩
  | 12 => ⟨S256, .f32⟩
  | 13 => ⟨S256x256, .f32⟩
  | 14 => ⟨S256x256, .f32⟩
  | 15 => ⟨S256, .f32⟩
  | 16 => ⟨S128x256, .f32⟩
  | 17 => ⟨S256x256, .f32⟩
  | 18 => ⟨S256, .f32⟩
  | 19 => ⟨S256x256, .f32⟩
  | 20 => ⟨S256x256, .f32⟩
  | 21 => ⟨S256, .f32⟩
  | 22 => ⟨S256x256, .f32⟩
  | 23 => ⟨S256x256, .f32⟩
  | 24 => ⟨S256, .f32⟩
  | 25 => ⟨S256x256, .f32⟩
  | 26 => ⟨S_, .f32⟩
  | 27 => ⟨S400000, .f32⟩
  | 28 => ⟨S_, .f32⟩
  | 29 => ⟨S50000, .f32⟩
  | 30 => ⟨S400000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S_, .f32⟩
  | 40 => ⟨S400000, .f32⟩
  | 41 => ⟨S_, .f32⟩
  | 42 => ⟨S50000, .f32⟩
  | 43 => ⟨S400000x1, .i32⟩
  | 44 => ⟨S50000, .f32⟩
  | 45 => ⟨S_, .f32⟩
  | 46 => ⟨S50000, .f32⟩
  | 47 => ⟨S50000, .f32⟩
  | 48 => ⟨S_, .f32⟩
  | 49 => ⟨S50000, .f32⟩
  | 50 => ⟨S50000, .f32⟩
  | 51 => ⟨S50000x1, .f32⟩
  | 52 => ⟨S_, .f32⟩
  | 53 => ⟨S400000, .f32⟩
  | 54 => ⟨S_, .f32⟩
  | 55 => ⟨S25000, .f32⟩
  | 56 => ⟨S400000x1, .i32⟩
  | 57 => ⟨S25000, .f32⟩
  | 58 => ⟨S_, .f32⟩
  | 59 => ⟨S25000, .f32⟩
  | 60 => ⟨S25000, .f32⟩
  | 61 => ⟨S_, .f32⟩
  | 62 => ⟨S25000, .f32⟩
  | 63 => ⟨S25000, .f32⟩
  | 64 => ⟨S25000x1, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x256, .f32⟩
  | 74 => ⟨S_, .f32⟩
  | 75 => ⟨S50000x256, .f32⟩
  | 76 => ⟨S400000x1, .i32⟩
  | 77 => ⟨S50000x256, .f32⟩
  | 78 => ⟨S_, .i32⟩
  | 79 => ⟨S400000, .i32⟩
  | 80 => ⟨S400000, .i1⟩
  | 81 => ⟨S_, .i32⟩
  | 82 => ⟨S400000, .i32⟩
  | 83 => ⟨S400000, .i32⟩
  | 84 => ⟨S400000, .i32⟩
  | 85 => ⟨S400000x1, .i32⟩
  | 86 => ⟨S400000x128, .f32⟩
  | 87 => ⟨S_, .f32⟩
  | 88 => ⟨S50000x128, .f32⟩
  | 89 => ⟨S400000x1, .i32⟩
  | 90 => ⟨S50000x128, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x256, .f32⟩
  | 100 => ⟨S_, .f32⟩
  | 101 => ⟨S25000x256, .f32⟩
  | 102 => ⟨S400000x1, .i32⟩
  | 103 => ⟨S25000x256, .f32⟩
  | 104 => ⟨S256, .f32⟩
  | 105 => ⟨S1x256, .f32⟩
  | 106 => ⟨S256x256, .bf16⟩
  | 107 => ⟨S256x256, .bf16⟩
  | 108 => ⟨S128x256, .bf16⟩
  | 109 => ⟨S256x256, .bf16⟩
  | 110 => ⟨S50000x256, .f32⟩
  | 111 => ⟨S256x256, .bf16⟩
  | 112 => ⟨S128x256, .bf16⟩
  | 113 => ⟨S1x256, .f32⟩
  | 114 => ⟨S25000x256, .f32⟩
  | 115 => ⟨S_, .i32⟩
  | 116 => ⟨S400000, .i32⟩
  | 117 => ⟨S400000, .i1⟩
  | 118 => ⟨S_, .i32⟩
  | 119 => ⟨S400000, .i32⟩
  | 120 => ⟨S400000, .i32⟩
  | 121 => ⟨S400000, .i32⟩
  | 122 => ⟨S400000x1, .i32⟩
  | 123 => ⟨S400000x256, .f32⟩
  | 124 => ⟨S_, .f32⟩
  | 125 => ⟨S50000x256, .f32⟩
  | 126 => ⟨S400000x1, .i32⟩
  | 127 => ⟨S50000x256, .f32⟩
  | _ => ⟨S50000x256, .f32⟩

abbrev hbmTy0_1 (i : Nat) : BufTy := match i % 128 with
  | 0 => ⟨S_, .i32⟩
  | 1 => ⟨S400000, .i32⟩
  | 2 => ⟨S400000, .i1⟩
  | 3 => ⟨S_, .i32⟩
  | 4 => ⟨S400000, .i32⟩
  | 5 => ⟨S400000, .i32⟩
  | 6 => ⟨S400000, .i32⟩
  | 7 => ⟨S400000x1, .i32⟩
  | 8 => ⟨S400000x256, .f32⟩
  | 9 => ⟨S_, .f32⟩
  | 10 => ⟨S50000x256, .f32⟩
  | 11 => ⟨S400000x1, .i32⟩
  | 12 => ⟨S50000x256, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000x256, .f32⟩
  | 22 => ⟨S_, .f32⟩
  | 23 => ⟨S25000x256, .f32⟩
  | 24 => ⟨S400000x1, .i32⟩
  | 25 => ⟨S25000x256, .f32⟩
  | 26 => ⟨S256, .f32⟩
  | 27 => ⟨S1x256, .f32⟩
  | 28 => ⟨S256x256, .bf16⟩
  | 29 => ⟨S256x256, .bf16⟩
  | 30 => ⟨S256x256, .bf16⟩
  | 31 => ⟨S256x256, .bf16⟩
  | 32 => ⟨S50000x256, .f32⟩
  | 33 => ⟨S256x256, .bf16⟩
  | 34 => ⟨S256x256, .bf16⟩
  | 35 => ⟨S1x256, .f32⟩
  | 36 => ⟨S25000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S1000x1, .f32⟩
  | .local _ .vmem, ⟨3, _⟩ => ⟨S1000x1, .f32⟩
  | .local _ .vmem, ⟨4, _⟩ => ⟨S1000x128, .f32⟩
  | .local _ .vmem, ⟨5, _⟩ => ⟨S1000x128, .f32⟩
  | .local _ .vmem, ⟨6, _⟩ => ⟨S1000x1, .f32⟩
  | .local _ .vmem, ⟨7, _⟩ => ⟨S1000x1, .f32⟩
  | .local _ .vmem, ⟨8, _⟩ => ⟨S1000x256, .f32⟩
  | .local _ .vmem, ⟨9, _⟩ => ⟨S1000x256, .f32⟩
  | .local _ .vmem, ⟨10, _⟩ => ⟨S256x256, .bf16⟩
  | .local _ .vmem, ⟨11, _⟩ => ⟨S256x256, .bf16⟩
  | .local _ .vmem, ⟨12, _⟩ => ⟨S128x256, .bf16⟩
  | .local _ .vmem, ⟨13, _⟩ => ⟨S256x256, .bf16⟩
  | .local _ .vmem, ⟨14, _⟩ => ⟨S1x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x1, .f32⟩
  | .local _ .vmem, ⟨20, _⟩ => ⟨S1000x1, .f32⟩
  | .local _ .vmem, ⟨21, _⟩ => ⟨S1000x128, .f32⟩
  | .local _ .vmem, ⟨22, _⟩ => ⟨S1000x128, .f32⟩
  | .local _ .vmem, ⟨23, _⟩ => ⟨S256x256, .bf16⟩
  | .local _ .vmem, ⟨24, _⟩ => ⟨S128x256, .bf16⟩
  | .local _ .vmem, ⟨25, _⟩ => ⟨S1x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x1, .f32⟩
  | .local _ .vmem, ⟨31, _⟩ => ⟨S1000x1, .f32⟩
  | .local _ .vmem, ⟨32, _⟩ => ⟨S1000x256, .f32⟩
  | .local _ .vmem, ⟨33, _⟩ => ⟨S1000x256, .f32⟩
  | .local _ .vmem, ⟨34, _⟩ => ⟨S1000x1, .f32⟩
  | .local _ .vmem, ⟨35, _⟩ => ⟨S1000x1, .f32⟩
  | .local _ .vmem, ⟨36, _⟩ => ⟨S1000x256, .f32⟩
  | .local _ .vmem, ⟨37, _⟩ => ⟨S1000x256, .f32⟩
  | .local _ .vmem, ⟨38, _⟩ => ⟨S256x256, .bf16⟩
  | .local _ .vmem, ⟨39, _⟩ => ⟨S256x256, .bf16⟩
  | .local _ .vmem, ⟨40, _⟩ => ⟨S256x256, .bf16⟩
  | .local _ .vmem, ⟨41, _⟩ => ⟨S256x256, .bf16⟩
  | .local _ .vmem, ⟨42, _⟩ => ⟨S1x256, .f32⟩
  | .local _ .vmem, ⟨43, _⟩ => ⟨S1000x256, .f32⟩
  | .local _ .vmem, ⟨44, _⟩ => ⟨S1000x256, .f32⟩
  | .local _ .vmem, ⟨45, _⟩ => ⟨S1000x256, .f32⟩
  | .local _ .vmem, ⟨46, _⟩ => ⟨S1000x256, .f32⟩
  | .local _ .vmem, ⟨47, _⟩ => ⟨S1000x1, .f32⟩
  | .local _ .vmem, ⟨48, _⟩ => ⟨S1000x1, .f32⟩
  | .local _ .vmem, ⟨49, _⟩ => ⟨S1000x256, .f32⟩
  | .local _ .vmem, ⟨50, _⟩ => ⟨S1000x256, .f32⟩
  | .local _ .vmem, ⟨51, _⟩ => ⟨S256x256, .bf16⟩
  | .local _ .vmem, ⟨52, _⟩ => ⟨S256x256, .bf16⟩
  | .local _ .vmem, ⟨53, _⟩ => ⟨S1x256, .f32⟩
  | .local _ .vmem, ⟨54, _⟩ => ⟨S1000x256, .f32⟩
  | .local _ .vmem, ⟨55, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_cst_4 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_5 : Ref sig .tc := ⟨.hbm, 45, rfl⟩
abbrev main_v13 : Ref sig .tc := ⟨.hbm, 46, rfl⟩
abbrev main_v14 : Ref sig .tc := ⟨.hbm, 47, rfl⟩
abbrev main_cst_6 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_7 : Ref sig .tc := ⟨.hbm, 52, rfl⟩
abbrev main_v18 : Ref sig .tc := ⟨.hbm, 53, rfl⟩
abbrev main_cst_8 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_9 : Ref sig .tc := ⟨.hbm, 58, rfl⟩
abbrev main_v22 : Ref sig .tc := ⟨.hbm, 59, rfl⟩
abbrev main_v23 : Ref sig .tc := ⟨.hbm, 60, rfl⟩
abbrev main_cst_10 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c : Ref sig .tc := ⟨.hbm, 65, rfl⟩
abbrev main_v27 : Ref sig .tc := ⟨.hbm, 66, rfl⟩
abbrev main_v28 : Ref sig .tc := ⟨.hbm, 67, rfl⟩
abbrev main_c_11 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_12 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_c_13 : Ref sig .tc := ⟨.hbm, 78, rfl⟩
abbrev main_v37 : Ref sig .tc := ⟨.hbm, 79, rfl⟩
abbrev main_v38 : Ref sig .tc := ⟨.hbm, 80, rfl⟩
abbrev main_c_14 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_15 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_c_16 : Ref sig .tc := ⟨.hbm, 91, rfl⟩
abbrev main_v47 : Ref sig .tc := ⟨.hbm, 92, rfl⟩
abbrev main_v48 : Ref sig .tc := ⟨.hbm, 93, rfl⟩
abbrev main_c_17 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_18 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_19 : Ref sig .tc := ⟨.hbm, 115, rfl⟩
abbrev main_v68 : Ref sig .tc := ⟨.hbm, 116, rfl⟩
abbrev main_v69 : Ref sig .tc := ⟨.hbm, 117, rfl⟩
abbrev main_c_20 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_21 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_22 : Ref sig .tc := ⟨.hbm, 128, rfl⟩
abbrev main_v78 : Ref sig .tc := ⟨.hbm, 129, rfl⟩
abbrev main_v79 : Ref sig .tc := ⟨.hbm, 130, rfl⟩
abbrev main_c_23 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_24 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_c_25 : Ref sig .tc := ⟨.hbm, 141, rfl⟩
abbrev main_v88 : Ref sig .tc := ⟨.hbm, 142, rfl⟩
abbrev main_v89 : Ref sig .tc := ⟨.hbm, 143, rfl⟩
abbrev main_c_26 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_27 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg10_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  bcast_S_S25000 : S_.BroadcastsInDim S25000 (![] : Fin 0 → Fin S25000.rank)
  shapeCasts_S25000_S25000x1 : S25000.ShapeCasts S25000x1
  bcast_S_S50000x256 : S_.BroadcastsInDim S50000x256 (![] : Fin 0 → Fin S50000x256.rank)
  bcast_S_S50000x128 : S_.BroadcastsInDim S50000x128 (![] : Fin 0 → Fin S50000x128.rank)
  bcast_S_S25000x256 : S_.BroadcastsInDim S25000x256 (![] : Fin 0 → Fin S25000x256.rank)
  shapeCasts_S256_S1x256 : S256.ShapeCasts S1x256
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  broadcasts_S1000x1_S1000x128 : S1000x1.Broadcasts S1000x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  scatter_S50000_S400000x1_S400000_n_0_0_1_wf : ScatterDims.WF S50000 S400000x1 S400000 [] [0] [0] 1
  scatter_S25000_S400000x1_S400000_n_0_0_1_wf : ScatterDims.WF S25000 S400000x1 S400000 [] [0] [0] 1
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  gather_S25000x128_S400000x1_S400000x128_1_0_n_n_0_1_1128_wf : GatherDims.WF S25000x128 S400000x1 S400000x128 [1] [0] [] [0] [] 1 ![1, 128]
  scatter_S50000x128_S400000x1_S400000x128_1_0_0_1_wf : ScatterDims.WF S50000x128 S400000x1 S400000x128 [1] [0] [0] 1
  scatter_S25000x256_S400000x1_S400000x256_1_0_0_1_wf : ScatterDims.WF S25000x256 S400000x1 S400000x256 [1] [0] [0] 1
  dot_S1000x256_S256x256_S1000x256_1_0_0_1_n_n_wf : DotDims.WF S1000x256 S256x256 S1000x256 [1] [0] [0] [1] [] []
  dot_S1000x128_S128x256_S1000x256_1_0_0_1_n_n_wf : DotDims.WF S1000x128 S128x256 S1000x256 [1] [0] [0] [1] [] []
  gather_S25000x256_S400000x1_S400000x256_1_0_n_n_0_1_1256_wf : GatherDims.WF S25000x256 S400000x1 S400000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S50000x1.size a
  hwx0_3 : ∀ i : grid0.Coords, EltTy.bits .f32 = 32 ∨ (Rect.block (s := S50000x1) S1000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x256.size a ≤ S50000x256.size a
  hwx0_10 : ∀ i : grid0.Coords, EltTy.bits .f32 = 32 ∨ (Rect.block (s := S50000x256) S1000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S25000x256.size a
  hwx1_0 : ∀ i : grid1.Coords, EltTy.bits .f32 = 32 ∨ (Rect.block (s := S25000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S25000x1.size a
  hwx1_1 : ∀ i : grid1.Coords, EltTy.bits .f32 = 32 ∨ (Rect.block (s := S25000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S25000x128.size a
  hwx1_2 : ∀ i : grid1.Coords, EltTy.bits .f32 = 32 ∨ (Rect.block (s := S25000x128) S1000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .bf16 = 32 ∨ (Rect.block (s := S128x256) S128x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S25000x256.size a
  hwx1_6 : ∀ i : grid1.Coords, EltTy.bits .f32 = 32 ∨ (Rect.block (s := S25000x256) S1000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x256.size a ≤ S50000x256.size a
  hwx2_2 : ∀ i : grid2.Coords, EltTy.bits .f32 = 32 ∨ (Rect.block (s := S50000x256) S1000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S50000x1.size a
  hwx2_3 : ∀ i : grid2.Coords, EltTy.bits .f32 = 32 ∨ (Rect.block (s := S50000x1) S1000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S50000x256.size a
  hwx2_4 : ∀ i : grid2.Coords, EltTy.bits .f32 = 32 ∨ (Rect.block (s := S50000x256) S1000x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .bf16 = 32 ∨ (Rect.block (s := S256x256) S256x256.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .bf16 = 32 ∨ (Rect.block (s := S256x256) S256x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .bf16 = 32 ∨ (Rect.block (s := S256x256) S256x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1000x256.size a ≤ S50000x256.size a
  hwx2_10 : ∀ i : grid2.Coords, EltTy.bits .f32 = 32 ∨ (Rect.block (s := S50000x256) S1000x256.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S25000x256.size a
  hwx3_0 : ∀ i : grid3.Coords, EltTy.bits .f32 = 32 ∨ (Rect.block (s := S25000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S25000x1.size a
  hwx3_1 : ∀ i : grid3.Coords, EltTy.bits .f32 = 32 ∨ (Rect.block (s := S25000x1) S1000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S25000x256.size a
  hwx3_2 : ∀ i : grid3.Coords, EltTy.bits .f32 = 32 ∨ (Rect.block (s := S25000x256) S1000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x256.size a ≤ S25000x256.size a
  hwx3_6 : ∀ i : grid3.Coords, EltTy.bits .f32 = 32 ∨ (Rect.block (s := S25000x256) S1000x256.size (cc3_transform_6 i) (hinb3_6 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S25000x256_S400000x1_S400000x256_1_0_n_n_0_1_1256 : GatherDims S25000x256 S400000x1 S400000x256 where
  offsetDims := [1]
  collapsedSliceDims := [0]
  operandBatchingDims := []
  startIndicesBatchingDims := []
  startIndexMap := [0]
  indexVectorDim := 1
  sliceSizes := ![1, 256]
  wf := gather_S25000x256_S400000x1_S400000x256_1_0_n_n_0_1_1256_wf

abbrev win0_0 : Pipeline.Window sig grid0 :=
  Pipeline.Window.ofSpec (Memref.whole main_v36) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v59) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v60) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v61) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v62) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v58) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v63) S1000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v56) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v65) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v77) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v100) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v101) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v102) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v103) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v99) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v104) S1000x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v97) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v105) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v106) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v107) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v108) S1000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x256 : Shape := ⟨2, ![50000, 256]⟩
abbrev S25000x128 : Shape := ⟨2, ![25000, 128]⟩
abbrev S400000 : Shape := ⟨1, ![400000]⟩
abbrev S256x256 : Shape := ⟨2, ![256, 256]⟩
abbrev S256 : Shape := ⟨1, ![256]⟩
abbrev S128x256 : Shape := ⟨2, ![128, 256]⟩
abbrev S_ : Shape := ⟨0, ![]⟩
abbrev S400000x1 : Shape := ⟨2, ![400000, 1]⟩
abbrev S400000x256 : Shape := ⟨2, ![400000, 256]⟩
abbrev S50000 : Shape := ⟨1, ![50000]⟩
abbrev S50000x1 : Shape := ⟨2, ![50000, 1]⟩
abbrev S1x256 : Shape := ⟨2, ![1, 256]⟩
abbrev S400000x128 : Shape := ⟨2, ![400000, 128]⟩
abbrev S50000x128 : Shape := ⟨2, ![50000, 128]⟩
abbrev S25000x256 : Shape := ⟨2, ![25000, 256]⟩
abbrev S25000 : Shape := ⟨1, ![25000]⟩
abbrev S25000x1 : Shape := ⟨2, ![25000, 1]⟩

abbrev nBuf : Space → Nat
  | .hbm => 220
  | .vmem => 0
  | .smem => 0
  | _ => 0

abbrev hbmTy0_0 (i : Nat) : BufTy := match i % 128 with
  | 0 => ⟨S50000x256, .f32⟩
  | 1 => ⟨S25000x128, .f32⟩
  | 2 => ⟨S400000, .i32⟩
  | 3 => ⟨S400000, .i32⟩
  | 4 => ⟨S400000, .i32⟩
  | 5 => ⟨S400000, .i32⟩
  | 6 => ⟨S400000, .i32⟩
  | 7 => ⟨S400000, .i32⟩
  | 8 => ⟨S256x256, .f32⟩
  | 9 => ⟨S256, .f32⟩
  | 10 => ⟨S256x256, .f32⟩
  | 11 => ⟨S128x256, .f32⟩
  | 12 => ⟨S256, .f32⟩
  | 13 => ⟨S256x256, .f32⟩
  | 14 => ⟨S256x256, .f32⟩
  | 15 => ⟨S256, .f32⟩
  | 16 => ⟨S128x256, .f32⟩
  | 17 => ⟨S256x256, .f32⟩
  | 18 => ⟨S256, .f32⟩
  | 19 => ⟨S256x256, .f32⟩
  | 20 => ⟨S256x256, .f32⟩
  | 21 => ⟨S256, .f32⟩
  | 22 => ⟨S256x256, .f32⟩
  | 23 => ⟨S256x256, .f32⟩
  | 24 => ⟨S256, .f32⟩
  | 25 => ⟨S256x256, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x256, .f32⟩
  | 35 => ⟨S_, .f32⟩
  | 36 => ⟨S50000x256, .f32⟩
  | 37 => ⟨S400000x1, .i32⟩
  | 38 => ⟨S50000x256, .f32⟩
  | 39 => ⟨S_, .f32⟩
  | 40 => ⟨S400000, .f32⟩
  | 41 => ⟨S_, .f32⟩
  | 42 => ⟨S50000, .f32⟩
  | 43 => ⟨S400000x1, .i32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S50000x256, .f32⟩
  | 56 => ⟨S50000x256, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x128, .f32⟩
  | 66 => ⟨S_, .f32⟩
  | 67 => ⟨S50000x128, .f32⟩
  | 68 => ⟨S400000x1, .i32⟩
  | 69 => ⟨S50000x128, .f32⟩
  | 70 => ⟨S_, .f32⟩
  | 71 => ⟨S400000, .f32⟩
  | 72 => ⟨S_, .f32⟩
  | 73 => ⟨S50000, .f32⟩
  | 74 => ⟨S400000x1, .i32⟩
  | 75 => ⟨S50000, .f32⟩
  | 76 => ⟨S_, .f32⟩
  | 77 => ⟨S50000, .f32⟩
  | 78 => ⟨S50000, .f32⟩
  | 79 => ⟨S50000x1, .f32⟩
  | 80 => ⟨S50000x128, .f32⟩
  | 81 => ⟨S50000x128, .f32⟩
  | 82 => ⟨S50000x256, .f32⟩
  | 83 => ⟨S1x256, .f32⟩
  | 84 => ⟨S50000x256, .f32⟩
  | 85 => ⟨S50000x256, .f32⟩
  | 86 => ⟨S50000x256, .f32⟩
  | 87 => ⟨S50000x256, .f32⟩
  | 88 => ⟨S50000x256, .f32⟩
  | 89 => ⟨S_, .i32⟩
  | 90 => ⟨S400000, .i32⟩
  | 91 => ⟨S400000, .i1⟩
  | 92 => ⟨S_, .i32⟩
  | 93 => ⟨S400000, .i32⟩
  | 94 => ⟨S400000, .i32⟩
  | 95 => ⟨S400000, .i32⟩
  | 96 => ⟨S400000x1, .i32⟩
  | 97 => ⟨S400000x256, .f32⟩
  | 98 => ⟨S_, .f32⟩
  | 99 => ⟨S25000x256, .f32⟩
  | 100 => ⟨S400000x1, .i32⟩
  | 101 => ⟨S25000x256, .f32⟩
  | 102 => ⟨S_, .f32⟩
  | 103 => ⟨S400000, .f32⟩
  | 104 => ⟨S_, .f32⟩
  | 105 => ⟨S25000, .f32⟩
  | 106 => ⟨S400000x1, .i32⟩
  | 107 => ⟨S25000, .f32⟩
  | 108 => ⟨S_, .f32⟩
  | 109 => ⟨S25000, .f32⟩
  | 110 => ⟨S25000, .f32⟩
  | 111 => ⟨S25000x1, .f32⟩
  | 112 => ⟨S25000x256, .f32⟩
  | 113 => ⟨S25000x256, .f32⟩
  | 114 => ⟨S25000x256, .f32⟩
  | 115 => ⟨S1x256, .f32⟩
  | 116 => ⟨S25000x256, .f32⟩
  | 117 => ⟨S25000x256, .f32⟩
  | 118 => ⟨S25000x256, .f32⟩
  | 119 => ⟨S25000x256, .f32⟩
  | 120 => ⟨S_, .f32⟩
  | 121 => ⟨S50000x256, .f32⟩
  | 122 => ⟨S50000x256, .f32⟩
  | 123 => ⟨S_, .f32⟩
  | 124 => ⟨S25000x256, .f32⟩
  | 125 => ⟨S25000x256, .f32⟩
  | 126 => ⟨S_, .i32⟩
  | 127 => ⟨S400000, .i32⟩
  | _ => ⟨S50000x256, .f32⟩

abbrev hbmTy0_1 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x256, .f32⟩
  | 7 => ⟨S_, .f32⟩
  | 8 => ⟨S50000x256, .f32⟩
  | 9 => ⟨S400000x1, .i32⟩
  | 10 => ⟨S50000x256, .f32⟩
  | 11 => ⟨S_, .f32⟩
  | 12 => ⟨S400000, .f32⟩
  | 13 => ⟨S_, .f32⟩
  | 14 => ⟨S50000, .f32⟩
  | 15 => ⟨S400000x1, .i32⟩
  | 16 => ⟨S50000, .f32⟩
  | 17 => ⟨S_, .f32⟩
  | 18 => ⟨S50000, .f32⟩
  | 19 => ⟨S50000, .f32⟩
  | 20 => ⟨S50000x1, .f32⟩
  | 21 => ⟨S50000x256, .f32⟩
  | 22 => ⟨S50000x256, .f32⟩
  | 23 => ⟨S50000x256, .f32⟩
  | 24 => ⟨S1x256, .f32⟩
  | 25 => ⟨S50000x256, .f32⟩
  | 26 => ⟨S50000x256, .f32⟩
  | 27 => ⟨S50000x256, .f32⟩
  | 28 => ⟨S50000x256, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x256, .f32⟩
  | 38 => ⟨S_, .f32⟩
  | 39 => ⟨S50000x256, .f32⟩
  | 40 => ⟨S400000x1, .i32⟩
  | 41 => ⟨S50000x256, .f32⟩
  | 42 => ⟨S_, .f32⟩
  | 43 => ⟨S400000, .f32⟩
  | 44 => ⟨S_, .f32⟩
  | 45 => ⟨S50000, .f32⟩
  | 46 => ⟨S400000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S50000x256, .f32⟩
  | 59 => ⟨S50000x256, .f32⟩
  | 60 => ⟨S50000x256, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x256, .f32⟩
  | 70 => ⟨S_, .f32⟩
  | 71 => ⟨S25000x256, .f32⟩
  | 72 => ⟨S400000x1, .i32⟩
  | 73 => ⟨S25000x256, .f32⟩
  | 74 => ⟨S_, .f32⟩
  | 75 => ⟨S400000, .f32⟩
  | 76 => ⟨S_, .f32⟩
  | 77 => ⟨S25000, .f32⟩
  | 78 => ⟨S400000x1, .i32⟩
  | 79 => ⟨S25000, .f32⟩
  | 80 => ⟨S_, .f32⟩
  | 81 => ⟨S25000, .f32⟩
  | 82 => ⟨S25000, .f32⟩
  | 83 => ⟨S25000x1, .f32⟩
  | 84 => ⟨S25000x256, .f32⟩
  | 85 => ⟨S25000x256, .f32⟩
  | 86 => ⟨S25000x256, .f32⟩
  | 87 => ⟨S1x256, .f32⟩
  | 88 => ⟨S25000x256, .f32⟩
  | 89 => ⟨S25000x256, .f32⟩
  | 90 => ⟨S25000x256, .f32⟩
  | 91 => ⟨S25000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_10 : Ref sig .tc := ⟨.hbm, 89, rfl⟩
abbrev main_v51 : Ref sig .tc := ⟨.hbm, 90, rfl⟩
abbrev main_v52 : Ref sig .tc := ⟨.hbm, 91, rfl⟩
abbrev main_c_11 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_12 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_13 : Ref sig .tc := ⟨.hbm, 102, rfl⟩
abbrev main_v61 : Ref sig .tc := ⟨.hbm, 103, rfl⟩
abbrev main_cst_14 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_15 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_call0_cst : Ref sig .tc := ⟨.hbm, 120, rfl⟩
abbrev main_call0_v0 : Ref sig .tc := ⟨.hbm, 121, rfl⟩
abbrev main_v76 : Ref sig .tc := ⟨.hbm, 122, rfl⟩
abbrev main_call1_cst : Ref sig .tc := ⟨.hbm, 123, rfl⟩
abbrev main_call1_v0 : Ref sig .tc := ⟨.hbm, 124, rfl⟩
abbrev main_v77 : Ref sig .tc := ⟨.hbm, 125, rfl⟩
abbrev main_c_16 : Ref sig .tc := ⟨.hbm, 126, rfl⟩
abbrev main_v78 : Ref sig .tc := ⟨.hbm, 127, rfl⟩
abbrev main_v79 : Ref sig .tc := ⟨.hbm, 128, rfl⟩
abbrev main_c_17 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_18 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_19 : Ref sig .tc := ⟨.hbm, 139, rfl⟩
abbrev main_v88 : Ref sig .tc := ⟨.hbm, 140, rfl⟩
abbrev main_cst_20 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_21 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_22 : Ref sig .tc := ⟨.hbm, 157, rfl⟩
abbrev main_v103 : Ref sig .tc := ⟨.hbm, 158, rfl⟩
abbrev main_v104 : Ref sig .tc := ⟨.hbm, 159, rfl⟩
abbrev main_c_23 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_24 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_25 : Ref sig .tc := ⟨.hbm, 170, rfl⟩
abbrev main_v113 : Ref sig .tc := ⟨.hbm, 171, rfl⟩
abbrev main_cst_26 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_27 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_c_28 : Ref sig .tc := ⟨.hbm, 189, rfl⟩
abbrev main_v129 : Ref sig .tc := ⟨.hbm, 190, rfl⟩
abbrev main_v130 : Ref sig .tc := ⟨.hbm, 191, rfl⟩
abbrev main_c_29 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_30 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_31 : Ref sig .tc := ⟨.hbm, 202, rfl⟩
abbrev main_v139 : Ref sig .tc := ⟨.hbm, 203, rfl⟩
abbrev main_cst_32 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_cst_33 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  bcast_S1x256_S25000x256_0_1 : S1x256.BroadcastsInDim S25000x256 (![0, 1] : Fin 2 → Fin S25000x256.rank)
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S50000_S400000x1_S400000_n_0_0_1_wf : ScatterDims.WF S50000 S400000x1 S400000 [] [0] [0] 1
  dot_S50000x256_S256x256_S50000x256_1_0_0_1_n_n_wf : DotDims.WF S50000x256 S256x256 S50000x256 [1] [0] [0] [1] [] []
  gather_S25000x128_S400000x1_S400000x128_1_0_n_n_0_1_1128_wf : GatherDims.WF S25000x128 S400000x1 S400000x128 [1] [0] [] [0] [] 1 ![1, 128]
  scatter_S50000x128_S400000x1_S400000x128_1_0_0_1_wf : ScatterDims.WF S50000x128 S400000x1 S400000x128 [1] [0] [0] 1
  dot_S50000x128_S128x256_S50000x256_1_0_0_1_n_n_wf : DotDims.WF S50000x128 S128x256 S50000x256 [1] [0] [0] [1] [] []
  scatter_S25000x256_S400000x1_S400000x256_1_0_0_1_wf : ScatterDims.WF S25000x256 S400000x1 S400000x256 [1] [0] [0] 1
  scatter_S25000_S400000x1_S400000_n_0_0_1_wf : ScatterDims.WF S25000 S400000x1 S400000 [] [0] [0] 1
  dot_S25000x256_S256x256_S25000x256_1_0_0_1_n_n_wf : DotDims.WF S25000x256 S256x256 S25000x256 [1] [0] [0] [1] [] []
  dot_S25000x128_S128x256_S25000x256_1_0_0_1_n_n_wf : DotDims.WF S25000x128 S128x256 S25000x256 [1] [0] [0] [1] [] []
  gather_S25000x256_S400000x1_S400000x256_1_0_n_n_0_1_1256_wf : GatherDims.WF S25000x256 S400000x1 S400000x256 [1] [0] [] [0] [] 1 ![1, 256]

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S25000x128_S400000x1_S400000x128_1_0_n_n_0_1_1128 : GatherDims S25000x128 S400000x1 S400000x128 where
  offsetDims := [1]
  collapsedSliceDims := [0]
  operandBatchingDims := []
  startIndicesBatchingDims := []
  startIndexMap := [0]
  indexVectorDim := 1
  sliceSizes := ![1, 128]
  wf := gather_S25000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S25000x256_S400000x1_S400000x256_1_0_0_1 : ScatterDims S25000x256 S400000x1 S400000x256 where
  updateWindowDims := [1]
  insertedWindowDims := [0]
  scatterDimsToOperandDims := [0]
  indexVectorDim := 1
  wf := scatter_S25000x256_S400000x1_S400000x256_1_0_0_1_wf
def scatter_S25000_S400000x1_S400000_n_0_0_1 : ScatterDims S25000 S400000x1 S400000 where
  updateWindowDims := []
  insertedWindowDims := [0]
  scatterDimsToOperandDims := [0]
  indexVectorDim := 1
  wf := scatter_S25000_S400000x1_S400000_n_0_0_1_wf
def dot_S25000x256_S256x256_S25000x256_1_0_0_1_n_n : DotDims S25000x256 S256x256 S25000x256 where
  lhsContracting := [1]
  rhsContracting := [0]
  lhsNonContracting := [0]
  rhsNonContracting := [1]
  lhsBatch := []
  rhsBatch := []
  wf := dot_S25000x256_S256x256_S25000x256_1_0_0_1_n_n_wf
def dot_S25000x128_S128x256_S25000x256_1_0_0_1_n_n : DotDims S25000x128 S128x256 S25000x256 where
  lhsContracting := [1]
  rhsContracting := [0]
  lhsNonContracting := [0]
  rhsNonContracting := [1]
  lhsBatch := []
  rhsBatch := []
  wf := dot_S25000x128_S128x256_S25000x256_1_0_0_1_n_n_wf
def gather_S25000x256_S400000x1_S400000x256_1_0_n_n_0_1_1256 : GatherDims S25000x256 S400000x1 S400000x256 where
  offsetDims := [1]
  collapsedSliceDims := [0]
  operandBatchingDims := []
  startIndicesBatchingDims := []
  startIndexMap := [0]
  indexVectorDim := 1
  sliceSizes := ![1, 256]
  wf := gather_S25000x256_S400000x1_S400000x256_1_0_n_n_0_1_1256_wf

class Facts : Prop extends Facts₀ where

variable [Facts]
-- ==== Proof.KRun.lean ====
/-
  The kernel program's run with its two results kept.

  The program is eight segments: a stretch of host operations, then a tiled kernel, four times over. The launch
  theorem for such a chain ends with every buffer of the TensorCore at the contents the last boundary predicts; the
  frame claim keeps only the argument arrays of that state. Here the same run is stated once more keeping also the two
  result arrays, each at the last boundary's contents for its buffer — what the value claim needs to read.
-/
import proofs.«102993_j62981400429145_2_alg».proof.Proof.Gen.KernelIdeal.Frame

set_option maxRecDepth 16384

noncomputable section

namespace Cert.Hetero.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault, its two results at the last
    boundary's contents and its arguments as launched. -/
theorem run_results : θ_run defs (onTc (τ := τ) (main (F := F))) ⟨m, fun _ => 0, ρ⟩ (fun r => ∀ c : Dev nD,
      r.2.mem ((c.tc : Thread nD τ).loc main_v104) = W8 m ρ c (Proc.devRef .tc main_v104)
      ∧ r.2.mem ((c.tc : Thread nD τ).loc main_v108) = W8 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v104 (by decide)),
       h c _ (mem_uc main_v108 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c)⟩)

end Cert.Hetero.K

end
-- ==== Proof.Spec.lean ====
/-
  What one combine step of the network computes, as ONE function of whole arrays, entry by entry.

  For a destination node (row) `r` and an output feature (column) `c`:

    two … (r, c) = Σₖ (msg₁ r k · inv₁ r) · Wl₁ k c + Σₖ x r k · Wr₁ k c
                   + Σₖ (msg₂ r k · inv₂ r) · Wl₂ k c + Σₖ x r k · Wr₂ k c + b c
    one … (r, c) = Σₖ (msg r k · inv r) · Wl k c + Σₖ x r k · Wr k c + b c

  where `msg` is the summed neighbour features of the row, `inv` the reciprocal of its clamped in-degree (an [N, 1]
  column), `x` the row's own features and `b` a [1, h] bias row. Entry (r, c) depends on row `r` of the row-indexed
  operands and on column `c` of the weights only: `two_ext` / `one_ext` say so, which is what lets a row tile of the
  result be computed from the same row tile of the operands.
-/
import Idealize.ShloMosaic.PureOps.Ideal
import Idealize.ShloMosaic.Lib.ValueIdx

noncomputable section

namespace Cert.Hetero

open Idealize.ShloMosaic Idealize.ShloMosaic.ValueIdx

/-- An [n, d] array of extended reals. -/
abbrev Mat (n d : Nat) : Type := (⟨2, ![n, d]⟩ : Shape).Idx → EReal

/-- Two edge types into one destination type: both mean-aggregated neighbour terms, both self terms, one bias row. -/
def two (N d1 d2 dx h : Nat) (msg1 : Mat N d1) (inv1 : Mat N 1) (msg2 : Mat N d2) (inv2 : Mat N 1) (xd : Mat N dx)
    (wl1 : Mat d1 h) (wr1 : Mat dx h) (wl2 : Mat d2 h) (wr2 : Mat dx h) (b : Mat 1 h) : Mat N h := fun i =>
  (∑ k : Fin d1, (msg1 (ix2 (i 0) k) * inv1 (ix2 (i 0) 0)) * wl1 (ix2 k (i 1)))
    + (∑ k : Fin dx, xd (ix2 (i 0) k) * wr1 (ix2 k (i 1)))
    + (∑ k : Fin d2, (msg2 (ix2 (i 0) k) * inv2 (ix2 (i 0) 0)) * wl2 (ix2 k (i 1)))
    + (∑ k : Fin dx, xd (ix2 (i 0) k) * wr2 (ix2 k (i 1)))
    + b (ix2 0 (i 1))

/-- One edge type into a destination type: the mean-aggregated neighbour term, the self term, the bias row. -/
def one (N d dx h : Nat) (msg : Mat N d) (inv : Mat N 1) (xd : Mat N dx) (wl : Mat d h) (wr : Mat dx h) (b : Mat 1 h) :
    Mat N h := fun i =>
  (∑ k : Fin d, (msg (ix2 (i 0) k) * inv (ix2 (i 0) 0)) * wl (ix2 k (i 1)))
    + (∑ k : Fin dx, xd (ix2 (i 0) k) * wr (ix2 k (i 1)))
    + b (ix2 0 (i 1))

/-- The rectifier: the larger of the entry and zero (zero as the float word the programs print). -/
def relu {N h : Nat} (x : Mat N h) : Mat N h := fun i => max (x i) (Ideal.ofBits .f32 0x00000000#32)

/-- Entry (r, c) of `two` reads row `r` of the row-indexed operands and column `c` of the weights and bias. -/
theorem two_ext {N N' d1 d2 dx h : Nat}
    {msg1 : Mat N d1} {inv1 : Mat N 1} {msg2 : Mat N d2} {inv2 : Mat N 1} {xd : Mat N dx}
    {wl1 : Mat d1 h} {wr1 : Mat dx h} {wl2 : Mat d2 h} {wr2 : Mat dx h} {b : Mat 1 h}
    {msg1' : Mat N' d1} {inv1' : Mat N' 1} {msg2' : Mat N' d2} {inv2' : Mat N' 1} {xd' : Mat N' dx}
    {wl1' : Mat d1 h} {wr1' : Mat dx h} {wl2' : Mat d2 h} {wr2' : Mat dx h} {b' : Mat 1 h}
    (i : (⟨2, ![N, h]⟩ : Shape).Idx) (i' : (⟨2, ![N', h]⟩ : Shape).Idx)
    (h1 : ∀ k, msg1 (ix2 (i 0) k) = msg1' (ix2 (i' 0) k)) (hi1 : inv1 (ix2 (i 0) 0) = inv1' (ix2 (i' 0) 0))
    (h2 : ∀ k, msg2 (ix2 (i 0) k) = msg2' (ix2 (i' 0) k)) (hi2 : inv2 (ix2 (i 0) 0) = inv2' (ix2 (i' 0) 0))
    (hx : ∀ k, xd (ix2 (i 0) k) = xd' (ix2 (i' 0) k))
    (hwl1 : ∀ k, wl1 (ix2 k (i 1)) = wl1' (ix2 k (i' 1))) (hwr1 : ∀ k, wr1 (ix2 k (i 1)) = wr1' (ix2 k (i' 1)))
    (hwl2 : ∀ k, wl2 (ix2 k (i 1)) = wl2' (ix2 k (i' 1))) (hwr2 : ∀ k, wr2 (ix2 k (i 1)) = wr2' (ix2 k (i' 1)))
    (hb : b (ix2 0 (i 1)) = b' (ix2 0 (i' 1))) :
    two N d1 d2 dx h msg1 inv1 msg2 inv2 xd wl1 wr1 wl2 wr2 b i
      = two N' d1 d2 dx h msg1' inv1' msg2' inv2' xd' wl1' wr1' wl2' wr2' b' i' := by
  unfold two
  simp only [h1, hi1, h2, hi2, hx, hwl1, hwr1, hwl2, hwr2, hb]

/-- Entry (r, c) of `one` reads row `r` of the row-indexed operands and column `c` of the weights and bias. -/
theorem one_ext {N N' d dx h : Nat}
    {msg : Mat N d} {inv : Mat N 1} {xd : Mat N dx} {wl : Mat d h} {wr : Mat dx h} {b : Mat 1 h}
    {msg' : Mat N' d} {inv' : Mat N' 1} {xd' : Mat N' dx} {wl' : Mat d h} {wr' : Mat dx h} {b' : Mat 1 h}
    (i : (⟨2, ![N, h]⟩ : Shape).Idx) (i' : (⟨2, ![N', h]⟩ : Shape).Idx)
    (h1 : ∀ k, msg (ix2 (i 0) k) = msg' (ix2 (i' 0) k)) (hi1 : inv (ix2 (i 0) 0) = inv' (ix2 (i' 0) 0))
    (hx : ∀ k, xd (ix2 (i 0) k) = xd' (ix2 (i' 0) k))
    (hwl : ∀ k, wl (ix2 k (i 1)) = wl' (ix2 k (i' 1))) (hwr : ∀ k, wr (ix2 k (i 1)) = wr' (ix2 k (i' 1)))
    (hb : b (ix2 0 (i 1)) = b' (ix2 0 (i' 1))) :
    one N d dx h msg inv xd wl wr b i = one N' d dx h msg' inv' xd' wl' wr' b' i' := by
  unfold one
  simp only [h1, hi1, hx, hwl, hwr, hb]

end Cert.Hetero

end
-- ==== Proof.KHost.lean ====
/-
  The host side of the kernel program as pure functions of arrays, and the program's two results as one term each.

  Between the tiled kernels the program runs plain array operations: an index vector wrapped at negative values and
  made a column; the neighbour sum of an edge type (gather the source rows, add them into the destination rows of a
  zero array); the in-degree (add ones into a zero vector), clamped below by one, its reciprocal reshaped to a column;
  a weight cast to bf16; a bias reshaped to a row. `P1`, `A1`, `P2of`, `A2of` then say what the four kernels leave: the
  two layers' outputs for the paper rows and the author rows.
-/
import proofs.«102993_j62981400429145_2_alg».proof.Proof.Gen.KernelIdeal
import proofs.«102993_j62981400429145_2_alg».proof.Proof.Spec

set_option synthInstance.maxSize 4096

noncomputable section

namespace Cert.Hetero.K

open Idealize.ShloMosaic Idealize.ShloMosaic.ValueIdx Cert.KernelIdeal
open Cert.KernelIdeal.Facts₀ Cert.KernelIdeal.Facts

variable {F : FTy → Type} [FloatOps F]

/-- An index vector as a column of indices. -/
def col (s : IVec S400000 32) : IVec S400000x1 32 := broadcastInDim S400000x1 ![0] bcast_S400000_S400000x1_0 s

/-- Negative paper indices count from the end (50000 rows). -/
def wrapP (s : IVec S400000 32) : IVec S400000 32 :=
  select (cmpi .slt s (broadcastInDim S400000 ![] bcast_S_S400000 (constantI S_ 32 0#32)))
    (addi s (broadcastInDim S400000 ![] bcast_S_S400000 (constantI S_ 32 50000#32))) s

/-- Negative author indices count from the end (25000 rows). -/
def wrapA (s : IVec S400000 32) : IVec S400000 32 :=
  select (cmpi .slt s (broadcastInDim S400000 ![] bcast_S_S400000 (constantI S_ 32 0#32)))
    (addi s (broadcastInDim S400000 ![] bcast_S_S400000 (constantI S_ 32 25000#32))) s

/-- In-degrees of the paper rows under destination indices `d`. -/
def cntP (d : IVec S400000 32) : FVec F S50000 .f32 :=
  Host.scatterAdd scatter_S50000_S400000x1_S400000_n_0_0_1
    (broadcastInDim S50000 ![] bcast_S_S50000 (constant S_ .f32 0x00000000#32)) (col d)
    (broadcastInDim S400000 ![] bcast_S_S400000 (constant S_ .f32 0x3F800000#32))

/-- In-degrees of the author rows under destination indices `d`. -/
def cntA (d : IVec S400000 32) : FVec F S25000 .f32 :=
  Host.scatterAdd scatter_S25000_S400000x1_S400000_n_0_0_1
    (broadcastInDim S25000 ![] bcast_S_S25000 (constant S_ .f32 0x00000000#32)) (col d)
    (broadcastInDim S400000 ![] bcast_S_S400000 (constant S_ .f32 0x3F800000#32))

/-- The reciprocal of the clamped in-degree of each paper row, as a column. -/
def invP (d : IVec S400000 32) : FVec F S50000x1 .f32 :=
  shapeCast S50000x1 (Host.divf (broadcastInDim S50000 ![] bcast_S_S50000 (constant S_ .f32 0x3F800000#32))
    (maximumf (cntP d) (broadcastInDim S50000 ![] bcast_S_S50000 (constant S_ .f32 0x3F800000#32)))) shapeCasts_S50000_S50000x1

/-- The reciprocal of the clamped in-degree of each author row, as a column. -/
def invA (d : IVec S400000 32) : FVec F S25000x1 .f32 :=
  shapeCast S25000x1 (Host.divf (broadcastInDim S25000 ![] bcast_S_S25000 (constant S_ .f32 0x3F800000#32))
    (maximumf (cntA d) (broadcastInDim S25000 ![] bcast_S_S25000 (constant S_ .f32 0x3F800000#32)))) shapeCasts_S25000_S25000x1

/-- Paper features summed into paper rows along edges `s → d`. -/
def msgPP (x : FVec F S50000x256 .f32) (s d : IVec S400000 32) : FVec F S50000x256 .f32 :=
  Host.scatterAdd scatter_S50000x256_S400000x1_S400000x256_1_0_0_1
    (broadcastInDim S50000x256 ![] bcast_S_S50000x256 (constant S_ .f32 0x00000000#32)) (col d)
    (Host.gather gather_S50000x256_S400000x1_S400000x256_1_0_n_n_0_1_1256 x (col (wrapP s)))

/-- First-layer author features (128 wide) summed into paper rows. -/
def msgAP1 (x : FVec F S25000x128 .f32) (s d : IVec S400000 32) : FVec F S50000x128 .f32 :=
  Host.scatterAdd scatter_S50000x128_S400000x1_S400000x128_1_0_0_1
    (broadcastInDim S50000x128 ![] bcast_S_S50000x128 (constant S_ .f32 0x00000000#32)) (col d)
    (Host.gather gather_S25000x128_S400000x1_S400000x128_1_0_n_n_0_1_1128 x (col (wrapA s)))

/-- Paper features summed into author rows. -/
def msgPA (x : FVec F S50000x256 .f32) (s d : IVec S400000 32) : FVec F S25000x256 .f32 :=
  Host.scatterAdd scatter_S25000x256_S400000x1_S400000x256_1_0_0_1
    (broadcastInDim S25000x256 ![] bcast_S_S25000x256 (constant S_ .f32 0x00000000#32)) (col d)
    (Host.gather gather_S50000x256_S400000x1_S400000x256_1_0_n_n_0_1_1256 x (col (wrapP s)))

/-- Second-layer author features (256 wide) summed into paper rows. -/
def msgAP2 (x : FVec F S25000x256 .f32) (s d : IVec S400000 32) : FVec F S50000x256 .f32 :=
  Host.scatterAdd scatter_S50000x256_S400000x1_S400000x256_1_0_0_1
    (broadcastInDim S50000x256 ![] bcast_S_S50000x256 (constant S_ .f32 0x00000000#32)) (col d)
    (Host.gather gather_S25000x256_S400000x1_S400000x256_1_0_n_n_0_1_1256 x (col (wrapA s)))

/-- A weight cast to bf16 (the identity on the extended reals). -/
def trW {s : Shape} (w : FVec F s .f32) : FVec F s .bf16 := truncf .bf16 w bitsLt_bf16_f32

/-- A bias vector as a [1, 256] row. -/
def rowB (b : FVec F S256 .f32) : FVec F S1x256 .f32 := shapeCast S1x256 b shapeCasts_S256_S1x256

/-! ## The four kernels' outputs as terms of the arguments (extended reals) -/

/-- First layer, paper rows. -/
def P1 (a0 : FVec Ideal S50000x256 .f32) (a1 : FVec Ideal S25000x128 .f32) (a2 a3 a4 a5 : IVec S400000 32)
    (a8 : FVec Ideal S256x256 .f32) (a9 : FVec Ideal S256 .f32) (a10 : FVec Ideal S256x256 .f32)
    (a11 : FVec Ideal S128x256 .f32) (a12 : FVec Ideal S256 .f32) (a13 : FVec Ideal S256x256 .f32) : Mat 50000 256 :=
  relu (two 50000 256 128 256 256 (msgPP a0 a2 a3) (invP (F := Ideal) a3) (msgAP1 a1 a4 a5) (invP (F := Ideal) a5) a0
    (trW a8) (trW a10) (trW a11) (trW a13) (rowB (addf a9 a12)))

/-- First layer, author rows. -/
def A1 (a0 : FVec Ideal S50000x256 .f32) (a1 : FVec Ideal S25000x128 .f32) (a6 a7 : IVec S400000 32)
    (a14 : FVec Ideal S256x256 .f32) (a15 : FVec Ideal S256 .f32) (a16 : FVec Ideal S128x256 .f32) : Mat 25000 256 :=
  relu (one 25000 256 128 256 (msgPA a0 a6 a7) (invA (F := Ideal) a7) a1 (trW a14) (trW a16) (rowB a15))

/-- Second layer, paper rows, from the first layer's outputs. -/
def P2of (p1 : FVec Ideal S50000x256 .f32) (q1 : FVec Ideal S25000x256 .f32) (a2 a3 a4 a5 : IVec S400000 32)
    (a17 : FVec Ideal S256x256 .f32) (a18 : FVec Ideal S256 .f32) (a19 a20 : FVec Ideal S256x256 .f32)
    (a21 : FVec Ideal S256 .f32) (a22 : FVec Ideal S256x256 .f32) : Mat 50000 256 :=
  two 50000 256 256 256 256 (msgPP p1 a2 a3) (invP (F := Ideal) a3) (msgAP2 q1 a4 a5) (invP (F := Ideal) a5) p1
    (trW a17) (trW a19) (trW a20) (trW a22) (rowB (addf a18 a21))

/-- Second layer, author rows, from the first layer's outputs. -/
def A2of (p1 : FVec Ideal S50000x256 .f32) (q1 : FVec Ideal S25000x256 .f32) (a6 a7 : IVec S400000 32)
    (a23 : FVec Ideal S256x256 .f32) (a24 : FVec Ideal S256 .f32) (a25 : FVec Ideal S256x256 .f32) : Mat 25000 256 :=
  one 25000 256 256 256 (msgPA p1 a6 a7) (invA (F := Ideal) a7) q1 (trW a23) (trW a25) (rowB a24)

end Cert.Hetero.K

end
-- ==== Proof.Sums.lean ====
/-
  Laws of the extended reals and of a one-axis contraction that the layer identities below rest on.

  * A reciprocal taken first: for `c ≠ 0` (infinite `c` included) the exact quotient `x / c` is the product
    `x · (1 / c)`, because both are `x · c⁻¹`. A clamped count `max a 1` is never `0`.
  * Five summands regrouped: only commutativity and associativity of `+` on the extended reals are used, so no
    finiteness is needed.
  * A matrix product over one contracted axis of extent `K` is the plain sum over `k : Fin K` of the left operand at
    (row, k) times the right operand at (k, column), once the four coordinate facts of the dimension numbers are known.
-/
import Idealize.ShloMosaic.PureOps.Ideal
import Idealize.ShloMosaic.PureOps.Ideal.Laws
import Idealize.ShloMosaic.Lib.ValueIdx

noncomputable section

namespace Cert.Hetero

open Idealize.ShloMosaic Idealize.ShloMosaic.ValueIdx

/-- A count clamped below by one is not zero. -/
theorem max_one_ne_zero (a : EReal) : max a 1 ≠ 0 := by
  intro e
  have h : (1 : EReal) ≤ max a 1 := le_max_right _ _
  rw [e] at h
  have h01 : (0 : EReal) < 1 := by exact_mod_cast (zero_lt_one : (0 : ℝ) < 1)
  exact absurd h (not_le.mpr h01)

/-- Multiplying by the reciprocal of a nonzero extended real is dividing by it: both are `x · c⁻¹`. -/
theorem mul_recip (x c : EReal) (hc : c ≠ 0) : x * Ideal.div 1 c = Ideal.div x c := by
  rw [Ideal.div, Ideal.div, if_neg hc, if_neg hc, one_mul]

/-- The mean of a row entry: the sum times the reciprocal of the clamped count is the sum divided by it. -/
theorem mean_eq (x a : EReal) : x * Ideal.div 1 (max a 1) = Ideal.div x (max a 1) :=
  mul_recip x _ (max_one_ne_zero a)

/-- Two neighbour terms, two self terms and the two biases, summed in the two groupings. -/
theorem regroup2 (A B C D b1 b2 : EReal) :
    A + B + C + D + (b1 + b2) = (A + b1 + B) + (C + b2 + D) := by
  ac_rfl

/-- One neighbour term, one self term and the bias. -/
theorem regroup1 (A B b : EReal) : A + B + b = A + b + B := by
  ac_rfl

/-- A product of an [n, K] by a [K, p] matrix over the one contracted axis, as a sum over `Fin K`. -/
theorem dot_sum {n K p : Nat} (d : DotDims ⟨2, ![n, K]⟩ ⟨2, ![K, p]⟩ ⟨2, ![n, p]⟩) (hr : d.contr.rank = 1)
    (hs : d.contr.size ⟨0, by omega⟩ = K)
    (h1 : ∀ (j : (⟨2, ![n, p]⟩ : Shape).Idx) (q : d.contr.Idx), (d.lhsIdx j q 0).val = (j 0).val)
    (h2 : ∀ (j : (⟨2, ![n, p]⟩ : Shape).Idx) (q : d.contr.Idx), (d.lhsIdx j q 1).val = (q ⟨0, by omega⟩).val)
    (h3 : ∀ (j : (⟨2, ![n, p]⟩ : Shape).Idx) (q : d.contr.Idx), (d.rhsIdx j q 0).val = (q ⟨0, by omega⟩).val)
    (h4 : ∀ (j : (⟨2, ![n, p]⟩ : Shape).Idx) (q : d.contr.Idx), (d.rhsIdx j q 1).val = (j 1).val)
    (l : (⟨2, ![n, K]⟩ : Shape).Idx → EReal) (r : (⟨2, ![K, p]⟩ : Shape).Idx → EReal) (j : (⟨2, ![n, p]⟩ : Shape).Idx) :
    ∑ q : d.contr.Idx, l (d.lhsIdx j q) * r (d.rhsIdx j q)
      = ∑ k : Fin K, l (ix2 (j 0) k) * r (ix2 k (j 1)) := by
  rw [← Equiv.sum_comp (contrEquiv1 d K hr hs) (fun k : Fin K => l (ix2 (j 0) k) * r (ix2 k (j 1)))]
  refine Finset.sum_congr rfl fun q _ => ?_
  have el : d.lhsIdx j q = ix2 (j 0) (contrEquiv1 d K hr hs q) := funext fun a => Fin.ext (by
    match a with
    | ⟨0, _⟩ => exact h1 j q
    | ⟨1, _⟩ => exact h2 j q)
  have er : d.rhsIdx j q = ix2 (contrEquiv1 d K hr hs q) (j 1) := funext fun a => Fin.ext (by
    match a with
    | ⟨0, _⟩ => exact h3 j q
    | ⟨1, _⟩ => exact h4 j q)
  rw [el, er]
  rfl

end Cert.Hetero

end
-- ==== Proof.KDots.lean ====
/-
  The kernel bodies' non-pointwise operations read at one entry.

  * A `tpu.matmul` of a [1000, K] tile by a [K, 256] weight into a zero accumulator is, at entry (r, c), the sum over
    `k : Fin K` of the tile at (r, k) times the weight at (k, c) — for both contracted extents the bodies use, 256 and 128.
  * A [1000, 1] column broadcast along the lanes reads the column at (r, 0); a [1, 256] row broadcast down the
    sublanes reads the row at (0, c).
-/
import proofs.«102993_j62981400429145_2_alg».proof.Proof.Gen.KernelIdeal
import proofs.«102993_j62981400429145_2_alg».proof.Proof.Sums
import Idealize.ShloMosaic.Lib.Pipeline.Value
import Idealize.ShloMosaic.PureOps.Ideal.Laws

set_option synthInstance.maxSize 4096

noncomputable section

namespace Cert.Hetero.K

open Idealize.ShloMosaic Idealize.ShloMosaic.ValueIdx Cert.KernelIdeal
open Cert.KernelIdeal.Facts₀ Cert.KernelIdeal.Facts

theorem dA_l0 (i : S1000x256.Idx) (q : dot_S1000x256_S256x256_S1000x256_1_0_0_1_n_n.contr.Idx) : (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem dA_l1 (i : S1000x256.Idx) (q : dot_S1000x256_S256x256_S1000x256_1_0_0_1_n_n.contr.Idx) : (dot_S1000x256_S256x256_S1000x256_1_0_0_1_n_n.lhsIdx i q 1).val = (q ⟨0, by decide⟩).val :=
  dot_S1000x256_S256x256_S1000x256_1_0_0_1_n_n.lhsIdx_val_of_single rfl i q
theorem dA_r0 (i : S1000x256.Idx) (q : dot_S1000x256_S256x256_S1000x256_1_0_0_1_n_n.contr.Idx) : (dot_S1000x256_S256x256_S1000x256_1_0_0_1_n_n.rhsIdx i q 0).val = (q ⟨0, by decide⟩).val :=
  dot_S1000x256_S256x256_S1000x256_1_0_0_1_n_n.rhsIdx_val_of_single rfl i q
theorem dA_r1 (i : S1000x256.Idx) (q : dot_S1000x256_S256x256_S1000x256_1_0_0_1_n_n.contr.Idx) : (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

theorem dB_l0 (i : S1000x256.Idx) (q : dot_S1000x128_S128x256_S1000x256_1_0_0_1_n_n.contr.Idx) : (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
theorem dB_l1 (i : S1000x256.Idx) (q : dot_S1000x128_S128x256_S1000x256_1_0_0_1_n_n.contr.Idx) : (dot_S1000x128_S128x256_S1000x256_1_0_0_1_n_n.lhsIdx i q 1).val = (q ⟨0, by decide⟩).val :=
  dot_S1000x128_S128x256_S1000x256_1_0_0_1_n_n.lhsIdx_val_of_single rfl i q
theorem dB_r0 (i : S1000x256.Idx) (q : dot_S1000x128_S128x256_S1000x256_1_0_0_1_n_n.contr.Idx) : (dot_S1000x128_S128x256_S1000x256_1_0_0_1_n_n.rhsIdx i q 0).val = (q ⟨0, by decide⟩).val :=
  dot_S1000x128_S128x256_S1000x256_1_0_0_1_n_n.rhsIdx_val_of_single rfl i q
theorem dB_r1 (i : S1000x256.Idx) (q : dot_S1000x128_S128x256_S1000x256_1_0_0_1_n_n.contr.Idx) : (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- A [1000, 256] tile times a [256, 256] weight, at one entry. -/
theorem matA_apply {φ₁ φ₂ : FTy} (l : FVec Ideal S1000x256 φ₁) (r : FVec Ideal S256x256 φ₂) (j : S1000x256.Idx) :
    matmul dot_S1000x256_S256x256_S1000x256_1_0_0_1_n_n none l r (constant S1000x256 .f32 0x00000000#32) j
      = ∑ k : Fin 256, l (ix2 (j 0) k) * r (ix2 k (j 1)) :=
  (Ideal.matmul_constant_zero_apply dot_S1000x256_S256x256_S1000x256_1_0_0_1_n_n none l r j).trans
    (Cert.Hetero.dot_sum (n := 1000) (K := 256) (p := 256) dot_S1000x256_S256x256_S1000x256_1_0_0_1_n_n rfl rfl
      dA_l0 dA_l1 dA_r0 dA_r1 l r j)

/-- A [1000, 128] tile times a [128, 256] weight, at one entry. -/
theorem matB_apply {φ₁ φ₂ : FTy} (l : FVec Ideal S1000x128 φ₁) (r : FVec Ideal S128x256 φ₂) (j : S1000x256.Idx) :
    matmul dot_S1000x128_S128x256_S1000x256_1_0_0_1_n_n none l r (constant S1000x256 .f32 0x00000000#32) j
      = ∑ k : Fin 128, l (ix2 (j 0) k) * r (ix2 k (j 1)) :=
  (Ideal.matmul_constant_zero_apply dot_S1000x128_S128x256_S1000x256_1_0_0_1_n_n none l r j).trans
    (Cert.Hetero.dot_sum (n := 1000) (K := 128) (p := 256) dot_S1000x128_S128x256_S1000x256_1_0_0_1_n_n rfl rfl
      dB_l0 dB_l1 dB_r0 dB_r1 l r j)

/-- The reciprocal-count column broadcast over 256 lanes. -/
theorem bcol256_apply {α : Type} (v : S1000x1.Idx → α) (j : S1000x256.Idx) :
    broadcastTo S1000x256 v broadcasts_S1000x1_S1000x256 j = v (ix2 (j 0) 0) :=
  broadcastTo_apply v broadcasts_S1000x1_S1000x256 j (ix2 (j 0) 0) (fun a => match a with
    | ⟨0, _⟩ => by show (j 0).val = if (1000 : Nat) = 1 then 0 else (j 0).val; rw [if_neg (by decide)]
    | ⟨1, _⟩ => by show 0 = if (1 : Nat) = 1 then 0 else (j 1).val; rw [if_pos rfl])

/-- The reciprocal-count column broadcast over 128 lanes. -/
theorem bcol128_apply {α : Type} (v : S1000x1.Idx → α) (j : S1000x128.Idx) :
    broadcastTo S1000x128 v broadcasts_S1000x1_S1000x128 j = v (ix2 (j 0) 0) :=
  broadcastTo_apply v broadcasts_S1000x1_S1000x128 j (ix2 (j 0) 0) (fun a => match a with
    | ⟨0, _⟩ => by show (j 0).val = if (1000 : Nat) = 1 then 0 else (j 0).val; rw [if_neg (by decide)]
    | ⟨1, _⟩ => by show 0 = if (1 : Nat) = 1 then 0 else (j 1).val; rw [if_pos rfl])

/-- The bias row broadcast down the 1000 rows of a tile. -/
theorem brow_apply {α : Type} (v : S1x256.Idx → α) (j : S1000x256.Idx) :
    broadcastTo S1000x256 v broadcasts_S1x256_S1000x256 j = v (ix2 0 (j 1)) :=
  broadcastTo_apply v broadcasts_S1x256_S1000x256 j (ix2 0 (j 1)) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])

end Cert.Hetero.K

end
-- ==== Proof.KPay.lean ====
/-
  What each kernel body stores, read at one entry of its [1000, 256] output tile: the value of `two` / `one` (with the
  rectifier in the first layer) computed from the body's loaded tiles. The bodies cast their operands to bf16 before
  the matrix unit, which changes nothing on the extended reals; the shape casts are between equal shapes.
-/
import proofs.«102993_j62981400429145_2_alg».proof.Proof.Gen.KernelIdeal.Skeleton
import proofs.«102993_j62981400429145_2_alg».proof.Proof.KDots
import proofs.«102993_j62981400429145_2_alg».proof.Proof.Spec

set_option synthInstance.maxSize 4096

noncomputable section

namespace Cert.Hetero.K

open Idealize.ShloMosaic Idealize.ShloMosaic.ValueIdx Cert.KernelIdeal Cert.KernelIdeal.Gen
open Cert.KernelIdeal.Facts₀ Cert.KernelIdeal.Facts

/-- First layer, paper rows: both edge types, then the rectifier. -/
theorem pay0_apply (x0 : Vec Ideal S1000x256 .f32) (x1 : Vec Ideal S1000x1 .f32) (x2 : Vec Ideal S1000x128 .f32)
    (x3 : Vec Ideal S1000x1 .f32) (x4 : Vec Ideal S1000x256 .f32) (x5 x6 : Vec Ideal S256x256 .bf16)
    (x7 : Vec Ideal S128x256 .bf16) (x8 : Vec Ideal S256x256 .bf16) (x9 : Vec Ideal S1x256 .f32) (y : S1000x256.Idx) :
    k0_pay1 (F := Ideal) (k0_pay2 x0 x2 x1 x3 x4 x5 x6 x7 x8) (k0_pay3 x9) y
      = relu (two 1000 256 128 256 256 x0 x1 x2 x3 x4 x5 x6 x7 x8 x9) y := by
  simp only [k0_pay1, k0_pay2, k0_pay3, shapeCast_self, maximumf_apply, addf_apply, matA_apply, matB_apply, mulf_apply,
    truncf_apply, bcol256_apply, bcol128_apply, brow_apply, broadcast_apply, relu, two]
  rfl

/-- First layer, author rows: one edge type, then the rectifier. -/
theorem pay1_apply (x0 : Vec Ideal S1000x256 .f32) (x1 : Vec Ideal S1000x1 .f32) (x2 : Vec Ideal S1000x128 .f32)
    (x3 : Vec Ideal S256x256 .bf16) (x4 : Vec Ideal S128x256 .bf16) (x5 : Vec Ideal S1x256 .f32) (y : S1000x256.Idx) :
    k1_pay1 (F := Ideal) x0 x1 x2 x3 x4 x5 y = relu (one 1000 256 128 256 x0 x1 x2 x3 x4 x5) y := by
  simp only [k1_pay1, shapeCast_self, maximumf_apply, addf_apply, matA_apply, matB_apply, mulf_apply,
    truncf_apply, bcol256_apply, brow_apply, broadcast_apply, relu, one]
  rfl

/-- Second layer, paper rows: both edge types, no rectifier. -/
theorem pay2_apply (x0 : Vec Ideal S1000x256 .f32) (x1 : Vec Ideal S1000x1 .f32) (x2 : Vec Ideal S1000x256 .f32)
    (x3 : Vec Ideal S1000x1 .f32) (x4 : Vec Ideal S1000x256 .f32) (x5 x6 x7 x8 : Vec Ideal S256x256 .bf16)
    (x9 : Vec Ideal S1x256 .f32) (y : S1000x256.Idx) :
    k2_pay1 (F := Ideal) (k2_pay2 x0 x2 x1 x3 x4 x5 x6 x7 x8) x9 y
      = two 1000 256 256 256 256 x0 x1 x2 x3 x4 x5 x6 x7 x8 x9 y := by
  simp only [k2_pay1, k2_pay2, shapeCast_self, addf_apply, matA_apply, mulf_apply,
    truncf_apply, bcol256_apply, brow_apply, two]

/-- Second layer, author rows: one edge type, no rectifier. -/
theorem pay3_apply (x0 : Vec Ideal S1000x256 .f32) (x1 : Vec Ideal S1000x1 .f32) (x2 : Vec Ideal S1000x256 .f32)
    (x3 x4 : Vec Ideal S256x256 .bf16) (x5 : Vec Ideal S1x256 .f32) (y : S1000x256.Idx) :
    k3_pay1 (F := Ideal) x0 x1 x2 x3 x4 x5 y = one 1000 256 256 256 x0 x1 x2 x3 x4 x5 y := by
  simp only [k3_pay1, shapeCast_self, addf_apply, matA_apply, mulf_apply,
    truncf_apply, bcol256_apply, brow_apply, one]

end Cert.Hetero.K

end
-- ==== Proof.KReg0.lean ====
/-
  The first layer, paper rows: what the tiled kernel leaves in its whole output array.

  The grid has 50 points; point `t` works on rows `1000·t … 1000·t + 999`: every row-indexed operand and the output
  are cut into [1000, ·] row tiles at block index (t, 0), the weights and the bias row are whole at block index (0, 0).
  So the tile a point writes back is the same row tile of ONE whole-array function of the operand arrays as the
  region finds them (`value0`), and the 50 tiles cover all 50000 rows.
-/
import proofs.«102993_j62981400429145_2_alg».proof.Proof.Gen.KernelIdeal.Frame
import proofs.«102993_j62981400429145_2_alg».proof.Proof.KPay
import Idealize.ShloMosaic.Lib.Pipeline.Value

set_option synthInstance.maxSize 4096
set_option maxRecDepth 16384

noncomputable section

namespace Cert.Hetero.K

open Idealize.ShloMosaic Idealize.ShloMosaic.ValueIdx Idealize.ShloMosaic.TcCoe Idealize.SL.Sem
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz0 : (![0, 0] : Fin 2 → Nat) = fun _ => 0 := funext fun a => by fin_cases a <;> rfl

/-! ## Where each window's block sits -/

theorem idx0_0 : ∀ t : Fin cfg0.N, win0_0.index t (0 : Fin 2) = t.val ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_3 : ∀ t : Fin cfg0.N, win0_3.index t (0 : Fin 2) = t.val ∧ win0_3.index t (1 : Fin 2) = 0 :=
  (by decide +kernel : ∀ t : Fin grid0.N, _)

theorem idx0_4 : ∀ t : Fin cfg0.N, win0_4.index t (0 : Fin 2) = t.val ∧ win0_4.index t (1 : Fin 2) = 0 :=
  (by decide +kernel : ∀ t : Fin grid0.N, _)

theorem idx0_10 : ∀ t : Fin cfg0.N, win0_10.index t (0 : Fin 2) = t.val ∧ win0_10.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = 0 ∧ win0_6.index t (1 : Fin 2) = 0 :=
  (by decide +kernel : ∀ t : Fin grid0.N, _)

theorem idx0_7 : ∀ t : Fin cfg0.N, win0_7.index t (0 : Fin 2) = 0 ∧ win0_7.index t (1 : Fin 2) = 0 :=
  (by decide +kernel : ∀ t : Fin grid0.N, _)

theorem idx0_8 : ∀ t : Fin cfg0.N, win0_8.index t (0 : Fin 2) = 0 ∧ win0_8.index t (1 : Fin 2) = 0 :=
  (by decide +kernel : ∀ t : Fin grid0.N, _)

theorem idx0_9 : ∀ t : Fin cfg0.N, win0_9.index t (0 : Fin 2) = 0 ∧ win0_9.index t (1 : Fin 2) = 0 :=
  (by decide +kernel : ∀ t : Fin grid0.N, _)

/-! ## A block read back as the array at the block's place -/

/-- Row `y0` of point `t`'s tile of window 0 is row `1000·t + y0` of its array. -/
theorem rd0_0 (c : Dev nD) (t : Fin cfg0.N) (y0 : Fin 1000) (k : Fin 256) (i0 : Fin 50000)
    (h : i0.val = t.val * 1000 + y0.val) :
    (iblk0 V c 0 t : (⟨2, ![1000, 256]⟩ : Shape).Idx → EReal) (ix2 y0 k)
      = (V c main_v36 : (⟨2, ![50000, 256]⟩ : Shape).Idx → EReal) (ix2 i0 k) := by
  obtain ⟨e0, e1⟩ := idx0_0 t
  unfold iblk0
  rw [View.read_apply]
  show V c main_v36 _ = V c main_v36 _
  congr 1
  funext a
  apply Fin.ext
  match a with
  | ⟨0, _⟩ => show win0_0.index t (0 : Fin 2) * 1000 + 1 * y0.val = i0.val; rw [e0, h]; omega
  | ⟨1, _⟩ => show win0_0.index t (1 : Fin 2) * 256 + 1 * k.val = k.val; rw [e1]; omega

/-- Row `y0` of point `t`'s tile of window 1 is row `1000·t + y0` of its array. -/
theorem rd0_1 (c : Dev nD) (t : Fin cfg0.N) (y0 : Fin 1000) (k : Fin 1) (i0 : Fin 50000)
    (h : i0.val = t.val * 1000 + y0.val) :
    (iblk0 V c 1 t : (⟨2, ![1000, 1]⟩ : Shape).Idx → EReal) (ix2 y0 k)
      = (V c main_v8 : (⟨2, ![50000, 1]⟩ : Shape).Idx → EReal) (ix2 i0 k) := by
  obtain ⟨e0, e1⟩ := idx0_1 t
  unfold iblk0
  rw [View.read_apply]
  show V c main_v8 _ = V c main_v8 _
  congr 1
  funext a
  apply Fin.ext
  match a with
  | ⟨0, _⟩ => show win0_1.index t (0 : Fin 2) * 1000 + 1 * y0.val = i0.val; rw [e0, h]; omega
  | ⟨1, _⟩ => show win0_1.index t (1 : Fin 2) * 1 + 1 * k.val = k.val; rw [e1]; omega

/-- Row `y0` of point `t`'s tile of window 2 is row `1000·t + y0` of its array. -/
theorem rd0_2 (c : Dev nD) (t : Fin cfg0.N) (y0 : Fin 1000) (k : Fin 128) (i0 : Fin 50000)
    (h : i0.val = t.val * 1000 + y0.val) :
    (iblk0 V c 2 t : (⟨2, ![1000, 128]⟩ : Shape).Idx → EReal) (ix2 y0 k)
      = (V c main_v46 : (⟨2, ![50000, 128]⟩ : Shape).Idx → EReal) (ix2 i0 k) := by
  obtain ⟨e0, e1⟩ := idx0_2 t
  unfold iblk0
  rw [View.read_apply]
  show V c main_v46 _ = V c main_v46 _
  congr 1
  funext a
  apply Fin.ext
  match a with
  | ⟨0, _⟩ => show win0_2.index t (0 : Fin 2) * 1000 + 1 * y0.val = i0.val; rw [e0, h]; omega
  | ⟨1, _⟩ => show win0_2.index t (1 : Fin 2) * 128 + 1 * k.val = k.val; rw [e1]; omega

/-- Row `y0` of point `t`'s tile of window 3 is row `1000·t + y0` of its array. -/
theorem rd0_3 (c : Dev nD) (t : Fin cfg0.N) (y0 : Fin 1000) (k : Fin 1) (i0 : Fin 50000)
    (h : i0.val = t.val * 1000 + y0.val) :
    (iblk0 V c 3 t : (⟨2, ![1000, 1]⟩ : Shape).Idx → EReal) (ix2 y0 k)
      = (V c main_v17 : (⟨2, ![50000, 1]⟩ : Shape).Idx → EReal) (ix2 i0 k) := by
  obtain ⟨e0, e1⟩ := idx0_3 t
  unfold iblk0
  rw [View.read_apply]
  show V c main_v17 _ = V c main_v17 _
  congr 1
  funext a
  apply Fin.ext
  match a with
  | ⟨0, _⟩ => show win0_3.index t (0 : Fin 2) * 1000 + 1 * y0.val = i0.val; rw [e0, h]; omega
  | ⟨1, _⟩ => show win0_3.index t (1 : Fin 2) * 1 + 1 * k.val = k.val; rw [e1]; omega

/-- Row `y0` of point `t`'s tile of window 4 is row `1000·t + y0` of its array. -/
theorem rd0_4 (c : Dev nD) (t : Fin cfg0.N) (y0 : Fin 1000) (k : Fin 256) (i0 : Fin 50000)
    (h : i0.val = t.val * 1000 + y0.val) :
    (iblk0 V c 4 t : (⟨2, ![1000, 256]⟩ : Shape).Idx → EReal) (ix2 y0 k)
      = (V c main_arg0 : (⟨2, ![50000, 256]⟩ : Shape).Idx → EReal) (ix2 i0 k) := by
  obtain ⟨e0, e1⟩ := idx0_4 t
  unfold iblk0
  rw [View.read_apply]
  show V c main_arg0 _ = V c main_arg0 _
  congr 1
  funext a
  apply Fin.ext
  match a with
  | ⟨0, _⟩ => show win0_4.index t (0 : Fin 2) * 1000 + 1 * y0.val = i0.val; rw [e0, h]; omega
  | ⟨1, _⟩ => show win0_4.index t (1 : Fin 2) * 256 + 1 * k.val = k.val; rw [e1]; omega

/-- Window 5 is whole at every point: its block is its array. -/
theorem rd0_5 (c : Dev nD) (t : Fin cfg0.N) (k : Fin 256) (j j' : Fin 256) (h : j'.val = j.val) :
    (iblk0 V c 5 t : (⟨2, ![256, 256]⟩ : Shape).Idx → EReal) (ix2 k j)
      = (V c main_v59 : (⟨2, ![256, 256]⟩ : Shape).Idx → EReal) (ix2 k j') := by
  obtain ⟨e0, e1⟩ := idx0_5 t
  unfold iblk0
  rw [View.read_apply]
  show V c main_v59 _ = V c main_v59 _
  congr 1
  funext a
  apply Fin.ext
  match a with
  | ⟨0, _⟩ => show win0_5.index t (0 : Fin 2) * 256 + 1 * k.val = k.val; rw [e0]; omega
  | ⟨1, _⟩ => show win0_5.index t (1 : Fin 2) * 256 + 1 * j.val = j'.val; rw [e1, h]; omega

/-- Window 6 is whole at every point: its block is its array. -/
theorem rd0_6 (c : Dev nD) (t : Fin cfg0.N) (k : Fin 256) (j j' : Fin 256) (h : j'.val = j.val) :
    (iblk0 V c 6 t : (⟨2, ![256, 256]⟩ : Shape).Idx → EReal) (ix2 k j)
      = (V c main_v60 : (⟨2, ![256, 256]⟩ : Shape).Idx → EReal) (ix2 k j') := by
  obtain ⟨e0, e1⟩ := idx0_6 t
  unfold iblk0
  rw [View.read_apply]
  show V c main_v60 _ = V c main_v60 _
  congr 1
  funext a
  apply Fin.ext
  match a with
  | ⟨0, _⟩ => show win0_6.index t (0 : Fin 2) * 256 + 1 * k.val = k.val; rw [e0]; omega
  | ⟨1, _⟩ => show win0_6.index t (1 : Fin 2) * 256 + 1 * j.val = j'.val; rw [e1, h]; omega

/-- Window 7 is whole at every point: its block is its array. -/
theorem rd0_7 (c : Dev nD) (t : Fin cfg0.N) (k : Fin 128) (j j' : Fin 256) (h : j'.val = j.val) :
    (iblk0 V c 7 t : (⟨2, ![128, 256]⟩ : Shape).Idx → EReal) (ix2 k j)
      = (V c main_v61 : (⟨2, ![128, 256]⟩ : Shape).Idx → EReal) (ix2 k j') := by
  obtain ⟨e0, e1⟩ := idx0_7 t
  unfold iblk0
  rw [View.read_apply]
  show V c main_v61 _ = V c main_v61 _
  congr 1
  funext a
  apply Fin.ext
  match a with
  | ⟨0, _⟩ => show win0_7.index t (0 : Fin 2) * 128 + 1 * k.val = k.val; rw [e0]; omega
  | ⟨1, _⟩ => show win0_7.index t (1 : Fin 2) * 256 + 1 * j.val = j'.val; rw [e1, h]; omega

/-- Window 8 is whole at every point: its block is its array. -/
theorem rd0_8 (c : Dev nD) (t : Fin cfg0.N) (k : Fin 256) (j j' : Fin 256) (h : j'.val = j.val) :
    (iblk0 V c 8 t : (⟨2, ![256, 256]⟩ : Shape).Idx → EReal) (ix2 k j)
      = (V c main_v62 : (⟨2, ![256, 256]⟩ : Shape).Idx → EReal) (ix2 k j') := by
  obtain ⟨e0, e1⟩ := idx0_8 t
  unfold iblk0
  rw [View.read_apply]
  show V c main_v62 _ = V c main_v62 _
  congr 1
  funext a
  apply Fin.ext
  match a with
  | ⟨0, _⟩ => show win0_8.index t (0 : Fin 2) * 256 + 1 * k.val = k.val; rw [e0]; omega
  | ⟨1, _⟩ => show win0_8.index t (1 : Fin 2) * 256 + 1 * j.val = j'.val; rw [e1, h]; omega

/-- Window 9 is whole at every point: its block is its array. -/
theorem rd0_9 (c : Dev nD) (t : Fin cfg0.N) (k : Fin 1) (j j' : Fin 256) (h : j'.val = j.val) :
    (iblk0 V c 9 t : (⟨2, ![1, 256]⟩ : Shape).Idx → EReal) (ix2 k j)
      = (V c main_v58 : (⟨2, ![1, 256]⟩ : Shape).Idx → EReal) (ix2 k j') := by
  obtain ⟨e0, e1⟩ := idx0_9 t
  unfold iblk0
  rw [View.read_apply]
  show V c main_v58 _ = V c main_v58 _
  congr 1
  funext a
  apply Fin.ext
  match a with
  | ⟨0, _⟩ => show win0_9.index t (0 : Fin 2) * 1 + 1 * k.val = k.val; rw [e0]; omega
  | ⟨1, _⟩ => show win0_9.index t (1 : Fin 2) * 256 + 1 * j.val = j'.val; rw [e1, h]; omega

/-! ## The whole output array -/

/-- What the output array ends holding, as one function of the region's operand arrays as it finds them. -/
def G0 (c : Dev nD) : Mat 50000 256 := relu (two 50000 256 128 256 256 (V c main_v36) (V c main_v8) (V c main_v46) (V c main_v17) (V c main_arg0) (V c main_v59) (V c main_v60) (V c main_v61) (V c main_v62) (V c main_v58))

theorem emb0_row (t : Fin cfg0.N) (y : S1000x256.Idx) :
    ((((cfg0.win 10).blk t).view.emb y) 0).val = t.val * 1000 + (y 0).val := by
  obtain ⟨e0, e1⟩ := idx0_10 t
  show win0_10.index t (0 : Fin 2) * 1000 + 1 * (y 0).val = _
  rw [e0]; omega

theorem emb0_col (t : Fin cfg0.N) (y : S1000x256.Idx) :
    ((((cfg0.win 10).blk t).view.emb y) 1).val = (y 1).val := by
  obtain ⟨e0, e1⟩ := idx0_10 t
  show win0_10.index t (1 : Fin 2) * 256 + 1 * (y 1).val = _
  rw [e1]; omega

/-- What point `t` writes back is tile `t` of `G0`. -/
theorem flushed_eq0 (c : Dev nD) (t : Fin cfg0.N) :
    (dat0 V c).flushed 10 t = ((cfg0.win 10).blk t).view.read (Elt Ideal) (G0 V c) := by
  show (cfg0.win 10).cut (grid0.coords t) ((dat0 V c).after 10 t) = _
  rw [after0_10]
  unfold out0_10
  rw [View.canon_unit_zero hz0]
  simp only [View.ld_unit_zero (S := S1000x256) hz0, View.ld_unit_zero (S := S1000x128) hz0, View.ld_unit_zero (S := S1000x1) hz0,
    View.ld_unit_zero (S := S256x256) hz0, View.ld_unit_zero (S := S128x256) hz0, View.ld_unit_zero (S := S1x256) hz0]
  funext y
  refine (pay0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) y).trans ?_
  rw [View.read_apply]
  have hr := emb0_row t y
  have hc := emb0_col t y
  unfold G0 relu
  refine congrArg (fun v => max v _) ?_
  exact two_ext y (((cfg0.win 10).blk t).view.emb y)
    (fun k => rd0_0 V c t (y 0) k _ hr) (rd0_1 V c t (y 0) 0 _ hr)
    (fun k => rd0_2 V c t (y 0) k _ hr) (rd0_3 V c t (y 0) 0 _ hr)
    (fun k => rd0_4 V c t (y 0) k _ hr)
    (fun k => rd0_5 V c t k (y 1) _ hc) (fun k => rd0_6 V c t k (y 1) _ hc)
    (fun k => rd0_7 V c t k (y 1) _ hc) (fun k => rd0_8 V c t k (y 1) _ hc)
    (rd0_9 V c t 0 (y 1) _ hc)

/-- An entry of the array is in point `t`'s tile iff each coordinate is in the tile's range. -/
theorem mem_blk0 (t : Fin cfg0.N) (i : S50000x256.Idx) :
    i ∈ ((cfg0.win 10).blk t).view.set ↔ ∀ a : Fin 2, win0_10.index t a * S1000x256.size a ≤ (i a).val
      ∧ (i a).val < win0_10.index t a * S1000x256.size a + S1000x256.size a := by
  show i ∈ ((View.whole main_v63).slice (win0_10.rect t)).set ↔ _
  rw [View.set_slice_whole, Rect.mem_set_unit]
  exact Iff.rfl

/-- Row `r` lies in the tile of point `r / 1000`. -/
theorem cover0 (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  have hlt : (i 0).val / 1000 < cfg0.N := lt_of_lt_of_eq (by omega : (i 0).val / 1000 < 50) N_0.symm
  refine ⟨⟨(i 0).val / 1000, hlt⟩, flush0_10 _, ?_⟩
  rw [mem_blk0]
  obtain ⟨e0, e1⟩ := idx0_10 ⟨(i 0).val / 1000, hlt⟩
  intro a
  match a with
  | ⟨0, _⟩ =>
    show win0_10.index ⟨(i 0).val / 1000, hlt⟩ (0 : Fin 2) * 1000 ≤ (i 0).val
      ∧ (i 0).val < win0_10.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win0_10.index ⟨(i 0).val / 1000, hlt⟩ (1 : Fin 2) * 256 ≤ (i 1).val
      ∧ (i 1).val < win0_10.index ⟨(i 0).val / 1000, hlt⟩ (1 : Fin 2) * 256 + 256
    rw [e1]; omega

/-- The output array after the region, at any entry contents `V`. -/
theorem value0 (c : Dev nD) : (dat0 V c).arrAt 10 cfg0.N = G0 V c :=
  (dat0 V c).arrAt_eq_of_cover 10 (G0 V c) (fun t _ => flushed_eq0 V c t) (cover0)

end Cert.Hetero.K

end
-- ==== Proof.KReg1.lean ====
/-
  The first layer, author rows: what the tiled kernel leaves in its whole output array.

  The grid has 25 points; point `t` works on rows `1000·t … 1000·t + 999`: every row-indexed operand and the output
  are cut into [1000, ·] row tiles at block index (t, 0), the weights and the bias row are whole at block index (0, 0).
  So the tile a point writes back is the same row tile of ONE whole-array function of the operand arrays as the
  region finds them (`value1`), and the 25 tiles cover all 25000 rows.
-/
import proofs.«102993_j62981400429145_2_alg».proof.Proof.Gen.KernelIdeal.Frame
import proofs.«102993_j62981400429145_2_alg».proof.Proof.KPay
import Idealize.ShloMosaic.Lib.Pipeline.Value

set_option synthInstance.maxSize 4096
set_option maxRecDepth 16384

noncomputable section

namespace Cert.Hetero.K

open Idealize.ShloMosaic Idealize.ShloMosaic.ValueIdx Idealize.ShloMosaic.TcCoe Idealize.SL.Sem
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz1 : (![0, 0] : Fin 2 → Nat) = fun _ => 0 := funext fun a => by fin_cases a <;> rfl

/-! ## Where each window's block sits -/

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_6 : ∀ t : Fin cfg1.N, win1_6.index t (0 : Fin 2) = t.val ∧ win1_6.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = 0 ∧ win1_5.index t (1 : Fin 2) = 0 :=
  (by decide +kernel : ∀ t : Fin grid1.N, _)

/-! ## A block read back as the array at the block's place -/

/-- Row `y0` of point `t`'s tile of window 0 is row `1000·t + y0` of its array. -/
theorem rd1_0 (c : Dev nD) (t : Fin cfg1.N) (y0 : Fin 1000) (k : Fin 256) (i0 : Fin 25000)
    (h : i0.val = t.val * 1000 + y0.val) :
    (iblk1 V c 0 t : (⟨2, ![1000, 256]⟩ : Shape).Idx → EReal) (ix2 y0 k)
      = (V c main_v56 : (⟨2, ![25000, 256]⟩ : Shape).Idx → EReal) (ix2 i0 k) := by
  obtain ⟨e0, e1⟩ := idx1_0 t
  unfold iblk1
  rw [View.read_apply]
  show V c main_v56 _ = V c main_v56 _
  congr 1
  funext a
  apply Fin.ext
  match a with
  | ⟨0, _⟩ => show win1_0.index t (0 : Fin 2) * 1000 + 1 * y0.val = i0.val; rw [e0, h]; omega
  | ⟨1, _⟩ => show win1_0.index t (1 : Fin 2) * 256 + 1 * k.val = k.val; rw [e1]; omega

/-- Row `y0` of point `t`'s tile of window 1 is row `1000·t + y0` of its array. -/
theorem rd1_1 (c : Dev nD) (t : Fin cfg1.N) (y0 : Fin 1000) (k : Fin 1) (i0 : Fin 25000)
    (h : i0.val = t.val * 1000 + y0.val) :
    (iblk1 V c 1 t : (⟨2, ![1000, 1]⟩ : Shape).Idx → EReal) (ix2 y0 k)
      = (V c main_v26 : (⟨2, ![25000, 1]⟩ : Shape).Idx → EReal) (ix2 i0 k) := by
  obtain ⟨e0, e1⟩ := idx1_1 t
  unfold iblk1
  rw [View.read_apply]
  show V c main_v26 _ = V c main_v26 _
  congr 1
  funext a
  apply Fin.ext
  match a with
  | ⟨0, _⟩ => show win1_1.index t (0 : Fin 2) * 1000 + 1 * y0.val = i0.val; rw [e0, h]; omega
  | ⟨1, _⟩ => show win1_1.index t (1 : Fin 2) * 1 + 1 * k.val = k.val; rw [e1]; omega

/-- Row `y0` of point `t`'s tile of window 2 is row `1000·t + y0` of its array. -/
theorem rd1_2 (c : Dev nD) (t : Fin cfg1.N) (y0 : Fin 1000) (k : Fin 128) (i0 : Fin 25000)
    (h : i0.val = t.val * 1000 + y0.val) :
    (iblk1 V c 2 t : (⟨2, ![1000, 128]⟩ : Shape).Idx → EReal) (ix2 y0 k)
      = (V c main_arg1 : (⟨2, ![25000, 128]⟩ : Shape).Idx → EReal) (ix2 i0 k) := by
  obtain ⟨e0, e1⟩ := idx1_2 t
  unfold iblk1
  rw [View.read_apply]
  show V c main_arg1 _ = V c main_arg1 _
  congr 1
  funext a
  apply Fin.ext
  match a with
  | ⟨0, _⟩ => show win1_2.index t (0 : Fin 2) * 1000 + 1 * y0.val = i0.val; rw [e0, h]; omega
  | ⟨1, _⟩ => show win1_2.index t (1 : Fin 2) * 128 + 1 * k.val = k.val; rw [e1]; omega

/-- Window 3 is whole at every point: its block is its array. -/
theorem rd1_3 (c : Dev nD) (t : Fin cfg1.N) (k : Fin 256) (j j' : Fin 256) (h : j'.val = j.val) :
    (iblk1 V c 3 t : (⟨2, ![256, 256]⟩ : Shape).Idx → EReal) (ix2 k j)
      = (V c main_v64 : (⟨2, ![256, 256]⟩ : Shape).Idx → EReal) (ix2 k j') := by
  obtain ⟨e0, e1⟩ := idx1_3 t
  unfold iblk1
  rw [View.read_apply]
  show V c main_v64 _ = V c main_v64 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * j.val = j'.val; rw [e1, h]; omega

/-- Window 4 is whole at every point: its block is its array. -/
theorem rd1_4 (c : Dev nD) (t : Fin cfg1.N) (k : Fin 128) (j j' : Fin 256) (h : j'.val = j.val) :
    (iblk1 V c 4 t : (⟨2, ![128, 256]⟩ : Shape).Idx → EReal) (ix2 k j)
      = (V c main_v65 : (⟨2, ![128, 256]⟩ : Shape).Idx → EReal) (ix2 k j') := by
  obtain ⟨e0, e1⟩ := idx1_4 t
  unfold iblk1
  rw [View.read_apply]
  show V c main_v65 _ = V c main_v65 _
  congr 1
  funext a
  apply Fin.ext
  match a with
  | ⟨0, _⟩ => show win1_4.index t (0 : Fin 2) * 128 + 1 * k.val = k.val; rw [e0]; omega
  | ⟨1, _⟩ => show win1_4.index t (1 : Fin 2) * 256 + 1 * j.val = j'.val; rw [e1, h]; omega

/-- Window 5 is whole at every point: its block is its array. -/
theorem rd1_5 (c : Dev nD) (t : Fin cfg1.N) (k : Fin 1) (j j' : Fin 256) (h : j'.val = j.val) :
    (iblk1 V c 5 t : (⟨2, ![1, 256]⟩ : Shape).Idx → EReal) (ix2 k j)
      = (V c main_v66 : (⟨2, ![1, 256]⟩ : Shape).Idx → EReal) (ix2 k j') := by
  obtain ⟨e0, e1⟩ := idx1_5 t
  unfold iblk1
  rw [View.read_apply]
  show V c main_v66 _ = V c main_v66 _
  congr 1
  funext a
  apply Fin.ext
  match a with
  | ⟨0, _⟩ => show win1_5.index t (0 : Fin 2) * 1 + 1 * k.val = k.val; rw [e0]; omega
  | ⟨1, _⟩ => show win1_5.index t (1 : Fin 2) * 256 + 1 * j.val = j'.val; rw [e1, h]; omega

/-! ## The whole output array -/

/-- What the output array ends holding, as one function of the region's operand arrays as it finds them. -/
def G1 (c : Dev nD) : Mat 25000 256 := relu (one 25000 256 128 256 (V c main_v56) (V c main_v26) (V c main_arg1) (V c main_v64) (V c main_v65) (V c main_v66))

theorem emb1_row (t : Fin cfg1.N) (y : S1000x256.Idx) :
    ((((cfg1.win 6).blk t).view.emb y) 0).val = t.val * 1000 + (y 0).val := by
  obtain ⟨e0, e1⟩ := idx1_6 t
  show win1_6.index t (0 : Fin 2) * 1000 + 1 * (y 0).val = _
  rw [e0]; omega

theorem emb1_col (t : Fin cfg1.N) (y : S1000x256.Idx) :
    ((((cfg1.win 6).blk t).view.emb y) 1).val = (y 1).val := by
  obtain ⟨e0, e1⟩ := idx1_6 t
  show win1_6.index t (1 : Fin 2) * 256 + 1 * (y 1).val = _
  rw [e1]; omega

/-- What point `t` writes back is tile `t` of `G1`. -/
theorem flushed_eq1 (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S1000x256) hz1, View.ld_unit_zero (S := S1000x128) hz1, View.ld_unit_zero (S := S1000x1) hz1,
    View.ld_unit_zero (S := S256x256) hz1, View.ld_unit_zero (S := S128x256) hz1, View.ld_unit_zero (S := S1x256) hz1]
  funext y
  refine (pay1_apply (iblk1 V c 0 t) (iblk1 V c 1 t) (iblk1 V c 2 t) (iblk1 V c 3 t) (iblk1 V c 4 t) (iblk1 V c 5 t) y).trans ?_
  rw [View.read_apply]
  have hr := emb1_row t y
  have hc := emb1_col t y
  unfold G1 relu
  refine congrArg (fun v => max v _) ?_
  exact one_ext y (((cfg1.win 6).blk t).view.emb y)
    (fun k => rd1_0 V c t (y 0) k _ hr) (rd1_1 V c t (y 0) 0 _ hr)
    (fun k => rd1_2 V c t (y 0) k _ hr)
    (fun k => rd1_3 V c t k (y 1) _ hc) (fun k => rd1_4 V c t k (y 1) _ hc)
    (rd1_5 V c t 0 (y 1) _ hc)

/-- An entry of the array is in point `t`'s tile iff each coordinate is in the tile's range. -/
theorem mem_blk1 (t : Fin cfg1.N) (i : S25000x256.Idx) :
    i ∈ ((cfg1.win 6).blk t).view.set ↔ ∀ a : Fin 2, win1_6.index t a * S1000x256.size a ≤ (i a).val
      ∧ (i a).val < win1_6.index t a * S1000x256.size a + S1000x256.size a := by
  show i ∈ ((View.whole main_v67).slice (win1_6.rect t)).set ↔ _
  rw [View.set_slice_whole, Rect.mem_set_unit]
  exact Iff.rfl

/-- Row `r` lies in the tile of point `r / 1000`. -/
theorem cover1 (i : S25000x256.Idx) :
    ∃ t : Fin cfg1.N, (cfg1.win 6).flush t = true ∧ i ∈ ((cfg1.win 6).blk t).view.set := by
  have hi0 : (i 0).val < 25000 := (i 0).isLt
  have hi1 : (i 1).val < 256 := (i 1).isLt
  have hlt : (i 0).val / 1000 < cfg1.N := lt_of_lt_of_eq (by omega : (i 0).val / 1000 < 25) N_1.symm
  refine ⟨⟨(i 0).val / 1000, hlt⟩, flush1_6 _, ?_⟩
  rw [mem_blk1]
  obtain ⟨e0, e1⟩ := idx1_6 ⟨(i 0).val / 1000, hlt⟩
  intro a
  match a with
  | ⟨0, _⟩ =>
    show win1_6.index ⟨(i 0).val / 1000, hlt⟩ (0 : Fin 2) * 1000 ≤ (i 0).val
      ∧ (i 0).val < win1_6.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win1_6.index ⟨(i 0).val / 1000, hlt⟩ (1 : Fin 2) * 256 ≤ (i 1).val
      ∧ (i 1).val < win1_6.index ⟨(i 0).val / 1000, hlt⟩ (1 : Fin 2) * 256 + 256
    rw [e1]; omega

/-- The output array after the region, at any entry contents `V`. -/
theorem value1 (c : Dev nD) : (dat1 V c).arrAt 6 cfg1.N = G1 V c :=
  (dat1 V c).arrAt_eq_of_cover 6 (G1 V c) (fun t _ => flushed_eq1 V c t) (cover1)

end Cert.Hetero.K

end
-- ==== Proof.KReg2.lean ====
/-
  The second layer, paper rows: what the tiled kernel leaves in its whole output array.

  The grid has 50 points; point `t` works on rows `1000·t … 1000·t + 999`: every row-indexed operand and the output
  are cut into [1000, ·] row tiles at block index (t, 0), the weights and the bias row are whole at block index (0, 0).
  So the tile a point writes back is the same row tile of ONE whole-array function of the operand arrays as the
  region finds them (`value2`), and the 50 tiles cover all 50000 rows.
-/
import proofs.«102993_j62981400429145_2_alg».proof.Proof.Gen.KernelIdeal.Frame
import proofs.«102993_j62981400429145_2_alg».proof.Proof.KPay
import Idealize.ShloMosaic.Lib.Pipeline.Value

set_option synthInstance.maxSize 4096
set_option maxRecDepth 16384

noncomputable section

namespace Cert.Hetero.K

open Idealize.ShloMosaic Idealize.ShloMosaic.ValueIdx Idealize.ShloMosaic.TcCoe Idealize.SL.Sem
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz2 : (![0, 0] : Fin 2 → Nat) = fun _ => 0 := funext fun a => by fin_cases a <;> rfl

/-! ## Where each window's block sits -/

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = t.val ∧ win2_1.index t (1 : Fin 2) = 0 :=
  (by decide +kernel : ∀ t : Fin grid2.N, _)

theorem idx2_2 : ∀ t : Fin cfg2.N, win2_2.index t (0 : Fin 2) = t.val ∧ win2_2.index t (1 : Fin 2) = 0 :=
  (by decide +kernel : ∀ t : Fin grid2.N, _)

theorem idx2_3 : ∀ t : Fin cfg2.N, win2_3.index t (0 : Fin 2) = t.val ∧ win2_3.index t (1 : Fin 2) = 0 :=
  (by decide +kernel : ∀ t : Fin grid2.N, _)

theorem idx2_4 : ∀ t : Fin cfg2.N, win2_4.index t (0 : Fin 2) = t.val ∧ win2_4.index t (1 : Fin 2) = 0 :=
  (by decide +kernel : ∀ t : Fin grid2.N, _)

theorem idx2_10 : ∀ t : Fin cfg2.N, win2_10.index t (0 : Fin 2) = t.val ∧ win2_10.index t (1 : Fin 2) = 0 :=
  (by decide +kernel : ∀ t : Fin grid2.N, _)

theorem idx2_5 : ∀ t : Fin cfg2.N, win2_5.index t (0 : Fin 2) = 0 ∧ win2_5.index t (1 : Fin 2) = 0 :=
  (by decide +kernel : ∀ t : Fin grid2.N, _)

theorem idx2_6 : ∀ t : Fin cfg2.N, win2_6.index t (0 : Fin 2) = 0 ∧ win2_6.index t (1 : Fin 2) = 0 :=
  (by decide +kernel : ∀ t : Fin grid2.N, _)

theorem idx2_7 : ∀ t : Fin cfg2.N, win2_7.index t (0 : Fin 2) = 0 ∧ win2_7.index t (1 : Fin 2) = 0 :=
  (by decide +kernel : ∀ t : Fin grid2.N, _)

theorem idx2_8 : ∀ t : Fin cfg2.N, win2_8.index t (0 : Fin 2) = 0 ∧ win2_8.index t (1 : Fin 2) = 0 :=
  (by decide +kernel : ∀ t : Fin grid2.N, _)

theorem idx2_9 : ∀ t : Fin cfg2.N, win2_9.index t (0 : Fin 2) = 0 ∧ win2_9.index t (1 : Fin 2) = 0 :=
  (by decide +kernel : ∀ t : Fin grid2.N, _)

/-! ## A block read back as the array at the block's place -/

/-- Row `y0` of point `t`'s tile of window 0 is row `1000·t + y0` of its array. -/
theorem rd2_0 (c : Dev nD) (t : Fin cfg2.N) (y0 : Fin 1000) (k : Fin 256) (i0 : Fin 50000)
    (h : i0.val = t.val * 1000 + y0.val) :
    (iblk2 V c 0 t : (⟨2, ![1000, 256]⟩ : Shape).Idx → EReal) (ix2 y0 k)
      = (V c main_v77 : (⟨2, ![50000, 256]⟩ : Shape).Idx → EReal) (ix2 i0 k) := by
  obtain ⟨e0, e1⟩ := idx2_0 t
  unfold iblk2
  rw [View.read_apply]
  show V c main_v77 _ = V c main_v77 _
  congr 1
  funext a
  apply Fin.ext
  match a with
  | ⟨0, _⟩ => show win2_0.index t (0 : Fin 2) * 1000 + 1 * y0.val = i0.val; rw [e0, h]; omega
  | ⟨1, _⟩ => show win2_0.index t (1 : Fin 2) * 256 + 1 * k.val = k.val; rw [e1]; omega

/-- Row `y0` of point `t`'s tile of window 1 is row `1000·t + y0` of its array. -/
theorem rd2_1 (c : Dev nD) (t : Fin cfg2.N) (y0 : Fin 1000) (k : Fin 1) (i0 : Fin 50000)
    (h : i0.val = t.val * 1000 + y0.val) :
    (iblk2 V c 1 t : (⟨2, ![1000, 1]⟩ : Shape).Idx → EReal) (ix2 y0 k)
      = (V c main_v8 : (⟨2, ![50000, 1]⟩ : Shape).Idx → EReal) (ix2 i0 k) := by
  obtain ⟨e0, e1⟩ := idx2_1 t
  unfold iblk2
  rw [View.read_apply]
  show V c main_v8 _ = V c main_v8 _
  congr 1
  funext a
  apply Fin.ext
  match a with
  | ⟨0, _⟩ => show win2_1.index t (0 : Fin 2) * 1000 + 1 * y0.val = i0.val; rw [e0, h]; omega
  | ⟨1, _⟩ => show win2_1.index t (1 : Fin 2) * 1 + 1 * k.val = k.val; rw [e1]; omega

/-- Row `y0` of point `t`'s tile of window 2 is row `1000·t + y0` of its array. -/
theorem rd2_2 (c : Dev nD) (t : Fin cfg2.N) (y0 : Fin 1000) (k : Fin 256) (i0 : Fin 50000)
    (h : i0.val = t.val * 1000 + y0.val) :
    (iblk2 V c 2 t : (⟨2, ![1000, 256]⟩ : Shape).Idx → EReal) (ix2 y0 k)
      = (V c main_v87 : (⟨2, ![50000, 256]⟩ : Shape).Idx → EReal) (ix2 i0 k) := by
  obtain ⟨e0, e1⟩ := idx2_2 t
  unfold iblk2
  rw [View.read_apply]
  show V c main_v87 _ = V c main_v87 _
  congr 1
  funext a
  apply Fin.ext
  match a with
  | ⟨0, _⟩ => show win2_2.index t (0 : Fin 2) * 1000 + 1 * y0.val = i0.val; rw [e0, h]; omega
  | ⟨1, _⟩ => show win2_2.index t (1 : Fin 2) * 256 + 1 * k.val = k.val; rw [e1]; omega

/-- Row `y0` of point `t`'s tile of window 3 is row `1000·t + y0` of its array. -/
theorem rd2_3 (c : Dev nD) (t : Fin cfg2.N) (y0 : Fin 1000) (k : Fin 1) (i0 : Fin 50000)
    (h : i0.val = t.val * 1000 + y0.val) :
    (iblk2 V c 3 t : (⟨2, ![1000, 1]⟩ : Shape).Idx → EReal) (ix2 y0 k)
      = (V c main_v17 : (⟨2, ![50000, 1]⟩ : Shape).Idx → EReal) (ix2 i0 k) := by
  obtain ⟨e0, e1⟩ := idx2_3 t
  unfold iblk2
  rw [View.read_apply]
  show V c main_v17 _ = V c main_v17 _
  congr 1
  funext a
  apply Fin.ext
  match a with
  | ⟨0, _⟩ => show win2_3.index t (0 : Fin 2) * 1000 + 1 * y0.val = i0.val; rw [e0, h]; omega
  | ⟨1, _⟩ => show win2_3.index t (1 : Fin 2) * 1 + 1 * k.val = k.val; rw [e1]; omega

/-- Row `y0` of point `t`'s tile of window 4 is row `1000·t + y0` of its array. -/
theorem rd2_4 (c : Dev nD) (t : Fin cfg2.N) (y0 : Fin 1000) (k : Fin 256) (i0 : Fin 50000)
    (h : i0.val = t.val * 1000 + y0.val) :
    (iblk2 V c 4 t : (⟨2, ![1000, 256]⟩ : Shape).Idx → EReal) (ix2 y0 k)
      = (V c main_v63 : (⟨2, ![50000, 256]⟩ : Shape).Idx → EReal) (ix2 i0 k) := by
  obtain ⟨e0, e1⟩ := idx2_4 t
  unfold iblk2
  rw [View.read_apply]
  show V c main_v63 _ = V c main_v63 _
  congr 1
  funext a
  apply Fin.ext
  match a with
  | ⟨0, _⟩ => show win2_4.index t (0 : Fin 2) * 1000 + 1 * y0.val = i0.val; rw [e0, h]; omega
  | ⟨1, _⟩ => show win2_4.index t (1 : Fin 2) * 256 + 1 * k.val = k.val; rw [e1]; omega

/-- Window 5 is whole at every point: its block is its array. -/
theorem rd2_5 (c : Dev nD) (t : Fin cfg2.N) (k : Fin 256) (j j' : Fin 256) (h : j'.val = j.val) :
    (iblk2 V c 5 t : (⟨2, ![256, 256]⟩ : Shape).Idx → EReal) (ix2 k j)
      = (V c main_v100 : (⟨2, ![256, 256]⟩ : Shape).Idx → EReal) (ix2 k j') := by
  obtain ⟨e0, e1⟩ := idx2_5 t
  unfold iblk2
  rw [View.read_apply]
  show V c main_v100 _ = V c main_v100 _
  congr 1
  funext a
  apply Fin.ext
  match a with
  | ⟨0, _⟩ => show win2_5.index t (0 : Fin 2) * 256 + 1 * k.val = k.val; rw [e0]; omega
  | ⟨1, _⟩ => show win2_5.index t (1 : Fin 2) * 256 + 1 * j.val = j'.val; rw [e1, h]; omega

/-- Window 6 is whole at every point: its block is its array. -/
theorem rd2_6 (c : Dev nD) (t : Fin cfg2.N) (k : Fin 256) (j j' : Fin 256) (h : j'.val = j.val) :
    (iblk2 V c 6 t : (⟨2, ![256, 256]⟩ : Shape).Idx → EReal) (ix2 k j)
      = (V c main_v101 : (⟨2, ![256, 256]⟩ : Shape).Idx → EReal) (ix2 k j') := by
  obtain ⟨e0, e1⟩ := idx2_6 t
  unfold iblk2
  rw [View.read_apply]
  show V c main_v101 _ = V c main_v101 _
  congr 1
  funext a
  apply Fin.ext
  match a with
  | ⟨0, _⟩ => show win2_6.index t (0 : Fin 2) * 256 + 1 * k.val = k.val; rw [e0]; omega
  | ⟨1, _⟩ => show win2_6.index t (1 : Fin 2) * 256 + 1 * j.val = j'.val; rw [e1, h]; omega

/-- Window 7 is whole at every point: its block is its array. -/
theorem rd2_7 (c : Dev nD) (t : Fin cfg2.N) (k : Fin 256) (j j' : Fin 256) (h : j'.val = j.val) :
    (iblk2 V c 7 t : (⟨2, ![256, 256]⟩ : Shape).Idx → EReal) (ix2 k j)
      = (V c main_v102 : (⟨2, ![256, 256]⟩ : Shape).Idx → EReal) (ix2 k j') := by
  obtain ⟨e0, e1⟩ := idx2_7 t
  unfold iblk2
  rw [View.read_apply]
  show V c main_v102 _ = V c main_v102 _
  congr 1
  funext a
  apply Fin.ext
  match a with
  | ⟨0, _⟩ => show win2_7.index t (0 : Fin 2) * 256 + 1 * k.val = k.val; rw [e0]; omega
  | ⟨1, _⟩ => show win2_7.index t (1 : Fin 2) * 256 + 1 * j.val = j'.val; rw [e1, h]; omega

/-- Window 8 is whole at every point: its block is its array. -/
theorem rd2_8 (c : Dev nD) (t : Fin cfg2.N) (k : Fin 256) (j j' : Fin 256) (h : j'.val = j.val) :
    (iblk2 V c 8 t : (⟨2, ![256, 256]⟩ : Shape).Idx → EReal) (ix2 k j)
      = (V c main_v103 : (⟨2, ![256, 256]⟩ : Shape).Idx → EReal) (ix2 k j') := by
  obtain ⟨e0, e1⟩ := idx2_8 t
  unfold iblk2
  rw [View.read_apply]
  show V c main_v103 _ = V c main_v103 _
  congr 1
  funext a
  apply Fin.ext
  match a with
  | ⟨0, _⟩ => show win2_8.index t (0 : Fin 2) * 256 + 1 * k.val = k.val; rw [e0]; omega
  | ⟨1, _⟩ => show win2_8.index t (1 : Fin 2) * 256 + 1 * j.val = j'.val; rw [e1, h]; omega

/-- Window 9 is whole at every point: its block is its array. -/
theorem rd2_9 (c : Dev nD) (t : Fin cfg2.N) (k : Fin 1) (j j' : Fin 256) (h : j'.val = j.val) :
    (iblk2 V c 9 t : (⟨2, ![1, 256]⟩ : Shape).Idx → EReal) (ix2 k j)
      = (V c main_v99 : (⟨2, ![1, 256]⟩ : Shape).Idx → EReal) (ix2 k j') := by
  obtain ⟨e0, e1⟩ := idx2_9 t
  unfold iblk2
  rw [View.read_apply]
  show V c main_v99 _ = V c main_v99 _
  congr 1
  funext a
  apply Fin.ext
  match a with
  | ⟨0, _⟩ => show win2_9.index t (0 : Fin 2) * 1 + 1 * k.val = k.val; rw [e0]; omega
  | ⟨1, _⟩ => show win2_9.index t (1 : Fin 2) * 256 + 1 * j.val = j'.val; rw [e1, h]; omega

/-! ## The whole output array -/

/-- What the output array ends holding, as one function of the region's operand arrays as it finds them. -/
def G2 (c : Dev nD) : Mat 50000 256 := two 50000 256 256 256 256 (V c main_v77) (V c main_v8) (V c main_v87) (V c main_v17) (V c main_v63) (V c main_v100) (V c main_v101) (V c main_v102) (V c main_v103) (V c main_v99)

theorem emb2_row (t : Fin cfg2.N) (y : S1000x256.Idx) :
    ((((cfg2.win 10).blk t).view.emb y) 0).val = t.val * 1000 + (y 0).val := by
  obtain ⟨e0, e1⟩ := idx2_10 t
  show win2_10.index t (0 : Fin 2) * 1000 + 1 * (y 0).val = _
  rw [e0]; omega

theorem emb2_col (t : Fin cfg2.N) (y : S1000x256.Idx) :
    ((((cfg2.win 10).blk t).view.emb y) 1).val = (y 1).val := by
  obtain ⟨e0, e1⟩ := idx2_10 t
  show win2_10.index t (1 : Fin 2) * 256 + 1 * (y 1).val = _
  rw [e1]; omega

/-- What point `t` writes back is tile `t` of `G2`. -/
theorem flushed_eq2 (c : Dev nD) (t : Fin cfg2.N) :
    (dat2 V c).flushed 10 t = ((cfg2.win 10).blk t).view.read (Elt Ideal) (G2 V c) := by
  show (cfg2.win 10).cut (grid2.coords t) ((dat2 V c).after 10 t) = _
  rw [after2_10]
  unfold out2_10
  rw [View.canon_unit_zero hz2]
  simp only [View.ld_unit_zero (S := S1000x256) hz2, View.ld_unit_zero (S := S1000x128) hz2, View.ld_unit_zero (S := S1000x1) hz2,
    View.ld_unit_zero (S := S256x256) hz2, View.ld_unit_zero (S := S128x256) hz2, View.ld_unit_zero (S := S1x256) hz2]
  funext y
  refine (pay2_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) y).trans ?_
  rw [View.read_apply]
  have hr := emb2_row t y
  have hc := emb2_col t y
  unfold G2

  exact two_ext y (((cfg2.win 10).blk t).view.emb y)
    (fun k => rd2_0 V c t (y 0) k _ hr) (rd2_1 V c t (y 0) 0 _ hr)
    (fun k => rd2_2 V c t (y 0) k _ hr) (rd2_3 V c t (y 0) 0 _ hr)
    (fun k => rd2_4 V c t (y 0) k _ hr)
    (fun k => rd2_5 V c t k (y 1) _ hc) (fun k => rd2_6 V c t k (y 1) _ hc)
    (fun k => rd2_7 V c t k (y 1) _ hc) (fun k => rd2_8 V c t k (y 1) _ hc)
    (rd2_9 V c t 0 (y 1) _ hc)

/-- An entry of the array is in point `t`'s tile iff each coordinate is in the tile's range. -/
theorem mem_blk2 (t : Fin cfg2.N) (i : S50000x256.Idx) :
    i ∈ ((cfg2.win 10).blk t).view.set ↔ ∀ a : Fin 2, win2_10.index t a * S1000x256.size a ≤ (i a).val
      ∧ (i a).val < win2_10.index t a * S1000x256.size a + S1000x256.size a := by
  show i ∈ ((View.whole main_v104).slice (win2_10.rect t)).set ↔ _
  rw [View.set_slice_whole, Rect.mem_set_unit]
  exact Iff.rfl

/-- Row `r` lies in the tile of point `r / 1000`. -/
theorem cover2 (i : S50000x256.Idx) :
    ∃ t : Fin cfg2.N, (cfg2.win 10).flush t = true ∧ i ∈ ((cfg2.win 10).blk t).view.set := by
  have hi0 : (i 0).val < 50000 := (i 0).isLt
  have hi1 : (i 1).val < 256 := (i 1).isLt
  have hlt : (i 0).val / 1000 < cfg2.N := lt_of_lt_of_eq (by omega : (i 0).val / 1000 < 50) N_2.symm
  refine ⟨⟨(i 0).val / 1000, hlt⟩, flush2_10 _, ?_⟩
  rw [mem_blk2]
  obtain ⟨e0, e1⟩ := idx2_10 ⟨(i 0).val / 1000, hlt⟩
  intro a
  match a with
  | ⟨0, _⟩ =>
    show win2_10.index ⟨(i 0).val / 1000, hlt⟩ (0 : Fin 2) * 1000 ≤ (i 0).val
      ∧ (i 0).val < win2_10.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win2_10.index ⟨(i 0).val / 1000, hlt⟩ (1 : Fin 2) * 256 ≤ (i 1).val
      ∧ (i 1).val < win2_10.index ⟨(i 0).val / 1000, hlt⟩ (1 : Fin 2) * 256 + 256
    rw [e1]; omega

/-- The output array after the region, at any entry contents `V`. -/
theorem value2 (c : Dev nD) : (dat2 V c).arrAt 10 cfg2.N = G2 V c :=
  (dat2 V c).arrAt_eq_of_cover 10 (G2 V c) (fun t _ => flushed_eq2 V c t) (cover2)

end Cert.Hetero.K

end
-- ==== Proof.KReg3.lean ====
/-
  The second layer, author rows: what the tiled kernel leaves in its whole output array.

  The grid has 25 points; point `t` works on rows `1000·t … 1000·t + 999`: every row-indexed operand and the output
  are cut into [1000, ·] row tiles at block index (t, 0), the weights and the bias row are whole at block index (0, 0).
  So the tile a point writes back is the same row tile of ONE whole-array function of the operand arrays as the
  region finds them (`value3`), and the 25 tiles cover all 25000 rows.
-/
import proofs.«102993_j62981400429145_2_alg».proof.Proof.Gen.KernelIdeal.Frame
import proofs.«102993_j62981400429145_2_alg».proof.Proof.KPay
import Idealize.ShloMosaic.Lib.Pipeline.Value

set_option synthInstance.maxSize 4096
set_option maxRecDepth 16384

noncomputable section

namespace Cert.Hetero.K

open Idealize.ShloMosaic Idealize.ShloMosaic.ValueIdx Idealize.ShloMosaic.TcCoe Idealize.SL.Sem
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz3 : (![0, 0] : Fin 2 → Nat) = fun _ => 0 := funext fun a => by fin_cases a <;> rfl

/-! ## Where each window's block sits -/

theorem idx3_0 : ∀ t : Fin cfg3.N, win3_0.index t (0 : Fin 2) = t.val ∧ win3_0.index t (1 : Fin 2) = 0 :=
  (by decide +kernel : ∀ t : Fin grid3.N, _)

theorem idx3_1 : ∀ t : Fin cfg3.N, win3_1.index t (0 : Fin 2) = t.val ∧ win3_1.index t (1 : Fin 2) = 0 :=
  (by decide +kernel : ∀ t : Fin grid3.N, _)

theorem idx3_2 : ∀ t : Fin cfg3.N, win3_2.index t (0 : Fin 2) = t.val ∧ win3_2.index t (1 : Fin 2) = 0 :=
  (by decide +kernel : ∀ t : Fin grid3.N, _)

theorem idx3_6 : ∀ t : Fin cfg3.N, win3_6.index t (0 : Fin 2) = t.val ∧ win3_6.index t (1 : Fin 2) = 0 :=
  (by decide +kernel : ∀ t : Fin grid3.N, _)

theorem idx3_3 : ∀ t : Fin cfg3.N, win3_3.index t (0 : Fin 2) = 0 ∧ win3_3.index t (1 : Fin 2) = 0 :=
  (by decide +kernel : ∀ t : Fin grid3.N, _)

theorem idx3_4 : ∀ t : Fin cfg3.N, win3_4.index t (0 : Fin 2) = 0 ∧ win3_4.index t (1 : Fin 2) = 0 :=
  (by decide +kernel : ∀ t : Fin grid3.N, _)

theorem idx3_5 : ∀ t : Fin cfg3.N, win3_5.index t (0 : Fin 2) = 0 ∧ win3_5.index t (1 : Fin 2) = 0 :=
  (by decide +kernel : ∀ t : Fin grid3.N, _)

/-! ## A block read back as the array at the block's place -/

/-- Row `y0` of point `t`'s tile of window 0 is row `1000·t + y0` of its array. -/
theorem rd3_0 (c : Dev nD) (t : Fin cfg3.N) (y0 : Fin 1000) (k : Fin 256) (i0 : Fin 25000)
    (h : i0.val = t.val * 1000 + y0.val) :
    (iblk3 V c 0 t : (⟨2, ![1000, 256]⟩ : Shape).Idx → EReal) (ix2 y0 k)
      = (V c main_v97 : (⟨2, ![25000, 256]⟩ : Shape).Idx → EReal) (ix2 i0 k) := by
  obtain ⟨e0, e1⟩ := idx3_0 t
  unfold iblk3
  rw [View.read_apply]
  show V c main_v97 _ = V c main_v97 _
  congr 1
  funext a
  apply Fin.ext
  match a with
  | ⟨0, _⟩ => show win3_0.index t (0 : Fin 2) * 1000 + 1 * y0.val = i0.val; rw [e0, h]; omega
  | ⟨1, _⟩ => show win3_0.index t (1 : Fin 2) * 256 + 1 * k.val = k.val; rw [e1]; omega

/-- Row `y0` of point `t`'s tile of window 1 is row `1000·t + y0` of its array. -/
theorem rd3_1 (c : Dev nD) (t : Fin cfg3.N) (y0 : Fin 1000) (k : Fin 1) (i0 : Fin 25000)
    (h : i0.val = t.val * 1000 + y0.val) :
    (iblk3 V c 1 t : (⟨2, ![1000, 1]⟩ : Shape).Idx → EReal) (ix2 y0 k)
      = (V c main_v26 : (⟨2, ![25000, 1]⟩ : Shape).Idx → EReal) (ix2 i0 k) := by
  obtain ⟨e0, e1⟩ := idx3_1 t
  unfold iblk3
  rw [View.read_apply]
  show V c main_v26 _ = V c main_v26 _
  congr 1
  funext a
  apply Fin.ext
  match a with
  | ⟨0, _⟩ => show win3_1.index t (0 : Fin 2) * 1000 + 1 * y0.val = i0.val; rw [e0, h]; omega
  | ⟨1, _⟩ => show win3_1.index t (1 : Fin 2) * 1 + 1 * k.val = k.val; rw [e1]; omega

/-- Row `y0` of point `t`'s tile of window 2 is row `1000·t + y0` of its array. -/
theorem rd3_2 (c : Dev nD) (t : Fin cfg3.N) (y0 : Fin 1000) (k : Fin 256) (i0 : Fin 25000)
    (h : i0.val = t.val * 1000 + y0.val) :
    (iblk3 V c 2 t : (⟨2, ![1000, 256]⟩ : Shape).Idx → EReal) (ix2 y0 k)
      = (V c main_v67 : (⟨2, ![25000, 256]⟩ : Shape).Idx → EReal) (ix2 i0 k) := by
  obtain ⟨e0, e1⟩ := idx3_2 t
  unfold iblk3
  rw [View.read_apply]
  show V c main_v67 _ = V c main_v67 _
  congr 1
  funext a
  apply Fin.ext
  match a with
  | ⟨0, _⟩ => show win3_2.index t (0 : Fin 2) * 1000 + 1 * y0.val = i0.val; rw [e0, h]; omega
  | ⟨1, _⟩ => show win3_2.index t (1 : Fin 2) * 256 + 1 * k.val = k.val; rw [e1]; omega

/-- Window 3 is whole at every point: its block is its array. -/
theorem rd3_3 (c : Dev nD) (t : Fin cfg3.N) (k : Fin 256) (j j' : Fin 256) (h : j'.val = j.val) :
    (iblk3 V c 3 t : (⟨2, ![256, 256]⟩ : Shape).Idx → EReal) (ix2 k j)
      = (V c main_v105 : (⟨2, ![256, 256]⟩ : Shape).Idx → EReal) (ix2 k j') := by
  obtain ⟨e0, e1⟩ := idx3_3 t
  unfold iblk3
  rw [View.read_apply]
  show V c main_v105 _ = V c main_v105 _
  congr 1
  funext a
  apply Fin.ext
  match a with
  | ⟨0, _⟩ => show win3_3.index t (0 : Fin 2) * 256 + 1 * k.val = k.val; rw [e0]; omega
  | ⟨1, _⟩ => show win3_3.index t (1 : Fin 2) * 256 + 1 * j.val = j'.val; rw [e1, h]; omega

/-- Window 4 is whole at every point: its block is its array. -/
theorem rd3_4 (c : Dev nD) (t : Fin cfg3.N) (k : Fin 256) (j j' : Fin 256) (h : j'.val = j.val) :
    (iblk3 V c 4 t : (⟨2, ![256, 256]⟩ : Shape).Idx → EReal) (ix2 k j)
      = (V c main_v106 : (⟨2, ![256, 256]⟩ : Shape).Idx → EReal) (ix2 k j') := by
  obtain ⟨e0, e1⟩ := idx3_4 t
  unfold iblk3
  rw [View.read_apply]
  show V c main_v106 _ = V c main_v106 _
  congr 1
  funext a
  apply Fin.ext
  match a with
  | ⟨0, _⟩ => show win3_4.index t (0 : Fin 2) * 256 + 1 * k.val = k.val; rw [e0]; omega
  | ⟨1, _⟩ => show win3_4.index t (1 : Fin 2) * 256 + 1 * j.val = j'.val; rw [e1, h]; omega

/-- Window 5 is whole at every point: its block is its array. -/
theorem rd3_5 (c : Dev nD) (t : Fin cfg3.N) (k : Fin 1) (j j' : Fin 256) (h : j'.val = j.val) :
    (iblk3 V c 5 t : (⟨2, ![1, 256]⟩ : Shape).Idx → EReal) (ix2 k j)
      = (V c main_v107 : (⟨2, ![1, 256]⟩ : Shape).Idx → EReal) (ix2 k j') := by
  obtain ⟨e0, e1⟩ := idx3_5 t
  unfold iblk3
  rw [View.read_apply]
  show V c main_v107 _ = V c main_v107 _
  congr 1
  funext a
  apply Fin.ext
  match a with
  | ⟨0, _⟩ => show win3_5.index t (0 : Fin 2) * 1 + 1 * k.val = k.val; rw [e0]; omega
  | ⟨1, _⟩ => show win3_5.index t (1 : Fin 2) * 256 + 1 * j.val = j'.val; rw [e1, h]; omega

/-! ## The whole output array -/

/-- What the output array ends holding, as one function of the region's operand arrays as it finds them. -/
def G3 (c : Dev nD) : Mat 25000 256 := one 25000 256 256 256 (V c main_v97) (V c main_v26) (V c main_v67) (V c main_v105) (V c main_v106) (V c main_v107)

theorem emb3_row (t : Fin cfg3.N) (y : S1000x256.Idx) :
    ((((cfg3.win 6).blk t).view.emb y) 0).val = t.val * 1000 + (y 0).val := by
  obtain ⟨e0, e1⟩ := idx3_6 t
  show win3_6.index t (0 : Fin 2) * 1000 + 1 * (y 0).val = _
  rw [e0]; omega

theorem emb3_col (t : Fin cfg3.N) (y : S1000x256.Idx) :
    ((((cfg3.win 6).blk t).view.emb y) 1).val = (y 1).val := by
  obtain ⟨e0, e1⟩ := idx3_6 t
  show win3_6.index t (1 : Fin 2) * 256 + 1 * (y 1).val = _
  rw [e1]; omega

/-- What point `t` writes back is tile `t` of `G3`. -/
theorem flushed_eq3 (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz3]
  simp only [View.ld_unit_zero (S := S1000x256) hz3, View.ld_unit_zero (S := S1000x128) hz3, View.ld_unit_zero (S := S1000x1) hz3,
    View.ld_unit_zero (S := S256x256) hz3, View.ld_unit_zero (S := S128x256) hz3, View.ld_unit_zero (S := S1x256) hz3]
  funext y
  refine (pay3_apply (iblk3 V c 0 t) (iblk3 V c 1 t) (iblk3 V c 2 t) (iblk3 V c 3 t) (iblk3 V c 4 t) (iblk3 V c 5 t) y).trans ?_
  rw [View.read_apply]
  have hr := emb3_row t y
  have hc := emb3_col t y
  unfold G3

  exact one_ext y (((cfg3.win 6).blk t).view.emb y)
    (fun k => rd3_0 V c t (y 0) k _ hr) (rd3_1 V c t (y 0) 0 _ hr)
    (fun k => rd3_2 V c t (y 0) k _ hr)
    (fun k => rd3_3 V c t k (y 1) _ hc) (fun k => rd3_4 V c t k (y 1) _ hc)
    (rd3_5 V c t 0 (y 1) _ hc)

/-- An entry of the array is in point `t`'s tile iff each coordinate is in the tile's range. -/
theorem mem_blk3 (t : Fin cfg3.N) (i : S25000x256.Idx) :
    i ∈ ((cfg3.win 6).blk t).view.set ↔ ∀ a : Fin 2, win3_6.index t a * S1000x256.size a ≤ (i a).val
      ∧ (i a).val < win3_6.index t a * S1000x256.size a + S1000x256.size a := by
  show i ∈ ((View.whole main_v108).slice (win3_6.rect t)).set ↔ _
  rw [View.set_slice_whole, Rect.mem_set_unit]
  exact Iff.rfl

/-- Row `r` lies in the tile of point `r / 1000`. -/
theorem cover3 (i : S25000x256.Idx) :
    ∃ t : Fin cfg3.N, (cfg3.win 6).flush t = true ∧ i ∈ ((cfg3.win 6).blk t).view.set := by
  have hi0 : (i 0).val < 25000 := (i 0).isLt
  have hi1 : (i 1).val < 256 := (i 1).isLt
  have hlt : (i 0).val / 1000 < cfg3.N := lt_of_lt_of_eq (by omega : (i 0).val / 1000 < 25) N_3.symm
  refine ⟨⟨(i 0).val / 1000, hlt⟩, flush3_6 _, ?_⟩
  rw [mem_blk3]
  obtain ⟨e0, e1⟩ := idx3_6 ⟨(i 0).val / 1000, hlt⟩
  intro a
  match a with
  | ⟨0, _⟩ =>
    show win3_6.index ⟨(i 0).val / 1000, hlt⟩ (0 : Fin 2) * 1000 ≤ (i 0).val
      ∧ (i 0).val < win3_6.index ⟨(i 0).val / 1000, hlt⟩ (0 : Fin 2) * 1000 + 1000
    rw [e0]; show (i 0).val / 1000 * 1000 ≤ (i 0).val ∧ (i 0).val < (i 0).val / 1000 * 1000 + 1000; omega
  | ⟨1, _⟩ =>
    show win3_6.index ⟨(i 0).val / 1000, hlt⟩ (1 : Fin 2) * 256 ≤ (i 1).val
      ∧ (i 1).val < win3_6.index ⟨(i 0).val / 1000, hlt⟩ (1 : Fin 2) * 256 + 256
    rw [e1]; omega

/-- The output array after the region, at any entry contents `V`. -/
theorem value3 (c : Dev nD) : (dat3 V c).arrAt 6 cfg3.N = G3 V c :=
  (dat3 V c).arrAt_eq_of_cover 6 (G3 V c) (fun t _ => flushed_eq3 V c t) (cover3)

end Cert.Hetero.K

end
-- ==== Proof.KFold.lean ====
/-
  The kernel program's two result arrays, read back through its eight segments to terms of the arguments.

  Each boundary between segments has known contents: a stretch of host operations rewrites the buffers it writes to
  its operations' values and leaves every other buffer; a tiled kernel rewrites its output array to the whole-array
  value of its region and leaves its operand arrays and every other buffer. One lemma per boundary and buffer that a
  later segment reads; the last two say what the program returns.
-/
import proofs.«102993_j62981400429145_2_alg».proof.Proof.Gen.KernelIdeal.Frame
import proofs.«102993_j62981400429145_2_alg».proof.Proof.KHost
import proofs.«102993_j62981400429145_2_alg».proof.Proof.KReg0
import proofs.«102993_j62981400429145_2_alg».proof.Proof.KReg1
import proofs.«102993_j62981400429145_2_alg».proof.Proof.KReg2
import proofs.«102993_j62981400429145_2_alg».proof.Proof.KReg3
import Idealize.ShloMosaic.Lib.StableHlo.Run

set_option synthInstance.maxSize 4096
set_option maxRecDepth 16384

noncomputable section

namespace Cert.Hetero.K

open Idealize.ShloMosaic Idealize.ShloMosaic.ValueIdx Idealize.ShloMosaic.TcCoe Idealize.SL.Sem
open Idealize.ShloMosaic.StableHlo
open Cert.KernelIdeal Cert.KernelIdeal.Gen
open Cert.KernelIdeal.Facts₀ Cert.KernelIdeal.Facts

variable (m : (ℓ : Loc nD τ sig) → Buf (Elt Ideal) ℓ) (ρ : Dev nD → PrngReg)

/-! ## At launch -/
theorem L0_arg0 (c : Dev nD) : W0 m ρ c (Proc.devRef .tc main_arg0) = (m ((c : Thread nD τ).loc main_arg0)) := rfl
theorem L0_arg1 (c : Dev nD) : W0 m ρ c (Proc.devRef .tc main_arg1) = (m ((c : Thread nD τ).loc main_arg1)) := rfl
theorem L0_arg2 (c : Dev nD) : W0 m ρ c (Proc.devRef .tc main_arg2) = (m ((c : Thread nD τ).loc main_arg2)) := rfl
theorem L0_arg3 (c : Dev nD) : W0 m ρ c (Proc.devRef .tc main_arg3) = (m ((c : Thread nD τ).loc main_arg3)) := rfl
theorem L0_arg4 (c : Dev nD) : W0 m ρ c (Proc.devRef .tc main_arg4) = (m ((c : Thread nD τ).loc main_arg4)) := rfl
theorem L0_arg5 (c : Dev nD) : W0 m ρ c (Proc.devRef .tc main_arg5) = (m ((c : Thread nD τ).loc main_arg5)) := rfl
theorem L0_arg6 (c : Dev nD) : W0 m ρ c (Proc.devRef .tc main_arg6) = (m ((c : Thread nD τ).loc main_arg6)) := rfl
theorem L0_arg7 (c : Dev nD) : W0 m ρ c (Proc.devRef .tc main_arg7) = (m ((c : Thread nD τ).loc main_arg7)) := rfl
theorem L0_arg8 (c : Dev nD) : W0 m ρ c (Proc.devRef .tc main_arg8) = (m ((c : Thread nD τ).loc main_arg8)) := rfl
theorem L0_arg9 (c : Dev nD) : W0 m ρ c (Proc.devRef .tc main_arg9) = (m ((c : Thread nD τ).loc main_arg9)) := rfl
theorem L0_arg10 (c : Dev nD) : W0 m ρ c (Proc.devRef .tc main_arg10) = (m ((c : Thread nD τ).loc main_arg10)) := rfl
theorem L0_arg11 (c : Dev nD) : W0 m ρ c (Proc.devRef .tc main_arg11) = (m ((c : Thread nD τ).loc main_arg11)) := rfl
theorem L0_arg12 (c : Dev nD) : W0 m ρ c (Proc.devRef .tc main_arg12) = (m ((c : Thread nD τ).loc main_arg12)) := rfl
theorem L0_arg13 (c : Dev nD) : W0 m ρ c (Proc.devRef .tc main_arg13) = (m ((c : Thread nD τ).loc main_arg13)) := rfl
theorem L0_arg14 (c : Dev nD) : W0 m ρ c (Proc.devRef .tc main_arg14) = (m ((c : Thread nD τ).loc main_arg14)) := rfl
theorem L0_arg15 (c : Dev nD) : W0 m ρ c (Proc.devRef .tc main_arg15) = (m ((c : Thread nD τ).loc main_arg15)) := rfl
theorem L0_arg16 (c : Dev nD) : W0 m ρ c (Proc.devRef .tc main_arg16) = (m ((c : Thread nD τ).loc main_arg16)) := rfl
theorem L0_arg17 (c : Dev nD) : W0 m ρ c (Proc.devRef .tc main_arg17) = (m ((c : Thread nD τ).loc main_arg17)) := rfl
theorem L0_arg18 (c : Dev nD) : W0 m ρ c (Proc.devRef .tc main_arg18) = (m ((c : Thread nD τ).loc main_arg18)) := rfl
theorem L0_arg19 (c : Dev nD) : W0 m ρ c (Proc.devRef .tc main_arg19) = (m ((c : Thread nD τ).loc main_arg19)) := rfl
theorem L0_arg20 (c : Dev nD) : W0 m ρ c (Proc.devRef .tc main_arg20) = (m ((c : Thread nD τ).loc main_arg20)) := rfl
theorem L0_arg21 (c : Dev nD) : W0 m ρ c (Proc.devRef .tc main_arg21) = (m ((c : Thread nD τ).loc main_arg21)) := rfl
theorem L0_arg22 (c : Dev nD) : W0 m ρ c (Proc.devRef .tc main_arg22) = (m ((c : Thread nD τ).loc main_arg22)) := rfl
theorem L0_arg23 (c : Dev nD) : W0 m ρ c (Proc.devRef .tc main_arg23) = (m ((c : Thread nD τ).loc main_arg23)) := rfl
theorem L0_arg24 (c : Dev nD) : W0 m ρ c (Proc.devRef .tc main_arg24) = (m ((c : Thread nD τ).loc main_arg24)) := rfl
theorem L0_arg25 (c : Dev nD) : W0 m ρ c (Proc.devRef .tc main_arg25) = (m ((c : Thread nD τ).loc main_arg25)) := rfl

/-! ## After the first stretch of host operations -/

theorem L1_arg0 (c : Dev nD) : W1 m ρ c (Proc.devRef .tc main_arg0) = (m ((c : Thread nD τ).loc main_arg0)) :=
  (StableHlo.after_of_forall_not_mem (b := (Proc.devRef .tc main_arg0)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg0 m ρ c)

theorem L1_arg1 (c : Dev nD) : W1 m ρ c (Proc.devRef .tc main_arg1) = (m ((c : Thread nD τ).loc main_arg1)) :=
  (StableHlo.after_of_forall_not_mem (b := (Proc.devRef .tc main_arg1)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg1 m ρ c)

theorem L1_arg2 (c : Dev nD) : W1 m ρ c (Proc.devRef .tc main_arg2) = (m ((c : Thread nD τ).loc main_arg2)) :=
  (StableHlo.after_of_forall_not_mem (b := (Proc.devRef .tc main_arg2)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg2 m ρ c)

theorem L1_arg3 (c : Dev nD) : W1 m ρ c (Proc.devRef .tc main_arg3) = (m ((c : Thread nD τ).loc main_arg3)) :=
  (StableHlo.after_of_forall_not_mem (b := (Proc.devRef .tc main_arg3)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg3 m ρ c)

theorem L1_arg4 (c : Dev nD) : W1 m ρ c (Proc.devRef .tc main_arg4) = (m ((c : Thread nD τ).loc main_arg4)) :=
  (StableHlo.after_of_forall_not_mem (b := (Proc.devRef .tc main_arg4)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg4 m ρ c)

theorem L1_arg5 (c : Dev nD) : W1 m ρ c (Proc.devRef .tc main_arg5) = (m ((c : Thread nD τ).loc main_arg5)) :=
  (StableHlo.after_of_forall_not_mem (b := (Proc.devRef .tc main_arg5)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg5 m ρ c)

theorem L1_arg6 (c : Dev nD) : W1 m ρ c (Proc.devRef .tc main_arg6) = (m ((c : Thread nD τ).loc main_arg6)) :=
  (StableHlo.after_of_forall_not_mem (b := (Proc.devRef .tc main_arg6)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg6 m ρ c)

theorem L1_arg7 (c : Dev nD) : W1 m ρ c (Proc.devRef .tc main_arg7) = (m ((c : Thread nD τ).loc main_arg7)) :=
  (StableHlo.after_of_forall_not_mem (b := (Proc.devRef .tc main_arg7)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg7 m ρ c)

theorem L1_arg14 (c : Dev nD) : W1 m ρ c (Proc.devRef .tc main_arg14) = (m ((c : Thread nD τ).loc main_arg14)) :=
  (StableHlo.after_of_forall_not_mem (b := (Proc.devRef .tc main_arg14)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg14 m ρ c)

theorem L1_arg15 (c : Dev nD) : W1 m ρ c (Proc.devRef .tc main_arg15) = (m ((c : Thread nD τ).loc main_arg15)) :=
  (StableHlo.after_of_forall_not_mem (b := (Proc.devRef .tc main_arg15)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg15 m ρ c)

theorem L1_arg16 (c : Dev nD) : W1 m ρ c (Proc.devRef .tc main_arg16) = (m ((c : Thread nD τ).loc main_arg16)) :=
  (StableHlo.after_of_forall_not_mem (b := (Proc.devRef .tc main_arg16)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg16 m ρ c)

theorem L1_arg17 (c : Dev nD) : W1 m ρ c (Proc.devRef .tc main_arg17) = (m ((c : Thread nD τ).loc main_arg17)) :=
  (StableHlo.after_of_forall_not_mem (b := (Proc.devRef .tc main_arg17)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg17 m ρ c)

theorem L1_arg18 (c : Dev nD) : W1 m ρ c (Proc.devRef .tc main_arg18) = (m ((c : Thread nD τ).loc main_arg18)) :=
  (StableHlo.after_of_forall_not_mem (b := (Proc.devRef .tc main_arg18)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg18 m ρ c)

theorem L1_arg19 (c : Dev nD) : W1 m ρ c (Proc.devRef .tc main_arg19) = (m ((c : Thread nD τ).loc main_arg19)) :=
  (StableHlo.after_of_forall_not_mem (b := (Proc.devRef .tc main_arg19)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg19 m ρ c)

theorem L1_arg20 (c : Dev nD) : W1 m ρ c (Proc.devRef .tc main_arg20) = (m ((c : Thread nD τ).loc main_arg20)) :=
  (StableHlo.after_of_forall_not_mem (b := (Proc.devRef .tc main_arg20)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg20 m ρ c)

theorem L1_arg21 (c : Dev nD) : W1 m ρ c (Proc.devRef .tc main_arg21) = (m ((c : Thread nD τ).loc main_arg21)) :=
  (StableHlo.after_of_forall_not_mem (b := (Proc.devRef .tc main_arg21)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg21 m ρ c)

theorem L1_arg22 (c : Dev nD) : W1 m ρ c (Proc.devRef .tc main_arg22) = (m ((c : Thread nD τ).loc main_arg22)) :=
  (StableHlo.after_of_forall_not_mem (b := (Proc.devRef .tc main_arg22)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg22 m ρ c)

theorem L1_arg23 (c : Dev nD) : W1 m ρ c (Proc.devRef .tc main_arg23) = (m ((c : Thread nD τ).loc main_arg23)) :=
  (StableHlo.after_of_forall_not_mem (b := (Proc.devRef .tc main_arg23)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg23 m ρ c)

theorem L1_arg24 (c : Dev nD) : W1 m ρ c (Proc.devRef .tc main_arg24) = (m ((c : Thread nD τ).loc main_arg24)) :=
  (StableHlo.after_of_forall_not_mem (b := (Proc.devRef .tc main_arg24)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg24 m ρ c)

theorem L1_arg25 (c : Dev nD) : W1 m ρ c (Proc.devRef .tc main_arg25) = (m ((c : Thread nD τ).loc main_arg25)) :=
  (StableHlo.after_of_forall_not_mem (b := (Proc.devRef .tc main_arg25)) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L0_arg25 m ρ c)

set_option maxHeartbeats 8000000 in
theorem L1_v36 (c : Dev nD) : W1 m ρ c (Proc.devRef .tc main_v36) = (msgPP (F := Ideal) (m ((c : Thread nD τ).loc main_arg0)) (m ((c : Thread nD τ).loc main_arg2)) (m ((c : Thread nD τ).loc main_arg3))) := by
  show StableHlo.after hostOps0 (W0 m ρ c) (Proc.devRef .tc main_v36) = _
  dsimp only [hostOps0]
  after_results_simp
  rw [L0_arg0 m ρ c, L0_arg2 m ρ c, L0_arg3 m ρ c]
  rfl

set_option maxHeartbeats 8000000 in
theorem L1_v8 (c : Dev nD) : W1 m ρ c (Proc.devRef .tc main_v8) = (invP (F := Ideal) (m ((c : Thread nD τ).loc main_arg3))) := by
  show StableHlo.after hostOps0 (W0 m ρ c) (Proc.devRef .tc main_v8) = _
  dsimp only [hostOps0]
  after_results_simp
  rw [L0_arg3 m ρ c]
  rfl

set_option maxHeartbeats 8000000 in
theorem L1_v46 (c : Dev nD) : W1 m ρ c (Proc.devRef .tc main_v46) = (msgAP1 (F := Ideal) (m ((c : Thread nD τ).loc main_arg1)) (m ((c : Thread nD τ).loc main_arg4)) (m ((c : Thread nD τ).loc main_arg5))) := by
  show StableHlo.after hostOps0 (W0 m ρ c) (Proc.devRef .tc main_v46) = _
  dsimp only [hostOps0]
  after_results_simp
  rw [L0_arg1 m ρ c, L0_arg4 m ρ c, L0_arg5 m ρ c]
  rfl

set_option maxHeartbeats 8000000 in
theorem L1_v17 (c : Dev nD) : W1 m ρ c (Proc.devRef .tc main_v17) = (invP (F := Ideal) (m ((c : Thread nD τ).loc main_arg5))) := by
  show StableHlo.after hostOps0 (W0 m ρ c) (Proc.devRef .tc main_v17) = _
  dsimp only [hostOps0]
  after_results_simp
  rw [L0_arg5 m ρ c]
  rfl

set_option maxHeartbeats 8000000 in
theorem L1_v59 (c : Dev nD) : W1 m ρ c (Proc.devRef .tc main_v59) = (trW (F := Ideal) (m ((c : Thread nD τ).loc main_arg8))) := by
  show StableHlo.after hostOps0 (W0 m ρ c) (Proc.devRef .tc main_v59) = _
  dsimp only [hostOps0]
  after_results_simp
  rw [L0_arg8 m ρ c]
  rfl

set_option maxHeartbeats 8000000 in
theorem L1_v60 (c : Dev nD) : W1 m ρ c (Proc.devRef .tc main_v60) = (trW (F := Ideal) (m ((c : Thread nD τ).loc main_arg10))) := by
  show StableHlo.after hostOps0 (W0 m ρ c) (Proc.devRef .tc main_v60) = _
  dsimp only [hostOps0]
  after_results_simp
  rw [L0_arg10 m ρ c]
  rfl

set_option maxHeartbeats 8000000 in
theorem L1_v61 (c : Dev nD) : W1 m ρ c (Proc.devRef .tc main_v61) = (trW (F := Ideal) (m ((c : Thread nD τ).loc main_arg11))) := by
  show StableHlo.after hostOps0 (W0 m ρ c) (Proc.devRef .tc main_v61) = _
  dsimp only [hostOps0]
  after_results_simp
  rw [L0_arg11 m ρ c]
  rfl

set_option maxHeartbeats 8000000 in
theorem L1_v62 (c : Dev nD) : W1 m ρ c (Proc.devRef .tc main_v62) = (trW (F := Ideal) (m ((c : Thread nD τ).loc main_arg13))) := by
  show StableHlo.after hostOps0 (W0 m ρ c) (Proc.devRef .tc main_v62) = _
  dsimp only [hostOps0]
  after_results_simp
  rw [L0_arg13 m ρ c]
  rfl

set_option maxHeartbeats 8000000 in
theorem L1_v58 (c : Dev nD) : W1 m ρ c (Proc.devRef .tc main_v58) = (rowB (F := Ideal) (addf (m ((c : Thread nD τ).loc main_arg9)) (m ((c : Thread nD τ).loc main_arg12)))) := by
  show StableHlo.after hostOps0 (W0 m ρ c) (Proc.devRef .tc main_v58) = _
  dsimp only [hostOps0]
  after_results_simp
  rw [L0_arg9 m ρ c, L0_arg12 m ρ c]
  rfl

set_option maxHeartbeats 8000000 in
theorem L1_v56 (c : Dev nD) : W1 m ρ c (Proc.devRef .tc main_v56) = (msgPA (F := Ideal) (m ((c : Thread nD τ).loc main_arg0)) (m ((c : Thread nD τ).loc main_arg6)) (m ((c : Thread nD τ).loc main_arg7))) := by
  show StableHlo.after hostOps0 (W0 m ρ c) (Proc.devRef .tc main_v56) = _
  dsimp only [hostOps0]
  after_results_simp
  rw [L0_arg0 m ρ c, L0_arg6 m ρ c, L0_arg7 m ρ c]
  rfl

set_option maxHeartbeats 8000000 in
theorem L1_v26 (c : Dev nD) : W1 m ρ c (Proc.devRef .tc main_v26) = (invA (F := Ideal) (m ((c : Thread nD τ).loc main_arg7))) := by
  show StableHlo.after hostOps0 (W0 m ρ c) (Proc.devRef .tc main_v26) = _
  dsimp only [hostOps0]
  after_results_simp
  rw [L0_arg7 m ρ c]
  rfl

/-! ## After the first kernel -/

theorem L2_v63 (c : Dev nD) : W2 m ρ c (Proc.devRef .tc main_v63) = (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W2_arr m ρ c 10).trans ((value0 (V1 m ρ) c).trans ?_)
  show relu (two 50000 256 128 256 256 (W1 m ρ c (Proc.devRef .tc main_v36)) (W1 m ρ c (Proc.devRef .tc main_v8)) (W1 m ρ c (Proc.devRef .tc main_v46)) (W1 m ρ c (Proc.devRef .tc main_v17)) (W1 m ρ c (Proc.devRef .tc main_arg0)) (W1 m ρ c (Proc.devRef .tc main_v59)) (W1 m ρ c (Proc.devRef .tc main_v60)) (W1 m ρ c (Proc.devRef .tc main_v61)) (W1 m ρ c (Proc.devRef .tc main_v62)) (W1 m ρ c (Proc.devRef .tc main_v58))) = _
  rw [L1_v36 m ρ c, L1_v8 m ρ c, L1_v46 m ρ c, L1_v17 m ρ c, L1_arg0 m ρ c, L1_v59 m ρ c, L1_v60 m ρ c, L1_v61 m ρ c, L1_v62 m ρ c, L1_v58 m ρ c]
  rfl

theorem L2_v8 (c : Dev nD) : W2 m ρ c (Proc.devRef .tc main_v8) = (invP (F := Ideal) (m ((c : Thread nD τ).loc main_arg3))) :=
  (W2_arr m ρ c 1).trans (((dat0 (V1 m ρ) c).arrAt_in 1 rfl _).trans ((A_eq0 (V1 m ρ) c 1).trans (L1_v8 m ρ c)))

theorem L2_v17 (c : Dev nD) : W2 m ρ c (Proc.devRef .tc main_v17) = (invP (F := Ideal) (m ((c : Thread nD τ).loc main_arg5))) :=
  (W2_arr m ρ c 3).trans (((dat0 (V1 m ρ) c).arrAt_in 3 rfl _).trans ((A_eq0 (V1 m ρ) c 3).trans (L1_v17 m ρ c)))

theorem L2_v56 (c : Dev nD) : W2 m ρ c (Proc.devRef .tc main_v56) = (msgPA (F := Ideal) (m ((c : Thread nD τ).loc main_arg0)) (m ((c : Thread nD τ).loc main_arg6)) (m ((c : Thread nD τ).loc main_arg7))) :=
  (W2_of_ne m ρ c main_v56 (by decide)).trans (L1_v56 m ρ c)

theorem L2_v26 (c : Dev nD) : W2 m ρ c (Proc.devRef .tc main_v26) = (invA (F := Ideal) (m ((c : Thread nD τ).loc main_arg7))) :=
  (W2_of_ne m ρ c main_v26 (by decide)).trans (L1_v26 m ρ c)

theorem L2_arg1 (c : Dev nD) : W2 m ρ c (Proc.devRef .tc main_arg1) = (m ((c : Thread nD τ).loc main_arg1)) :=
  (W2_of_ne m ρ c main_arg1 (by decide)).trans (L1_arg1 m ρ c)

theorem L2_arg2 (c : Dev nD) : W2 m ρ c (Proc.devRef .tc main_arg2) = (m ((c : Thread nD τ).loc main_arg2)) :=
  (W2_of_ne m ρ c main_arg2 (by decide)).trans (L1_arg2 m ρ c)

theorem L2_arg3 (c : Dev nD) : W2 m ρ c (Proc.devRef .tc main_arg3) = (m ((c : Thread nD τ).loc main_arg3)) :=
  (W2_of_ne m ρ c main_arg3 (by decide)).trans (L1_arg3 m ρ c)

theorem L2_arg4 (c : Dev nD) : W2 m ρ c (Proc.devRef .tc main_arg4) = (m ((c : Thread nD τ).loc main_arg4)) :=
  (W2_of_ne m ρ c main_arg4 (by decide)).trans (L1_arg4 m ρ c)

theorem L2_arg5 (c : Dev nD) : W2 m ρ c (Proc.devRef .tc main_arg5) = (m ((c : Thread nD τ).loc main_arg5)) :=
  (W2_of_ne m ρ c main_arg5 (by decide)).trans (L1_arg5 m ρ c)

theorem L2_arg6 (c : Dev nD) : W2 m ρ c (Proc.devRef .tc main_arg6) = (m ((c : Thread nD τ).loc main_arg6)) :=
  (W2_of_ne m ρ c main_arg6 (by decide)).trans (L1_arg6 m ρ c)

theorem L2_arg7 (c : Dev nD) : W2 m ρ c (Proc.devRef .tc main_arg7) = (m ((c : Thread nD τ).loc main_arg7)) :=
  (W2_of_ne m ρ c main_arg7 (by decide)).trans (L1_arg7 m ρ c)

theorem L2_arg14 (c : Dev nD) : W2 m ρ c (Proc.devRef .tc main_arg14) = (m ((c : Thread nD τ).loc main_arg14)) :=
  (W2_of_ne m ρ c main_arg14 (by decide)).trans (L1_arg14 m ρ c)

theorem L2_arg15 (c : Dev nD) : W2 m ρ c (Proc.devRef .tc main_arg15) = (m ((c : Thread nD τ).loc main_arg15)) :=
  (W2_of_ne m ρ c main_arg15 (by decide)).trans (L1_arg15 m ρ c)

theorem L2_arg16 (c : Dev nD) : W2 m ρ c (Proc.devRef .tc main_arg16) = (m ((c : Thread nD τ).loc main_arg16)) :=
  (W2_of_ne m ρ c main_arg16 (by decide)).trans (L1_arg16 m ρ c)

theorem L2_arg17 (c : Dev nD) : W2 m ρ c (Proc.devRef .tc main_arg17) = (m ((c : Thread nD τ).loc main_arg17)) :=
  (W2_of_ne m ρ c main_arg17 (by decide)).trans (L1_arg17 m ρ c)

theorem L2_arg18 (c : Dev nD) : W2 m ρ c (Proc.devRef .tc main_arg18) = (m ((c : Thread nD τ).loc main_arg18)) :=
  (W2_of_ne m ρ c main_arg18 (by decide)).trans (L1_arg18 m ρ c)

theorem L2_arg19 (c : Dev nD) : W2 m ρ c (Proc.devRef .tc main_arg19) = (m ((c : Thread nD τ).loc main_arg19)) :=
  (W2_of_ne m ρ c main_arg19 (by decide)).trans (L1_arg19 m ρ c)

theorem L2_arg20 (c : Dev nD) : W2 m ρ c (Proc.devRef .tc main_arg20) = (m ((c : Thread nD τ).loc main_arg20)) :=
  (W2_of_ne m ρ c main_arg20 (by decide)).trans (L1_arg20 m ρ c)

theorem L2_arg21 (c : Dev nD) : W2 m ρ c (Proc.devRef .tc main_arg21) = (m ((c : Thread nD τ).loc main_arg21)) :=
  (W2_of_ne m ρ c main_arg21 (by decide)).trans (L1_arg21 m ρ c)

theorem L2_arg22 (c : Dev nD) : W2 m ρ c (Proc.devRef .tc main_arg22) = (m ((c : Thread nD τ).loc main_arg22)) :=
  (W2_of_ne m ρ c main_arg22 (by decide)).trans (L1_arg22 m ρ c)

theorem L2_arg23 (c : Dev nD) : W2 m ρ c (Proc.devRef .tc main_arg23) = (m ((c : Thread nD τ).loc main_arg23)) :=
  (W2_of_ne m ρ c main_arg23 (by decide)).trans (L1_arg23 m ρ c)

theorem L2_arg24 (c : Dev nD) : W2 m ρ c (Proc.devRef .tc main_arg24) = (m ((c : Thread nD τ).loc main_arg24)) :=
  (W2_of_ne m ρ c main_arg24 (by decide)).trans (L1_arg24 m ρ c)

theorem L2_arg25 (c : Dev nD) : W2 m ρ c (Proc.devRef .tc main_arg25) = (m ((c : Thread nD τ).loc main_arg25)) :=
  (W2_of_ne m ρ c main_arg25 (by decide)).trans (L1_arg25 m ρ c)

/-! ## After the second stretch of host operations -/

theorem L3_v63 (c : Dev nD) : W3 m ρ c (Proc.devRef .tc main_v63) = (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (StableHlo.after_of_forall_not_mem (b := (Proc.devRef .tc main_v63)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_v63 m ρ c)

theorem L3_v8 (c : Dev nD) : W3 m ρ c (Proc.devRef .tc main_v8) = (invP (F := Ideal) (m ((c : Thread nD τ).loc main_arg3))) :=
  (StableHlo.after_of_forall_not_mem (b := (Proc.devRef .tc main_v8)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_v8 m ρ c)

theorem L3_v17 (c : Dev nD) : W3 m ρ c (Proc.devRef .tc main_v17) = (invP (F := Ideal) (m ((c : Thread nD τ).loc main_arg5))) :=
  (StableHlo.after_of_forall_not_mem (b := (Proc.devRef .tc main_v17)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_v17 m ρ c)

theorem L3_v56 (c : Dev nD) : W3 m ρ c (Proc.devRef .tc main_v56) = (msgPA (F := Ideal) (m ((c : Thread nD τ).loc main_arg0)) (m ((c : Thread nD τ).loc main_arg6)) (m ((c : Thread nD τ).loc main_arg7))) :=
  (StableHlo.after_of_forall_not_mem (b := (Proc.devRef .tc main_v56)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_v56 m ρ c)

theorem L3_v26 (c : Dev nD) : W3 m ρ c (Proc.devRef .tc main_v26) = (invA (F := Ideal) (m ((c : Thread nD τ).loc main_arg7))) :=
  (StableHlo.after_of_forall_not_mem (b := (Proc.devRef .tc main_v26)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_v26 m ρ c)

theorem L3_arg1 (c : Dev nD) : W3 m ρ c (Proc.devRef .tc main_arg1) = (m ((c : Thread nD τ).loc main_arg1)) :=
  (StableHlo.after_of_forall_not_mem (b := (Proc.devRef .tc main_arg1)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg1 m ρ c)

theorem L3_arg2 (c : Dev nD) : W3 m ρ c (Proc.devRef .tc main_arg2) = (m ((c : Thread nD τ).loc main_arg2)) :=
  (StableHlo.after_of_forall_not_mem (b := (Proc.devRef .tc main_arg2)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg2 m ρ c)

theorem L3_arg3 (c : Dev nD) : W3 m ρ c (Proc.devRef .tc main_arg3) = (m ((c : Thread nD τ).loc main_arg3)) :=
  (StableHlo.after_of_forall_not_mem (b := (Proc.devRef .tc main_arg3)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg3 m ρ c)

theorem L3_arg4 (c : Dev nD) : W3 m ρ c (Proc.devRef .tc main_arg4) = (m ((c : Thread nD τ).loc main_arg4)) :=
  (StableHlo.after_of_forall_not_mem (b := (Proc.devRef .tc main_arg4)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg4 m ρ c)

theorem L3_arg5 (c : Dev nD) : W3 m ρ c (Proc.devRef .tc main_arg5) = (m ((c : Thread nD τ).loc main_arg5)) :=
  (StableHlo.after_of_forall_not_mem (b := (Proc.devRef .tc main_arg5)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg5 m ρ c)

theorem L3_arg6 (c : Dev nD) : W3 m ρ c (Proc.devRef .tc main_arg6) = (m ((c : Thread nD τ).loc main_arg6)) :=
  (StableHlo.after_of_forall_not_mem (b := (Proc.devRef .tc main_arg6)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg6 m ρ c)

theorem L3_arg7 (c : Dev nD) : W3 m ρ c (Proc.devRef .tc main_arg7) = (m ((c : Thread nD τ).loc main_arg7)) :=
  (StableHlo.after_of_forall_not_mem (b := (Proc.devRef .tc main_arg7)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg7 m ρ c)

theorem L3_arg17 (c : Dev nD) : W3 m ρ c (Proc.devRef .tc main_arg17) = (m ((c : Thread nD τ).loc main_arg17)) :=
  (StableHlo.after_of_forall_not_mem (b := (Proc.devRef .tc main_arg17)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg17 m ρ c)

theorem L3_arg18 (c : Dev nD) : W3 m ρ c (Proc.devRef .tc main_arg18) = (m ((c : Thread nD τ).loc main_arg18)) :=
  (StableHlo.after_of_forall_not_mem (b := (Proc.devRef .tc main_arg18)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg18 m ρ c)

theorem L3_arg19 (c : Dev nD) : W3 m ρ c (Proc.devRef .tc main_arg19) = (m ((c : Thread nD τ).loc main_arg19)) :=
  (StableHlo.after_of_forall_not_mem (b := (Proc.devRef .tc main_arg19)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg19 m ρ c)

theorem L3_arg20 (c : Dev nD) : W3 m ρ c (Proc.devRef .tc main_arg20) = (m ((c : Thread nD τ).loc main_arg20)) :=
  (StableHlo.after_of_forall_not_mem (b := (Proc.devRef .tc main_arg20)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg20 m ρ c)

theorem L3_arg21 (c : Dev nD) : W3 m ρ c (Proc.devRef .tc main_arg21) = (m ((c : Thread nD τ).loc main_arg21)) :=
  (StableHlo.after_of_forall_not_mem (b := (Proc.devRef .tc main_arg21)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg21 m ρ c)

theorem L3_arg22 (c : Dev nD) : W3 m ρ c (Proc.devRef .tc main_arg22) = (m ((c : Thread nD τ).loc main_arg22)) :=
  (StableHlo.after_of_forall_not_mem (b := (Proc.devRef .tc main_arg22)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg22 m ρ c)

theorem L3_arg23 (c : Dev nD) : W3 m ρ c (Proc.devRef .tc main_arg23) = (m ((c : Thread nD τ).loc main_arg23)) :=
  (StableHlo.after_of_forall_not_mem (b := (Proc.devRef .tc main_arg23)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg23 m ρ c)

theorem L3_arg24 (c : Dev nD) : W3 m ρ c (Proc.devRef .tc main_arg24) = (m ((c : Thread nD τ).loc main_arg24)) :=
  (StableHlo.after_of_forall_not_mem (b := (Proc.devRef .tc main_arg24)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg24 m ρ c)

theorem L3_arg25 (c : Dev nD) : W3 m ρ c (Proc.devRef .tc main_arg25) = (m ((c : Thread nD τ).loc main_arg25)) :=
  (StableHlo.after_of_forall_not_mem (b := (Proc.devRef .tc main_arg25)) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L2_arg25 m ρ c)

set_option maxHeartbeats 8000000 in
theorem L3_v64 (c : Dev nD) : W3 m ρ c (Proc.devRef .tc main_v64) = (trW (F := Ideal) (m ((c : Thread nD τ).loc main_arg14))) := by
  show StableHlo.after hostOps1 (W2 m ρ c) (Proc.devRef .tc main_v64) = _
  dsimp only [hostOps1]
  after_results_simp
  rw [L2_arg14 m ρ c]
  rfl

set_option maxHeartbeats 8000000 in
theorem L3_v65 (c : Dev nD) : W3 m ρ c (Proc.devRef .tc main_v65) = (trW (F := Ideal) (m ((c : Thread nD τ).loc main_arg16))) := by
  show StableHlo.after hostOps1 (W2 m ρ c) (Proc.devRef .tc main_v65) = _
  dsimp only [hostOps1]
  after_results_simp
  rw [L2_arg16 m ρ c]
  rfl

set_option maxHeartbeats 8000000 in
theorem L3_v66 (c : Dev nD) : W3 m ρ c (Proc.devRef .tc main_v66) = (rowB (F := Ideal) (m ((c : Thread nD τ).loc main_arg15))) := by
  show StableHlo.after hostOps1 (W2 m ρ c) (Proc.devRef .tc main_v66) = _
  dsimp only [hostOps1]
  after_results_simp
  rw [L2_arg15 m ρ c]
  rfl

/-! ## After the second kernel -/

theorem L4_v67 (c : Dev nD) : W4 m ρ c (Proc.devRef .tc main_v67) = (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) := by
  refine (W4_arr m ρ c 6).trans ((value1 (V3 m ρ) c).trans ?_)
  show relu (one 25000 256 128 256 (W3 m ρ c (Proc.devRef .tc main_v56)) (W3 m ρ c (Proc.devRef .tc main_v26)) (W3 m ρ c (Proc.devRef .tc main_arg1)) (W3 m ρ c (Proc.devRef .tc main_v64)) (W3 m ρ c (Proc.devRef .tc main_v65)) (W3 m ρ c (Proc.devRef .tc main_v66))) = _
  rw [L3_v56 m ρ c, L3_v26 m ρ c, L3_arg1 m ρ c, L3_v64 m ρ c, L3_v65 m ρ c, L3_v66 m ρ c]
  rfl

theorem L4_v26 (c : Dev nD) : W4 m ρ c (Proc.devRef .tc main_v26) = (invA (F := Ideal) (m ((c : Thread nD τ).loc main_arg7))) :=
  (W4_arr m ρ c 1).trans (((dat1 (V3 m ρ) c).arrAt_in 1 rfl _).trans ((A_eq1 (V3 m ρ) c 1).trans (L3_v26 m ρ c)))

theorem L4_v63 (c : Dev nD) : W4 m ρ c (Proc.devRef .tc main_v63) = (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (W4_of_ne m ρ c main_v63 (by decide)).trans (L3_v63 m ρ c)

theorem L4_v8 (c : Dev nD) : W4 m ρ c (Proc.devRef .tc main_v8) = (invP (F := Ideal) (m ((c : Thread nD τ).loc main_arg3))) :=
  (W4_of_ne m ρ c main_v8 (by decide)).trans (L3_v8 m ρ c)

theorem L4_v17 (c : Dev nD) : W4 m ρ c (Proc.devRef .tc main_v17) = (invP (F := Ideal) (m ((c : Thread nD τ).loc main_arg5))) :=
  (W4_of_ne m ρ c main_v17 (by decide)).trans (L3_v17 m ρ c)

theorem L4_arg2 (c : Dev nD) : W4 m ρ c (Proc.devRef .tc main_arg2) = (m ((c : Thread nD τ).loc main_arg2)) :=
  (W4_of_ne m ρ c main_arg2 (by decide)).trans (L3_arg2 m ρ c)

theorem L4_arg3 (c : Dev nD) : W4 m ρ c (Proc.devRef .tc main_arg3) = (m ((c : Thread nD τ).loc main_arg3)) :=
  (W4_of_ne m ρ c main_arg3 (by decide)).trans (L3_arg3 m ρ c)

theorem L4_arg4 (c : Dev nD) : W4 m ρ c (Proc.devRef .tc main_arg4) = (m ((c : Thread nD τ).loc main_arg4)) :=
  (W4_of_ne m ρ c main_arg4 (by decide)).trans (L3_arg4 m ρ c)

theorem L4_arg5 (c : Dev nD) : W4 m ρ c (Proc.devRef .tc main_arg5) = (m ((c : Thread nD τ).loc main_arg5)) :=
  (W4_of_ne m ρ c main_arg5 (by decide)).trans (L3_arg5 m ρ c)

theorem L4_arg6 (c : Dev nD) : W4 m ρ c (Proc.devRef .tc main_arg6) = (m ((c : Thread nD τ).loc main_arg6)) :=
  (W4_of_ne m ρ c main_arg6 (by decide)).trans (L3_arg6 m ρ c)

theorem L4_arg7 (c : Dev nD) : W4 m ρ c (Proc.devRef .tc main_arg7) = (m ((c : Thread nD τ).loc main_arg7)) :=
  (W4_of_ne m ρ c main_arg7 (by decide)).trans (L3_arg7 m ρ c)

theorem L4_arg17 (c : Dev nD) : W4 m ρ c (Proc.devRef .tc main_arg17) = (m ((c : Thread nD τ).loc main_arg17)) :=
  (W4_of_ne m ρ c main_arg17 (by decide)).trans (L3_arg17 m ρ c)

theorem L4_arg18 (c : Dev nD) : W4 m ρ c (Proc.devRef .tc main_arg18) = (m ((c : Thread nD τ).loc main_arg18)) :=
  (W4_of_ne m ρ c main_arg18 (by decide)).trans (L3_arg18 m ρ c)

theorem L4_arg19 (c : Dev nD) : W4 m ρ c (Proc.devRef .tc main_arg19) = (m ((c : Thread nD τ).loc main_arg19)) :=
  (W4_of_ne m ρ c main_arg19 (by decide)).trans (L3_arg19 m ρ c)

theorem L4_arg20 (c : Dev nD) : W4 m ρ c (Proc.devRef .tc main_arg20) = (m ((c : Thread nD τ).loc main_arg20)) :=
  (W4_of_ne m ρ c main_arg20 (by decide)).trans (L3_arg20 m ρ c)

theorem L4_arg21 (c : Dev nD) : W4 m ρ c (Proc.devRef .tc main_arg21) = (m ((c : Thread nD τ).loc main_arg21)) :=
  (W4_of_ne m ρ c main_arg21 (by decide)).trans (L3_arg21 m ρ c)

theorem L4_arg22 (c : Dev nD) : W4 m ρ c (Proc.devRef .tc main_arg22) = (m ((c : Thread nD τ).loc main_arg22)) :=
  (W4_of_ne m ρ c main_arg22 (by decide)).trans (L3_arg22 m ρ c)

theorem L4_arg23 (c : Dev nD) : W4 m ρ c (Proc.devRef .tc main_arg23) = (m ((c : Thread nD τ).loc main_arg23)) :=
  (W4_of_ne m ρ c main_arg23 (by decide)).trans (L3_arg23 m ρ c)

theorem L4_arg24 (c : Dev nD) : W4 m ρ c (Proc.devRef .tc main_arg24) = (m ((c : Thread nD τ).loc main_arg24)) :=
  (W4_of_ne m ρ c main_arg24 (by decide)).trans (L3_arg24 m ρ c)

theorem L4_arg25 (c : Dev nD) : W4 m ρ c (Proc.devRef .tc main_arg25) = (m ((c : Thread nD τ).loc main_arg25)) :=
  (W4_of_ne m ρ c main_arg25 (by decide)).trans (L3_arg25 m ρ c)

/-! ## After the third stretch of host operations -/

theorem L5_v8 (c : Dev nD) : W5 m ρ c (Proc.devRef .tc main_v8) = (invP (F := Ideal) (m ((c : Thread nD τ).loc main_arg3))) :=
  (StableHlo.after_of_forall_not_mem (b := (Proc.devRef .tc main_v8)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_v8 m ρ c)

theorem L5_v17 (c : Dev nD) : W5 m ρ c (Proc.devRef .tc main_v17) = (invP (F := Ideal) (m ((c : Thread nD τ).loc main_arg5))) :=
  (StableHlo.after_of_forall_not_mem (b := (Proc.devRef .tc main_v17)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_v17 m ρ c)

theorem L5_v63 (c : Dev nD) : W5 m ρ c (Proc.devRef .tc main_v63) = (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :=
  (StableHlo.after_of_forall_not_mem (b := (Proc.devRef .tc main_v63)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_v63 m ρ c)

theorem L5_v26 (c : Dev nD) : W5 m ρ c (Proc.devRef .tc main_v26) = (invA (F := Ideal) (m ((c : Thread nD τ).loc main_arg7))) :=
  (StableHlo.after_of_forall_not_mem (b := (Proc.devRef .tc main_v26)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_v26 m ρ c)

theorem L5_v67 (c : Dev nD) : W5 m ρ c (Proc.devRef .tc main_v67) = (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) :=
  (StableHlo.after_of_forall_not_mem (b := (Proc.devRef .tc main_v67)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_v67 m ρ c)

theorem L5_arg23 (c : Dev nD) : W5 m ρ c (Proc.devRef .tc main_arg23) = (m ((c : Thread nD τ).loc main_arg23)) :=
  (StableHlo.after_of_forall_not_mem (b := (Proc.devRef .tc main_arg23)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_arg23 m ρ c)

theorem L5_arg24 (c : Dev nD) : W5 m ρ c (Proc.devRef .tc main_arg24) = (m ((c : Thread nD τ).loc main_arg24)) :=
  (StableHlo.after_of_forall_not_mem (b := (Proc.devRef .tc main_arg24)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_arg24 m ρ c)

theorem L5_arg25 (c : Dev nD) : W5 m ρ c (Proc.devRef .tc main_arg25) = (m ((c : Thread nD τ).loc main_arg25)) :=
  (StableHlo.after_of_forall_not_mem (b := (Proc.devRef .tc main_arg25)) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L4_arg25 m ρ c)

set_option maxHeartbeats 8000000 in
theorem L5_v77 (c : Dev nD) : W5 m ρ c (Proc.devRef .tc main_v77) = (msgPP (F := Ideal) (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg2)) (m ((c : Thread nD τ).loc main_arg3))) := by
  show StableHlo.after hostOps2 (W4 m ρ c) (Proc.devRef .tc main_v77) = _
  dsimp only [hostOps2]
  after_results_simp
  rw [L4_v63 m ρ c, L4_arg2 m ρ c, L4_arg3 m ρ c]
  rfl

set_option maxHeartbeats 8000000 in
theorem L5_v87 (c : Dev nD) : W5 m ρ c (Proc.devRef .tc main_v87) = (msgAP2 (F := Ideal) (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) (m ((c : Thread nD τ).loc main_arg4)) (m ((c : Thread nD τ).loc main_arg5))) := by
  show StableHlo.after hostOps2 (W4 m ρ c) (Proc.devRef .tc main_v87) = _
  dsimp only [hostOps2]
  after_results_simp
  rw [L4_v67 m ρ c, L4_arg4 m ρ c, L4_arg5 m ρ c]
  rfl

set_option maxHeartbeats 8000000 in
theorem L5_v97 (c : Dev nD) : W5 m ρ c (Proc.devRef .tc main_v97) = (msgPA (F := Ideal) (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg6)) (m ((c : Thread nD τ).loc main_arg7))) := by
  show StableHlo.after hostOps2 (W4 m ρ c) (Proc.devRef .tc main_v97) = _
  dsimp only [hostOps2]
  after_results_simp
  rw [L4_v63 m ρ c, L4_arg6 m ρ c, L4_arg7 m ρ c]
  rfl

set_option maxHeartbeats 8000000 in
theorem L5_v99 (c : Dev nD) : W5 m ρ c (Proc.devRef .tc main_v99) = (rowB (F := Ideal) (addf (m ((c : Thread nD τ).loc main_arg18)) (m ((c : Thread nD τ).loc main_arg21)))) := by
  show StableHlo.after hostOps2 (W4 m ρ c) (Proc.devRef .tc main_v99) = _
  dsimp only [hostOps2]
  after_results_simp
  rw [L4_arg18 m ρ c, L4_arg21 m ρ c]
  rfl

set_option maxHeartbeats 8000000 in
theorem L5_v100 (c : Dev nD) : W5 m ρ c (Proc.devRef .tc main_v100) = (trW (F := Ideal) (m ((c : Thread nD τ).loc main_arg17))) := by
  show StableHlo.after hostOps2 (W4 m ρ c) (Proc.devRef .tc main_v100) = _
  dsimp only [hostOps2]
  after_results_simp
  rw [L4_arg17 m ρ c]
  rfl

set_option maxHeartbeats 8000000 in
theorem L5_v101 (c : Dev nD) : W5 m ρ c (Proc.devRef .tc main_v101) = (trW (F := Ideal) (m ((c : Thread nD τ).loc main_arg19))) := by
  show StableHlo.after hostOps2 (W4 m ρ c) (Proc.devRef .tc main_v101) = _
  dsimp only [hostOps2]
  after_results_simp
  rw [L4_arg19 m ρ c]
  rfl

set_option maxHeartbeats 8000000 in
theorem L5_v102 (c : Dev nD) : W5 m ρ c (Proc.devRef .tc main_v102) = (trW (F := Ideal) (m ((c : Thread nD τ).loc main_arg20))) := by
  show StableHlo.after hostOps2 (W4 m ρ c) (Proc.devRef .tc main_v102) = _
  dsimp only [hostOps2]
  after_results_simp
  rw [L4_arg20 m ρ c]
  rfl

set_option maxHeartbeats 8000000 in
theorem L5_v103 (c : Dev nD) : W5 m ρ c (Proc.devRef .tc main_v103) = (trW (F := Ideal) (m ((c : Thread nD τ).loc main_arg22))) := by
  show StableHlo.after hostOps2 (W4 m ρ c) (Proc.devRef .tc main_v103) = _
  dsimp only [hostOps2]
  after_results_simp
  rw [L4_arg22 m ρ c]
  rfl

/-! ## After the third kernel -/

theorem L6_v104 (c : Dev nD) : W6 m ρ c (Proc.devRef .tc main_v104) = (P2of (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) (m ((c : Thread nD τ).loc main_arg2)) (m ((c : Thread nD τ).loc main_arg3)) (m ((c : Thread nD τ).loc main_arg4)) (m ((c : Thread nD τ).loc main_arg5)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  refine (W6_arr m ρ c 10).trans ((value2 (V5 m ρ) c).trans ?_)
  show two 50000 256 256 256 256 (W5 m ρ c (Proc.devRef .tc main_v77)) (W5 m ρ c (Proc.devRef .tc main_v8)) (W5 m ρ c (Proc.devRef .tc main_v87)) (W5 m ρ c (Proc.devRef .tc main_v17)) (W5 m ρ c (Proc.devRef .tc main_v63)) (W5 m ρ c (Proc.devRef .tc main_v100)) (W5 m ρ c (Proc.devRef .tc main_v101)) (W5 m ρ c (Proc.devRef .tc main_v102)) (W5 m ρ c (Proc.devRef .tc main_v103)) (W5 m ρ c (Proc.devRef .tc main_v99)) = _
  rw [L5_v77 m ρ c, L5_v8 m ρ c, L5_v87 m ρ c, L5_v17 m ρ c, L5_v63 m ρ c, L5_v100 m ρ c, L5_v101 m ρ c, L5_v102 m ρ c, L5_v103 m ρ c, L5_v99 m ρ c]
  rfl

theorem L6_v97 (c : Dev nD) : W6 m ρ c (Proc.devRef .tc main_v97) = (msgPA (F := Ideal) (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg6)) (m ((c : Thread nD τ).loc main_arg7))) :=
  (W6_of_ne m ρ c main_v97 (by decide)).trans (L5_v97 m ρ c)

theorem L6_v26 (c : Dev nD) : W6 m ρ c (Proc.devRef .tc main_v26) = (invA (F := Ideal) (m ((c : Thread nD τ).loc main_arg7))) :=
  (W6_of_ne m ρ c main_v26 (by decide)).trans (L5_v26 m ρ c)

theorem L6_v67 (c : Dev nD) : W6 m ρ c (Proc.devRef .tc main_v67) = (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) :=
  (W6_of_ne m ρ c main_v67 (by decide)).trans (L5_v67 m ρ c)

theorem L6_arg23 (c : Dev nD) : W6 m ρ c (Proc.devRef .tc main_arg23) = (m ((c : Thread nD τ).loc main_arg23)) :=
  (W6_of_ne m ρ c main_arg23 (by decide)).trans (L5_arg23 m ρ c)

theorem L6_arg24 (c : Dev nD) : W6 m ρ c (Proc.devRef .tc main_arg24) = (m ((c : Thread nD τ).loc main_arg24)) :=
  (W6_of_ne m ρ c main_arg24 (by decide)).trans (L5_arg24 m ρ c)

theorem L6_arg25 (c : Dev nD) : W6 m ρ c (Proc.devRef .tc main_arg25) = (m ((c : Thread nD τ).loc main_arg25)) :=
  (W6_of_ne m ρ c main_arg25 (by decide)).trans (L5_arg25 m ρ c)

/-! ## After the fourth stretch of host operations -/

theorem L7_v97 (c : Dev nD) : W7 m ρ c (Proc.devRef .tc main_v97) = (msgPA (F := Ideal) (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg6)) (m ((c : Thread nD τ).loc main_arg7))) :=
  (StableHlo.after_of_forall_not_mem (b := (Proc.devRef .tc main_v97)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L6_v97 m ρ c)

theorem L7_v26 (c : Dev nD) : W7 m ρ c (Proc.devRef .tc main_v26) = (invA (F := Ideal) (m ((c : Thread nD τ).loc main_arg7))) :=
  (StableHlo.after_of_forall_not_mem (b := (Proc.devRef .tc main_v26)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L6_v26 m ρ c)

theorem L7_v67 (c : Dev nD) : W7 m ρ c (Proc.devRef .tc main_v67) = (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) :=
  (StableHlo.after_of_forall_not_mem (b := (Proc.devRef .tc main_v67)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L6_v67 m ρ c)

theorem L7_v104 (c : Dev nD) : W7 m ρ c (Proc.devRef .tc main_v104) = (P2of (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) (m ((c : Thread nD τ).loc main_arg2)) (m ((c : Thread nD τ).loc main_arg3)) (m ((c : Thread nD τ).loc main_arg4)) (m ((c : Thread nD τ).loc main_arg5)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (StableHlo.after_of_forall_not_mem (b := (Proc.devRef .tc main_v104)) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (L6_v104 m ρ c)

set_option maxHeartbeats 8000000 in
theorem L7_v105 (c : Dev nD) : W7 m ρ c (Proc.devRef .tc main_v105) = (trW (F := Ideal) (m ((c : Thread nD τ).loc main_arg23))) := by
  show StableHlo.after hostOps3 (W6 m ρ c) (Proc.devRef .tc main_v105) = _
  dsimp only [hostOps3]
  after_results_simp
  rw [L6_arg23 m ρ c]
  rfl

set_option maxHeartbeats 8000000 in
theorem L7_v106 (c : Dev nD) : W7 m ρ c (Proc.devRef .tc main_v106) = (trW (F := Ideal) (m ((c : Thread nD τ).loc main_arg25))) := by
  show StableHlo.after hostOps3 (W6 m ρ c) (Proc.devRef .tc main_v106) = _
  dsimp only [hostOps3]
  after_results_simp
  rw [L6_arg25 m ρ c]
  rfl

set_option maxHeartbeats 8000000 in
theorem L7_v107 (c : Dev nD) : W7 m ρ c (Proc.devRef .tc main_v107) = (rowB (F := Ideal) (m ((c : Thread nD τ).loc main_arg24))) := by
  show StableHlo.after hostOps3 (W6 m ρ c) (Proc.devRef .tc main_v107) = _
  dsimp only [hostOps3]
  after_results_simp
  rw [L6_arg24 m ρ c]
  rfl

/-! ## After the fourth kernel -/

theorem L8_v108 (c : Dev nD) : W8 m ρ c (Proc.devRef .tc main_v108) = (A2of (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) (m ((c : Thread nD τ).loc main_arg6)) (m ((c : Thread nD τ).loc main_arg7)) (m ((c : Thread nD τ).loc main_arg23)) (m ((c : Thread nD τ).loc main_arg24)) (m ((c : Thread nD τ).loc main_arg25))) := by
  refine (W8_arr m ρ c 6).trans ((value3 (V7 m ρ) c).trans ?_)
  show one 25000 256 256 256 (W7 m ρ c (Proc.devRef .tc main_v97)) (W7 m ρ c (Proc.devRef .tc main_v26)) (W7 m ρ c (Proc.devRef .tc main_v67)) (W7 m ρ c (Proc.devRef .tc main_v105)) (W7 m ρ c (Proc.devRef .tc main_v106)) (W7 m ρ c (Proc.devRef .tc main_v107)) = _
  rw [L7_v97 m ρ c, L7_v26 m ρ c, L7_v67 m ρ c, L7_v105 m ρ c, L7_v106 m ρ c, L7_v107 m ρ c]
  rfl

theorem L8_v104 (c : Dev nD) : W8 m ρ c (Proc.devRef .tc main_v104) = (P2of (P1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (A1 (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))) (m ((c : Thread nD τ).loc main_arg2)) (m ((c : Thread nD τ).loc main_arg3)) (m ((c : Thread nD τ).loc main_arg4)) (m ((c : Thread nD τ).loc main_arg5)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) :=
  (W8_of_ne m ρ c main_v104 (by decide)).trans (L7_v104 m ρ c)

end Cert.Hetero.K

end
-- ==== Proof.RHost.lean ====
/-
  The reference program's two results as structured terms.

  The reference computes, per edge type, the neighbour sum and the in-degree exactly as the kernel program does, divides
  the sums by the clamped in-degree (broadcast along the features), multiplies by the neighbour weight, adds the bias
  row, and adds the self term; edge types into the same destination are added, and the first layer ends in a rectifier.
  `RP1`, `RA1`, `RP2of`, `RA2of` spell that out; `ref_out0` / `ref_out1` say the generated run's terms are these.
-/
import proofs.«102993_j62981400429145_2_alg».proof.Proof.Gen.ReferenceIdeal.Run
import proofs.«102993_j62981400429145_2_alg».proof.Proof.Spec

set_option synthInstance.maxSize 4096
set_option maxRecDepth 16384

noncomputable section

namespace Cert.Hetero.R

open Idealize.ShloMosaic Idealize.ShloMosaic.ValueIdx Idealize.ShloMosaic.TcCoe Idealize.SL.Sem
open Cert.ReferenceIdeal
open Cert.ReferenceIdeal.Facts₀ Cert.ReferenceIdeal.Facts

variable {F : FTy → Type} [FloatOps F]

def col (s : IVec S400000 32) : IVec S400000x1 32 := broadcastInDim S400000x1 ![0] bcast_S400000_S400000x1_0 s

def wrapP (s : IVec S400000 32) : IVec S400000 32 :=
  select (cmpi .slt s (broadcastInDim S400000 ![] bcast_S_S400000 (constantI S_ 32 0#32)))
    (addi s (broadcastInDim S400000 ![] bcast_S_S400000 (constantI S_ 32 50000#32))) s

def wrapA (s : IVec S400000 32) : IVec S400000 32 :=
  select (cmpi .slt s (broadcastInDim S400000 ![] bcast_S_S400000 (constantI S_ 32 0#32)))
    (addi s (broadcastInDim S400000 ![] bcast_S_S400000 (constantI S_ 32 25000#32))) s

/-- The clamped in-degree of each paper row. -/
def clampP (d : IVec S400000 32) : FVec F S50000 .f32 :=
  maximumf (Host.scatterAdd scatter_S50000_S400000x1_S400000_n_0_0_1
      (broadcastInDim S50000 ![] bcast_S_S50000 (constant S_ .f32 0x00000000#32)) (col d)
      (broadcastInDim S400000 ![] bcast_S_S400000 (constant S_ .f32 0x3F800000#32)))
    (broadcastInDim S50000 ![] bcast_S_S50000 (constant S_ .f32 0x3F800000#32))

/-- The clamped in-degree of each author row. -/
def clampA (d : IVec S400000 32) : FVec F S25000 .f32 :=
  maximumf (Host.scatterAdd scatter_S25000_S400000x1_S400000_n_0_0_1
      (broadcastInDim S25000 ![] bcast_S_S25000 (constant S_ .f32 0x00000000#32)) (col d)
      (broadcastInDim S400000 ![] bcast_S_S400000 (constant S_ .f32 0x3F800000#32)))
    (broadcastInDim S25000 ![] bcast_S_S25000 (constant S_ .f32 0x3F800000#32))

def msgPP (x : FVec F S50000x256 .f32) (s d : IVec S400000 32) : FVec F S50000x256 .f32 :=
  Host.scatterAdd scatter_S50000x256_S400000x1_S400000x256_1_0_0_1
    (broadcastInDim S50000x256 ![] bcast_S_S50000x256 (constant S_ .f32 0x00000000#32)) (col d)
    (Host.gather gather_S50000x256_S400000x1_S400000x256_1_0_n_n_0_1_1256 x (col (wrapP s)))

def msgAP1 (x : FVec F S25000x128 .f32) (s d : IVec S400000 32) : FVec F S50000x128 .f32 :=
  Host.scatterAdd scatter_S50000x128_S400000x1_S400000x128_1_0_0_1
    (broadcastInDim S50000x128 ![] bcast_S_S50000x128 (constant S_ .f32 0x00000000#32)) (col d)
    (Host.gather gather_S25000x128_S400000x1_S400000x128_1_0_n_n_0_1_1128 x (col (wrapA s)))

def msgPA (x : FVec F S50000x256 .f32) (s d : IVec S400000 32) : FVec F S25000x256 .f32 :=
  Host.scatterAdd scatter_S25000x256_S400000x1_S400000x256_1_0_0_1
    (broadcastInDim S25000x256 ![] bcast_S_S25000x256 (constant S_ .f32 0x00000000#32)) (col d)
    (Host.gather gather_S50000x256_S400000x1_S400000x256_1_0_n_n_0_1_1256 x (col (wrapP s)))

def msgAP2 (x : FVec F S25000x256 .f32) (s d : IVec S400000 32) : FVec F S50000x256 .f32 :=
  Host.scatterAdd scatter_S50000x256_S400000x1_S400000x256_1_0_0_1
    (broadcastInDim S50000x256 ![] bcast_S_S50000x256 (constant S_ .f32 0x00000000#32)) (col d)
    (Host.gather gather_S25000x256_S400000x1_S400000x256_1_0_n_n_0_1_1256 x (col (wrapA s)))

/-- One edge type into paper rows, 256-wide neighbour features. -/
def sageP256 (msg : FVec F S50000x256 .f32) (cl : FVec F S50000 .f32) (xd : FVec F S50000x256 .f32)
    (wl wr : FVec F S256x256 .f32) (b : FVec F S256 .f32) : FVec F S50000x256 .f32 :=
  addf (addf (Host.dotGeneral dot_S50000x256_S256x256_S50000x256_1_0_0_1_n_n none
      (Host.divf msg (broadcastInDim S50000x256 ![0, 1] bcast_S50000x1_S50000x256_0_1 (broadcastInDim S50000x1 ![0] bcast_S50000_S50000x1_0 cl))) wl)
      (broadcastInDim S50000x256 ![0, 1] bcast_S1x256_S50000x256_0_1 (broadcastInDim S1x256 ![1] bcast_S256_S1x256_1 b)))
    (Host.dotGeneral dot_S50000x256_S256x256_S50000x256_1_0_0_1_n_n none xd wr)

/-- One edge type into paper rows, 128-wide neighbour features. -/
def sageP128 (msg : FVec F S50000x128 .f32) (cl : FVec F S50000 .f32) (xd : FVec F S50000x256 .f32)
    (wl : FVec F S128x256 .f32) (wr : FVec F S256x256 .f32) (b : FVec F S256 .f32) : FVec F S50000x256 .f32 :=
  addf (addf (Host.dotGeneral dot_S50000x128_S128x256_S50000x256_1_0_0_1_n_n none
      (Host.divf msg (broadcastInDim S50000x128 ![0, 1] bcast_S50000x1_S50000x128_0_1 (broadcastInDim S50000x1 ![0] bcast_S50000_S50000x1_0 cl))) wl)
      (broadcastInDim S50000x256 ![0, 1] bcast_S1x256_S50000x256_0_1 (broadcastInDim S1x256 ![1] bcast_S256_S1x256_1 b)))
    (Host.dotGeneral dot_S50000x256_S256x256_S50000x256_1_0_0_1_n_n none xd wr)

/-- One edge type into author rows, 128-wide own features (first layer). -/
def sageA128 (msg : FVec F S25000x256 .f32) (cl : FVec F S25000 .f32) (xd : FVec F S25000x128 .f32)
    (wl : FVec F S256x256 .f32) (wr : FVec F S128x256 .f32) (b : FVec F S256 .f32) : FVec F S25000x256 .f32 :=
  addf (addf (Host.dotGeneral dot_S25000x256_S256x256_S25000x256_1_0_0_1_n_n none
      (Host.divf msg (broadcastInDim S25000x256 ![0, 1] bcast_S25000x1_S25000x256_0_1 (broadcastInDim S25000x1 ![0] bcast_S25000_S25000x1_0 cl))) wl)
      (broadcastInDim S25000x256 ![0, 1] bcast_S1x256_S25000x256_0_1 (broadcastInDim S1x256 ![1] bcast_S256_S1x256_1 b)))
    (Host.dotGeneral dot_S25000x128_S128x256_S25000x256_1_0_0_1_n_n none xd wr)

/-- One edge type into author rows, 256-wide own features (second layer). -/
def sageA256 (msg : FVec F S25000x256 .f32) (cl : FVec F S25000 .f32) (xd : FVec F S25000x256 .f32)
    (wl wr : FVec F S256x256 .f32) (b : FVec F S256 .f32) : FVec F S25000x256 .f32 :=
  addf (addf (Host.dotGeneral dot_S25000x256_S256x256_S25000x256_1_0_0_1_n_n none
      (Host.divf msg (broadcastInDim S25000x256 ![0, 1] bcast_S25000x1_S25000x256_0_1 (broadcastInDim S25000x1 ![0] bcast_S25000_S25000x1_0 cl))) wl)
      (broadcastInDim S25000x256 ![0, 1] bcast_S1x256_S25000x256_0_1 (broadcastInDim S1x256 ![1] bcast_S256_S1x256_1 b)))
    (Host.dotGeneral dot_S25000x256_S256x256_S25000x256_1_0_0_1_n_n none xd wr)

def reluP (x : FVec F S50000x256 .f32) : FVec F S50000x256 .f32 :=
  maximumf x (broadcastInDim S50000x256 ![] bcast_S_S50000x256 (constant S_ .f32 0x00000000#32))

def reluA (x : FVec F S25000x256 .f32) : FVec F S25000x256 .f32 :=
  maximumf x (broadcastInDim S25000x256 ![] bcast_S_S25000x256 (constant S_ .f32 0x00000000#32))

/-- First layer, paper rows. -/
def RP1 (a0 : FVec F S50000x256 .f32) (a1 : FVec F S25000x128 .f32) (a2 a3 a4 a5 : IVec S400000 32)
    (a8 : FVec F S256x256 .f32) (a9 : FVec F S256 .f32) (a10 : FVec F S256x256 .f32)
    (a11 : FVec F S128x256 .f32) (a12 : FVec F S256 .f32) (a13 : FVec F S256x256 .f32) : FVec F S50000x256 .f32 :=
  reluP (addf (sageP256 (msgPP a0 a2 a3) (clampP a3) a0 a8 a10 a9) (sageP128 (msgAP1 a1 a4 a5) (clampP a5) a0 a11 a13 a12))

/-- First layer, author rows. -/
def RA1 (a0 : FVec F S50000x256 .f32) (a1 : FVec F S25000x128 .f32) (a6 a7 : IVec S400000 32)
    (a14 : FVec F S256x256 .f32) (a15 : FVec F S256 .f32) (a16 : FVec F S128x256 .f32) : FVec F S25000x256 .f32 :=
  reluA (sageA128 (msgPA a0 a6 a7) (clampA a7) a1 a14 a16 a15)

/-- Second layer, paper rows. -/
def RP2of (p1 : FVec F S50000x256 .f32) (q1 : FVec F S25000x256 .f32) (a2 a3 a4 a5 : IVec S400000 32)
    (a17 : FVec F S256x256 .f32) (a18 : FVec F S256 .f32) (a19 a20 : FVec F S256x256 .f32)
    (a21 : FVec F S256 .f32) (a22 : FVec F S256x256 .f32) : FVec F S50000x256 .f32 :=
  addf (sageP256 (msgPP p1 a2 a3) (clampP a3) p1 a17 a19 a18) (sageP256 (msgAP2 q1 a4 a5) (clampP a5) p1 a20 a22 a21)

/-- Second layer, author rows. -/
def RA2of (p1 : FVec F S50000x256 .f32) (q1 : FVec F S25000x256 .f32) (a6 a7 : IVec S400000 32)
    (a23 : FVec F S256x256 .f32) (a24 : FVec F S256 .f32) (a25 : FVec F S256x256 .f32) : FVec F S25000x256 .f32 :=
  sageA256 (msgPA p1 a6 a7) (clampA a7) q1 a23 a25 a24

variable (m : (ℓ : Loc nD τ sig) → Buf (Elt F) ℓ)

/-- The generated run's first result is the second layer's paper rows. -/
theorem ref_out0 (c : Dev nD) : Value.res_main_v128 m c
    = RP2of (RP1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
        (RA1 (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg14)) (m ((c.tc : Thread nD τ).loc main_arg15)) (m ((c.tc : Thread nD τ).loc main_arg16)))
        (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold Value.res_main_v128 RP2of RP1 RA1 reluP reluA sageP256 sageP128 sageA128 msgPP msgAP1 msgPA msgAP2 clampP clampA col wrapP wrapA
  rfl

/-- The generated run's second result is the second layer's author rows. -/
theorem ref_out1 (c : Dev nD) : Value.res_main_v153 m c
    = RA2of (RP1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
        (RA1 (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg14)) (m ((c.tc : Thread nD τ).loc main_arg15)) (m ((c.tc : Thread nD τ).loc main_arg16)))
        (m ((c.tc : Thread nD τ).loc main_arg6)) (m ((c.tc : Thread nD τ).loc main_arg7)) (m ((c.tc : Thread nD τ).loc main_arg23)) (m ((c.tc : Thread nD τ).loc main_arg24)) (m ((c.tc : Thread nD τ).loc main_arg25)) := by
  unfold Value.res_main_v153 RA2of RP1 RA1 reluP reluA sageP256 sageP128 sageA128 sageA256 msgPP msgAP1 msgPA clampP clampA col wrapP wrapA
  rfl

end Cert.Hetero.R

end
-- ==== Proof.RRead.lean ====
/-
  The reference's operations read at one entry (extended reals).

  * A `dot_general` of an [N, K] array by a [K, 256] weight is, at entry (r, c), the sum over `k : Fin K` of the
    array at (r, k) times the weight at (k, c).
  * The clamped in-degree, made a column and broadcast along the features, reads the in-degree of row `r`; the bias,
    made a row and broadcast down the rows, reads the bias of column `c`.
  * So one edge type's term at (r, c) is  Σₖ (msg r k / deg r) · Wl k c  +  b c  +  Σₖ x r k · Wr k c.
-/
import proofs.«102993_j62981400429145_2_alg».proof.Proof.RHost
import proofs.«102993_j62981400429145_2_alg».proof.Proof.Sums
import Idealize.ShloMosaic.Lib.Pipeline.Value
import Idealize.ShloMosaic.PureOps.Ideal.Laws

set_option synthInstance.maxSize 4096

noncomputable section

namespace Cert.Hetero.R

open Idealize.ShloMosaic Idealize.ShloMosaic.ValueIdx Cert.ReferenceIdeal
open Cert.ReferenceIdeal.Facts₀ Cert.ReferenceIdeal.Facts

theorem dPa_l0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem dPa_l1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem dPa_r0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem dPa_r1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

theorem dPa_apply (l : FVec Ideal S50000x256 .f32) (w : FVec Ideal S256x256 .f32) (r : Fin 50000) (c : Fin 256) :
    Host.dotGeneral dot_S50000x256_S256x256_S50000x256_1_0_0_1_n_n none l w (ix2 r c) = ∑ k : Fin 256, l (ix2 r k) * w (ix2 k c) := by
  simp only [Host.dotGeneral]
  rw [Ideal.dotGeneral_apply]
  exact Cert.Hetero.dot_sum (n := 50000) (K := 256) (p := 256) dot_S50000x256_S256x256_S50000x256_1_0_0_1_n_n rfl rfl dPa_l0 dPa_l1 dPa_r0 dPa_r1 l w (ix2 r c)

theorem dPb_l0 (i : S50000x256.Idx) (q : dot_S50000x128_S128x256_S50000x256_1_0_0_1_n_n.contr.Idx) : (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem dPb_l1 (i : S50000x256.Idx) (q : dot_S50000x128_S128x256_S50000x256_1_0_0_1_n_n.contr.Idx) : (dot_S50000x128_S128x256_S50000x256_1_0_0_1_n_n.lhsIdx i q 1).val = (q ⟨0, by decide⟩).val :=
  dot_S50000x128_S128x256_S50000x256_1_0_0_1_n_n.lhsIdx_val_of_single rfl i q
theorem dPb_r0 (i : S50000x256.Idx) (q : dot_S50000x128_S128x256_S50000x256_1_0_0_1_n_n.contr.Idx) : (dot_S50000x128_S128x256_S50000x256_1_0_0_1_n_n.rhsIdx i q 0).val = (q ⟨0, by decide⟩).val :=
  dot_S50000x128_S128x256_S50000x256_1_0_0_1_n_n.rhsIdx_val_of_single rfl i q
theorem dPb_r1 (i : S50000x256.Idx) (q : dot_S50000x128_S128x256_S50000x256_1_0_0_1_n_n.contr.Idx) : (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl

theorem dPb_apply (l : FVec Ideal S50000x128 .f32) (w : FVec Ideal S128x256 .f32) (r : Fin 50000) (c : Fin 256) :
    Host.dotGeneral dot_S50000x128_S128x256_S50000x256_1_0_0_1_n_n none l w (ix2 r c) = ∑ k : Fin 128, l (ix2 r k) * w (ix2 k c) := by
  simp only [Host.dotGeneral]
  rw [Ideal.dotGeneral_apply]
  exact Cert.Hetero.dot_sum (n := 50000) (K := 128) (p := 256) dot_S50000x128_S128x256_S50000x256_1_0_0_1_n_n rfl rfl dPb_l0 dPb_l1 dPb_r0 dPb_r1 l w (ix2 r c)

theorem dAa_l0 (i : S25000x256.Idx) (q : dot_S25000x256_S256x256_S25000x256_1_0_0_1_n_n.contr.Idx) : (dot_S25000x256_S256x256_S25000x256_1_0_0_1_n_n.lhsIdx i q 0).val = (i 0).val := by
  unfold DotDims.lhsIdx
  rw [dif_neg (show ¬(0 : Fin S25000x256.rank) ∈ dot_S25000x256_S256x256_S25000x256_1_0_0_1_n_n.lhsBatch by decide), dif_pos (show (0 : Fin S25000x256.rank) ∈ dot_S25000x256_S256x256_S25000x256_1_0_0_1_n_n.lhsNonContracting by decide)]
  rfl
theorem dAa_l1 (i : S25000x256.Idx) (q : dot_S25000x256_S256x256_S25000x256_1_0_0_1_n_n.contr.Idx) : (dot_S25000x256_S256x256_S25000x256_1_0_0_1_n_n.lhsIdx i q 1).val = (q ⟨0, by decide⟩).val :=
  dot_S25000x256_S256x256_S25000x256_1_0_0_1_n_n.lhsIdx_val_of_single rfl i q
theorem dAa_r0 (i : S25000x256.Idx) (q : dot_S25000x256_S256x256_S25000x256_1_0_0_1_n_n.contr.Idx) : (dot_S25000x256_S256x256_S25000x256_1_0_0_1_n_n.rhsIdx i q 0).val = (q ⟨0, by decide⟩).val :=
  dot_S25000x256_S256x256_S25000x256_1_0_0_1_n_n.rhsIdx_val_of_single rfl i q
theorem dAa_r1 (i : S25000x256.Idx) (q : dot_S25000x256_S256x256_S25000x256_1_0_0_1_n_n.contr.Idx) : (dot_S25000x256_S256x256_S25000x256_1_0_0_1_n_n.rhsIdx i q 1).val = (i 1).val := by
  unfold DotDims.rhsIdx
  rw [dif_neg (show ¬(1 : Fin S256x256.rank) ∈ dot_S25000x256_S256x256_S25000x256_1_0_0_1_n_n.rhsBatch by decide), dif_pos (show (1 : Fin S256x256.rank) ∈ dot_S25000x256_S256x256_S25000x256_1_0_0_1_n_n.rhsNonContracting by decide)]
  rfl

theorem dAa_apply (l : FVec Ideal S25000x256 .f32) (w : FVec Ideal S256x256 .f32) (r : Fin 25000) (c : Fin 256) :
    Host.dotGeneral dot_S25000x256_S256x256_S25000x256_1_0_0_1_n_n none l w (ix2 r c) = ∑ k : Fin 256, l (ix2 r k) * w (ix2 k c) := by
  simp only [Host.dotGeneral]
  rw [Ideal.dotGeneral_apply]
  exact Cert.Hetero.dot_sum (n := 25000) (K := 256) (p := 256) dot_S25000x256_S256x256_S25000x256_1_0_0_1_n_n rfl rfl dAa_l0 dAa_l1 dAa_r0 dAa_r1 l w (ix2 r c)

theorem dAb_l0 (i : S25000x256.Idx) (q : dot_S25000x128_S128x256_S25000x256_1_0_0_1_n_n.contr.Idx) : (dot_S25000x128_S128x256_S25000x256_1_0_0_1_n_n.lhsIdx i q 0).val = (i 0).val := by
  unfold DotDims.lhsIdx
  rw [dif_neg (show ¬(0 : Fin S25000x128.rank) ∈ dot_S25000x128_S128x256_S25000x256_1_0_0_1_n_n.lhsBatch by decide), dif_pos (show (0 : Fin S25000x128.rank) ∈ dot_S25000x128_S128x256_S25000x256_1_0_0_1_n_n.lhsNonContracting by decide)]
  rfl
theorem dAb_l1 (i : S25000x256.Idx) (q : dot_S25000x128_S128x256_S25000x256_1_0_0_1_n_n.contr.Idx) : (dot_S25000x128_S128x256_S25000x256_1_0_0_1_n_n.lhsIdx i q 1).val = (q ⟨0, by decide⟩).val :=
  dot_S25000x128_S128x256_S25000x256_1_0_0_1_n_n.lhsIdx_val_of_single rfl i q
theorem dAb_r0 (i : S25000x256.Idx) (q : dot_S25000x128_S128x256_S25000x256_1_0_0_1_n_n.contr.Idx) : (dot_S25000x128_S128x256_S25000x256_1_0_0_1_n_n.rhsIdx i q 0).val = (q ⟨0, by decide⟩).val :=
  dot_S25000x128_S128x256_S25000x256_1_0_0_1_n_n.rhsIdx_val_of_single rfl i q
theorem dAb_r1 (i : S25000x256.Idx) (q : dot_S25000x128_S128x256_S25000x256_1_0_0_1_n_n.contr.Idx) : (dot_S25000x128_S128x256_S25000x256_1_0_0_1_n_n.rhsIdx i q 1).val = (i 1).val := by
  unfold DotDims.rhsIdx
  rw [dif_neg (show ¬(1 : Fin S128x256.rank) ∈ dot_S25000x128_S128x256_S25000x256_1_0_0_1_n_n.rhsBatch by decide), dif_pos (show (1 : Fin S128x256.rank) ∈ dot_S25000x128_S128x256_S25000x256_1_0_0_1_n_n.rhsNonContracting by decide)]
  rfl

theorem dAb_apply (l : FVec Ideal S25000x128 .f32) (w : FVec Ideal S128x256 .f32) (r : Fin 25000) (c : Fin 256) :
    Host.dotGeneral dot_S25000x128_S128x256_S25000x256_1_0_0_1_n_n none l w (ix2 r c) = ∑ k : Fin 128, l (ix2 r k) * w (ix2 k c) := by
  simp only [Host.dotGeneral]
  rw [Ideal.dotGeneral_apply]
  exact Cert.Hetero.dot_sum (n := 25000) (K := 128) (p := 256) dot_S25000x128_S128x256_S25000x256_1_0_0_1_n_n rfl rfl dAb_l0 dAb_l1 dAb_r0 dAb_r1 l w (ix2 r c)

/-- The in-degree of row `r`, read through its two broadcasts ([50000] → [50000, 1] → [50000, 256]). -/
theorem denP256_apply {α : Type} (cl : S50000.Idx → α) (r : Fin 50000) (k : Fin 256) :
    broadcastInDim S50000x256 ![0, 1] bcast_S50000x1_S50000x256_0_1 (broadcastInDim S50000x1 ![0] bcast_S50000_S50000x1_0 cl) (ix2 r k)
      = cl (ix1 r) :=
  (broadcastInDim_apply _ bcast_S50000x1_S50000x256_0_1 _ (ix2 r k) (ix2 r 0) (fun a => match a with
    | ⟨0, _⟩ => by show r.val = if (50000 : Nat) = 1 then 0 else r.val; rw [if_neg (by decide)]
    | ⟨1, _⟩ => by show 0 = if (1 : Nat) = 1 then 0 else k.val; rw [if_pos rfl])).trans
  (broadcastInDim_apply _ bcast_S50000_S50000x1_0 cl (ix2 r 0) (ix1 r) (fun a => match a with
    | ⟨0, _⟩ => by show r.val = if (50000 : Nat) = 1 then 0 else r.val; rw [if_neg (by decide)]))

/-- The in-degree of row `r`, read through its two broadcasts ([50000] → [50000, 1] → [50000, 128]). -/
theorem denP128_apply {α : Type} (cl : S50000.Idx → α) (r : Fin 50000) (k : Fin 128) :
    broadcastInDim S50000x128 ![0, 1] bcast_S50000x1_S50000x128_0_1 (broadcastInDim S50000x1 ![0] bcast_S50000_S50000x1_0 cl) (ix2 r k)
      = cl (ix1 r) :=
  (broadcastInDim_apply _ bcast_S50000x1_S50000x128_0_1 _ (ix2 r k) (ix2 r 0) (fun a => match a with
    | ⟨0, _⟩ => by show r.val = if (50000 : Nat) = 1 then 0 else r.val; rw [if_neg (by decide)]
    | ⟨1, _⟩ => by show 0 = if (1 : Nat) = 1 then 0 else k.val; rw [if_pos rfl])).trans
  (broadcastInDim_apply _ bcast_S50000_S50000x1_0 cl (ix2 r 0) (ix1 r) (fun a => match a with
    | ⟨0, _⟩ => by show r.val = if (50000 : Nat) = 1 then 0 else r.val; rw [if_neg (by decide)]))

/-- The in-degree of row `r`, read through its two broadcasts ([25000] → [25000, 1] → [25000, 256]). -/
theorem denA256_apply {α : Type} (cl : S25000.Idx → α) (r : Fin 25000) (k : Fin 256) :
    broadcastInDim S25000x256 ![0, 1] bcast_S25000x1_S25000x256_0_1 (broadcastInDim S25000x1 ![0] bcast_S25000_S25000x1_0 cl) (ix2 r k)
      = cl (ix1 r) :=
  (broadcastInDim_apply _ bcast_S25000x1_S25000x256_0_1 _ (ix2 r k) (ix2 r 0) (fun a => match a with
    | ⟨0, _⟩ => by show r.val = if (25000 : Nat) = 1 then 0 else r.val; rw [if_neg (by decide)]
    | ⟨1, _⟩ => by show 0 = if (1 : Nat) = 1 then 0 else k.val; rw [if_pos rfl])).trans
  (broadcastInDim_apply _ bcast_S25000_S25000x1_0 cl (ix2 r 0) (ix1 r) (fun a => match a with
    | ⟨0, _⟩ => by show r.val = if (25000 : Nat) = 1 then 0 else r.val; rw [if_neg (by decide)]))

/-- The bias of column `c`, read through its two broadcasts ([256] → [1, 256] → [50000, 256]). -/
theorem biasP_apply {α : Type} (b : S256.Idx → α) (r : Fin 50000) (c : Fin 256) :
    broadcastInDim S50000x256 ![0, 1] bcast_S1x256_S50000x256_0_1 (broadcastInDim S1x256 ![1] bcast_S256_S1x256_1 b) (ix2 r c)
      = b (ix1 c) :=
  (broadcastInDim_apply _ bcast_S1x256_S50000x256_0_1 _ (ix2 r c) (ix2 0 c) (fun a => match a with
    | ⟨0, _⟩ => by show 0 = if (1 : Nat) = 1 then 0 else r.val; rw [if_pos rfl]
    | ⟨1, _⟩ => by show c.val = if (256 : Nat) = 1 then 0 else c.val; rw [if_neg (by decide)])).trans
  (broadcastInDim_apply _ bcast_S256_S1x256_1 b (ix2 0 c) (ix1 c) (fun a => match a with
    | ⟨0, _⟩ => by show c.val = if (256 : Nat) = 1 then 0 else c.val; rw [if_neg (by decide)]))

/-- The bias of column `c`, read through its two broadcasts ([256] → [1, 256] → [25000, 256]). -/
theorem biasA_apply {α : Type} (b : S256.Idx → α) (r : Fin 25000) (c : Fin 256) :
    broadcastInDim S25000x256 ![0, 1] bcast_S1x256_S25000x256_0_1 (broadcastInDim S1x256 ![1] bcast_S256_S1x256_1 b) (ix2 r c)
      = b (ix1 c) :=
  (broadcastInDim_apply _ bcast_S1x256_S25000x256_0_1 _ (ix2 r c) (ix2 0 c) (fun a => match a with
    | ⟨0, _⟩ => by show 0 = if (1 : Nat) = 1 then 0 else r.val; rw [if_pos rfl]
    | ⟨1, _⟩ => by show c.val = if (256 : Nat) = 1 then 0 else c.val; rw [if_neg (by decide)])).trans
  (broadcastInDim_apply _ bcast_S256_S1x256_1 b (ix2 0 c) (ix1 c) (fun a => match a with
    | ⟨0, _⟩ => by show c.val = if (256 : Nat) = 1 then 0 else c.val; rw [if_neg (by decide)]))

/-- The host's quotient of two arrays, entry by entry. -/
theorem hdiv_apply {s : Shape} (a b : FVec Ideal s .f32) (i : s.Idx) : Host.divf a b i = Ideal.div (a i) (b i) := rfl

/-- One edge type's term at entry (r, c). -/
theorem sageP256_apply (msg : FVec Ideal S50000x256 .f32) (cl : FVec Ideal S50000 .f32) (xd : FVec Ideal S50000x256 .f32)
    (wl : FVec Ideal S256x256 .f32) (wr : FVec Ideal S256x256 .f32) (b : FVec Ideal S256 .f32) (r : Fin 50000) (c : Fin 256) :
    sageP256 msg cl xd wl wr b (ix2 r c)
      = (∑ k : Fin 256, Ideal.div (msg (ix2 r k)) (cl (ix1 r)) * wl (ix2 k c)) + b (ix1 c)
        + ∑ k : Fin 256, xd (ix2 r k) * wr (ix2 k c) := by
  unfold sageP256
  rw [addf_apply, addf_apply, dPa_apply, dPa_apply, biasP_apply]
  congr 2
  exact Finset.sum_congr rfl fun k _ =>
    congrArg (· * wl (ix2 k c)) (congrArg (Ideal.div (msg (ix2 r k))) (denP256_apply cl r k))

/-- One edge type's term at entry (r, c). -/
theorem sageP128_apply (msg : FVec Ideal S50000x128 .f32) (cl : FVec Ideal S50000 .f32) (xd : FVec Ideal S50000x256 .f32)
    (wl : FVec Ideal S128x256 .f32) (wr : FVec Ideal S256x256 .f32) (b : FVec Ideal S256 .f32) (r : Fin 50000) (c : Fin 256) :
    sageP128 msg cl xd wl wr b (ix2 r c)
      = (∑ k : Fin 128, Ideal.div (msg (ix2 r k)) (cl (ix1 r)) * wl (ix2 k c)) + b (ix1 c)
        + ∑ k : Fin 256, xd (ix2 r k) * wr (ix2 k c) := by
  unfold sageP128
  rw [addf_apply, addf_apply, dPb_apply, dPa_apply, biasP_apply]
  congr 2
  exact Finset.sum_congr rfl fun k _ =>
    congrArg (· * wl (ix2 k c)) (congrArg (Ideal.div (msg (ix2 r k))) (denP128_apply cl r k))

/-- One edge type's term at entry (r, c). -/
theorem sageA128_apply (msg : FVec Ideal S25000x256 .f32) (cl : FVec Ideal S25000 .f32) (xd : FVec Ideal S25000x128 .f32)
    (wl : FVec Ideal S256x256 .f32) (wr : FVec Ideal S128x256 .f32) (b : FVec Ideal S256 .f32) (r : Fin 25000) (c : Fin 256) :
    sageA128 msg cl xd wl wr b (ix2 r c)
      = (∑ k : Fin 256, Ideal.div (msg (ix2 r k)) (cl (ix1 r)) * wl (ix2 k c)) + b (ix1 c)
        + ∑ k : Fin 128, xd (ix2 r k) * wr (ix2 k c) := by
  unfold sageA128
  rw [addf_apply, addf_apply, dAa_apply, dAb_apply, biasA_apply]
  congr 2
  exact Finset.sum_congr rfl fun k _ =>
    congrArg (· * wl (ix2 k c)) (congrArg (Ideal.div (msg (ix2 r k))) (denA256_apply cl r k))

/-- One edge type's term at entry (r, c). -/
theorem sageA256_apply (msg : FVec Ideal S25000x256 .f32) (cl : FVec Ideal S25000 .f32) (xd : FVec Ideal S25000x256 .f32)
    (wl : FVec Ideal S256x256 .f32) (wr : FVec Ideal S256x256 .f32) (b : FVec Ideal S256 .f32) (r : Fin 25000) (c : Fin 256) :
    sageA256 msg cl xd wl wr b (ix2 r c)
      = (∑ k : Fin 256, Ideal.div (msg (ix2 r k)) (cl (ix1 r)) * wl (ix2 k c)) + b (ix1 c)
        + ∑ k : Fin 256, xd (ix2 r k) * wr (ix2 k c) := by
  unfold sageA256
  rw [addf_apply, addf_apply, dAa_apply, dAa_apply, biasA_apply]
  congr 2
  exact Finset.sum_congr rfl fun k _ =>
    congrArg (· * wl (ix2 k c)) (congrArg (Ideal.div (msg (ix2 r k))) (denA256_apply cl r k))

end Cert.Hetero.R

end
-- ==== Proof.Bridge.lean ====
/-
  The two programs compute one function.

  For each of the four combine steps, the reference's term — per edge type, (neighbour sum / clamped in-degree) · Wl
  plus the bias plus x · Wr, the edge types added — equals the kernel's — the neighbour sums scaled by the reciprocal
  of the clamped in-degree, all the products added, then the summed bias. Entry by entry the two differ by

    (msg r k) · (1 / deg r) = (msg r k) / deg r      (deg r = max(count r, 1) is never 0),

  and by the grouping of the five summands, which only uses that + on the extended reals is commutative and
  associative. The casts of the weights to bf16 are the identity on the extended reals. Nothing here needs an input
  to be finite.
-/
import proofs.«102993_j62981400429145_2_alg».proof.Proof.KHost
import proofs.«102993_j62981400429145_2_alg».proof.Proof.RRead
import proofs.«102993_j62981400429145_2_alg».proof.Proof.Sums
import proofs.«102993_j62981400429145_2_alg».proof.Proof.Spec
import Idealize.ShloMosaic.Lib.Pipeline.Value

set_option synthInstance.maxSize 4096

noncomputable section

namespace Cert.Hetero

open Idealize.ShloMosaic Idealize.ShloMosaic.ValueIdx Cert.ReferenceIdeal
open Cert.ReferenceIdeal.Facts₀ Cert.ReferenceIdeal.Facts

/-- The float word of 1.0 denotes the extended real 1. -/
theorem one_word : Ideal.ofBits .f32 0x3F800000#32 = 1 := by
  simp [Ideal.ofBits, Ideal.ieee, -EReal.coe_mul]; norm_num

theorem two_ix {N d1 d2 dx h : Nat} (msg1 : Mat N d1) (inv1 : Mat N 1) (msg2 : Mat N d2) (inv2 : Mat N 1) (xd : Mat N dx)
    (wl1 : Mat d1 h) (wr1 : Mat dx h) (wl2 : Mat d2 h) (wr2 : Mat dx h) (b : Mat 1 h) (r : Fin N) (c : Fin h) :
    two N d1 d2 dx h msg1 inv1 msg2 inv2 xd wl1 wr1 wl2 wr2 b (ix2 r c)
      = (∑ k : Fin d1, (msg1 (ix2 r k) * inv1 (ix2 r 0)) * wl1 (ix2 k c))
        + (∑ k : Fin dx, xd (ix2 r k) * wr1 (ix2 k c))
        + (∑ k : Fin d2, (msg2 (ix2 r k) * inv2 (ix2 r 0)) * wl2 (ix2 k c))
        + (∑ k : Fin dx, xd (ix2 r k) * wr2 (ix2 k c))
        + b (ix2 0 c) := rfl

theorem one_ix {N d dx h : Nat} (msg : Mat N d) (inv : Mat N 1) (xd : Mat N dx) (wl : Mat d h) (wr : Mat dx h) (b : Mat 1 h)
    (r : Fin N) (c : Fin h) :
    one N d dx h msg inv xd wl wr b (ix2 r c)
      = (∑ k : Fin d, (msg (ix2 r k) * inv (ix2 r 0)) * wl (ix2 k c))
        + (∑ k : Fin dx, xd (ix2 r k) * wr (ix2 k c))
        + b (ix2 0 c) := rfl

/-- A vector reshaped to a column, read at row `r`. -/
theorem colcast_apply {N : Nat} {α : Type} (v : (⟨1, ![N]⟩ : Shape).Idx → α)
    (h : (⟨1, ![N]⟩ : Shape).ShapeCasts ⟨2, ![N, 1]⟩) (r : Fin N) :
    shapeCast ⟨2, ![N, 1]⟩ v h (ix2 r 0) = v (ix1 r) :=
  shapeCast_apply v h (ix2 r 0) (ix1 r) (by
    rw [Shape.rowMajor_val_one, Shape.rowMajor_val_two]; show r.val = r.val * 1 + 0; omega)

/-- A vector reshaped to a row, read at column `c`. -/
theorem rowcast_apply {M : Nat} {α : Type} (b : (⟨1, ![M]⟩ : Shape).Idx → α)
    (h : (⟨1, ![M]⟩ : Shape).ShapeCasts ⟨2, ![1, M]⟩) (c : Fin M) :
    shapeCast ⟨2, ![1, M]⟩ b h (ix2 0 c) = b (ix1 c) :=
  shapeCast_apply b h (ix2 0 c) (ix1 c) (by
    rw [Shape.rowMajor_val_one, Shape.rowMajor_val_two]; show c.val = 0 * M + c.val; omega)

/-- First layer, paper rows: the reference's form is the kernel's. -/
theorem layer_two_relu (msg1 : FVec Ideal S50000x256 .f32) (cl1 u1 : FVec Ideal S50000 .f32)
    (msg2 : FVec Ideal S50000x128 .f32) (cl2 u2 : FVec Ideal S50000 .f32) (xd : FVec Ideal S50000x256 .f32)
    (wl1 wr1 : FVec Ideal S256x256 .f32) (wl2 : FVec Ideal S128x256 .f32) (wr2 : FVec Ideal S256x256 .f32)
    (b1 b2 : FVec Ideal S256 .f32)
    (hc : S50000.ShapeCasts S50000x1) (hb : S256.ShapeCasts S1x256) (ht : FTy.bf16.bits < FTy.f32.bits)
    (hu1 : ∀ j, u1 j = 1) (hu2 : ∀ j, u2 j = 1) (h1 : ∀ j, cl1 j ≠ 0) (h2 : ∀ j, cl2 j ≠ 0) :
    R.reluP (addf (R.sageP256 msg1 cl1 xd wl1 wr1 b1) (R.sageP128 msg2 cl2 xd wl2 wr2 b2))
      = relu (two 50000 256 128 256 256 msg1 (shapeCast S50000x1 (Host.divf u1 cl1) hc)
          msg2 (shapeCast S50000x1 (Host.divf u2 cl2) hc) xd
          (truncf .bf16 wl1 ht) (truncf .bf16 wr1 ht) (truncf .bf16 wl2 ht) (truncf .bf16 wr2 ht)
          (shapeCast S1x256 (addf b1 b2) hb)) := by
  funext i
  obtain ⟨r, c, rfl⟩ : ∃ (r : Fin 50000) (c : Fin 256), i = ix2 r c := ⟨i 0, i 1, eq_ix2 i⟩
  simp only [R.reluP, relu, maximumf_apply, addf_apply, R.sageP256_apply, R.sageP128_apply, two_ix,
    colcast_apply, rowcast_apply, R.hdiv_apply, hu1, hu2, mul_recip _ _ (h1 _), mul_recip _ _ (h2 _), truncf_apply]
  refine congr (congrArg max ?_) ?_ <;> first | exact (regroup2 _ _ _ _ _ _).symm | rfl

/-- First layer, author rows. -/
theorem layer_one_relu (msg : FVec Ideal S25000x256 .f32) (cl u : FVec Ideal S25000 .f32) (xd : FVec Ideal S25000x128 .f32)
    (wl : FVec Ideal S256x256 .f32) (wr : FVec Ideal S128x256 .f32) (b : FVec Ideal S256 .f32)
    (hc : S25000.ShapeCasts S25000x1) (hb : S256.ShapeCasts S1x256) (ht : FTy.bf16.bits < FTy.f32.bits)
    (hu : ∀ j, u j = 1) (h1 : ∀ j, cl j ≠ 0) :
    R.reluA (R.sageA128 msg cl xd wl wr b)
      = relu (one 25000 256 128 256 msg (shapeCast S25000x1 (Host.divf u cl) hc) xd
          (truncf .bf16 wl ht) (truncf .bf16 wr ht) (shapeCast S1x256 b hb)) := by
  funext i
  obtain ⟨r, c, rfl⟩ : ∃ (r : Fin 25000) (c : Fin 256), i = ix2 r c := ⟨i 0, i 1, eq_ix2 i⟩
  simp only [R.reluA, relu, maximumf_apply, R.sageA128_apply, one_ix,
    colcast_apply, rowcast_apply, R.hdiv_apply, hu, mul_recip _ _ (h1 _), truncf_apply]
  refine congr (congrArg max ?_) ?_ <;> first | exact (regroup1 _ _ _).symm | rfl

/-- Second layer, paper rows. -/
theorem layer_two (msg1 : FVec Ideal S50000x256 .f32) (cl1 u1 : FVec Ideal S50000 .f32)
    (msg2 : FVec Ideal S50000x256 .f32) (cl2 u2 : FVec Ideal S50000 .f32) (xd : FVec Ideal S50000x256 .f32)
    (wl1 wr1 wl2 wr2 : FVec Ideal S256x256 .f32) (b1 b2 : FVec Ideal S256 .f32)
    (hc : S50000.ShapeCasts S50000x1) (hb : S256.ShapeCasts S1x256) (ht : FTy.bf16.bits < FTy.f32.bits)
    (hu1 : ∀ j, u1 j = 1) (hu2 : ∀ j, u2 j = 1) (h1 : ∀ j, cl1 j ≠ 0) (h2 : ∀ j, cl2 j ≠ 0) :
    addf (R.sageP256 msg1 cl1 xd wl1 wr1 b1) (R.sageP256 msg2 cl2 xd wl2 wr2 b2)
      = two 50000 256 256 256 256 msg1 (shapeCast S50000x1 (Host.divf u1 cl1) hc)
          msg2 (shapeCast S50000x1 (Host.divf u2 cl2) hc) xd
          (truncf .bf16 wl1 ht) (truncf .bf16 wr1 ht) (truncf .bf16 wl2 ht) (truncf .bf16 wr2 ht)
          (shapeCast S1x256 (addf b1 b2) hb) := by
  funext i
  obtain ⟨r, c, rfl⟩ : ∃ (r : Fin 50000) (c : Fin 256), i = ix2 r c := ⟨i 0, i 1, eq_ix2 i⟩
  simp only [addf_apply, R.sageP256_apply, two_ix,
    colcast_apply, rowcast_apply, R.hdiv_apply, hu1, hu2, mul_recip _ _ (h1 _), mul_recip _ _ (h2 _), truncf_apply]
  exact (regroup2 _ _ _ _ _ _).symm

/-- Second layer, author rows. -/
theorem layer_one (msg : FVec Ideal S25000x256 .f32) (cl u : FVec Ideal S25000 .f32) (xd : FVec Ideal S25000x256 .f32)
    (wl wr : FVec Ideal S256x256 .f32) (b : FVec Ideal S256 .f32)
    (hc : S25000.ShapeCasts S25000x1) (hb : S256.ShapeCasts S1x256) (ht : FTy.bf16.bits < FTy.f32.bits)
    (hu : ∀ j, u j = 1) (h1 : ∀ j, cl j ≠ 0) :
    R.sageA256 msg cl xd wl wr b
      = one 25000 256 256 256 msg (shapeCast S25000x1 (Host.divf u cl) hc) xd
          (truncf .bf16 wl ht) (truncf .bf16 wr ht) (shapeCast S1x256 b hb) := by
  funext i
  obtain ⟨r, c, rfl⟩ : ∃ (r : Fin 25000) (c : Fin 256), i = ix2 r c := ⟨i 0, i 1, eq_ix2 i⟩
  simp only [R.sageA256_apply, one_ix,
    colcast_apply, rowcast_apply, R.hdiv_apply, hu, mul_recip _ _ (h1 _), truncf_apply]
  exact (regroup1 _ _ _).symm

/-! ## The in-degree facts the layer identities ask for -/

theorem onesP_apply (j : S50000.Idx) :
    (broadcastInDim S50000 ![] bcast_S_S50000 (constant (F := Ideal) S_ .f32 0x3F800000#32)) j = 1 := by
  show Ideal.ofBits .f32 0x3F800000#32 = 1
  exact one_word

theorem onesA_apply (j : S25000.Idx) :
    (broadcastInDim S25000 ![] bcast_S_S25000 (constant (F := Ideal) S_ .f32 0x3F800000#32)) j = 1 := by
  show Ideal.ofBits .f32 0x3F800000#32 = 1
  exact one_word

theorem clampP_ne (d : IVec S400000 32) (j : S50000.Idx) : R.clampP (F := Ideal) d j ≠ 0 := by
  unfold R.clampP
  rw [maximumf_apply, onesP_apply]
  exact max_one_ne_zero _

theorem clampA_ne (d : IVec S400000 32) (j : S25000.Idx) : R.clampA (F := Ideal) d j ≠ 0 := by
  unfold R.clampA
  rw [maximumf_apply, onesA_apply]
  exact max_one_ne_zero _

/-! ## The four outputs, and the two results -/

theorem bridge_P1 (a0 : FVec Ideal S50000x256 .f32) (a1 : FVec Ideal S25000x128 .f32) (a2 a3 a4 a5 : IVec S400000 32)
    (a8 : FVec Ideal S256x256 .f32) (a9 : FVec Ideal S256 .f32) (a10 : FVec Ideal S256x256 .f32)
    (a11 : FVec Ideal S128x256 .f32) (a12 : FVec Ideal S256 .f32) (a13 : FVec Ideal S256x256 .f32) :
    R.RP1 (F := Ideal) a0 a1 a2 a3 a4 a5 a8 a9 a10 a11 a12 a13 = K.P1 a0 a1 a2 a3 a4 a5 a8 a9 a10 a11 a12 a13 :=
  layer_two_relu (R.msgPP a0 a2 a3) (R.clampP a3) _ (R.msgAP1 a1 a4 a5) (R.clampP a5) _ a0 a8 a10 a11 a13 a9 a12 _ _ _
    onesP_apply onesP_apply (clampP_ne a3) (clampP_ne a5)

theorem bridge_A1 (a0 : FVec Ideal S50000x256 .f32) (a1 : FVec Ideal S25000x128 .f32) (a6 a7 : IVec S400000 32)
    (a14 : FVec Ideal S256x256 .f32) (a15 : FVec Ideal S256 .f32) (a16 : FVec Ideal S128x256 .f32) :
    R.RA1 (F := Ideal) a0 a1 a6 a7 a14 a15 a16 = K.A1 a0 a1 a6 a7 a14 a15 a16 :=
  layer_one_relu (R.msgPA a0 a6 a7) (R.clampA a7) _ a1 a14 a16 a15 _ _ _ onesA_apply (clampA_ne a7)

theorem bridge_P2 (p1 : FVec Ideal S50000x256 .f32) (q1 : FVec Ideal S25000x256 .f32) (a2 a3 a4 a5 : IVec S400000 32)
    (a17 : FVec Ideal S256x256 .f32) (a18 : FVec Ideal S256 .f32) (a19 a20 : FVec Ideal S256x256 .f32)
    (a21 : FVec Ideal S256 .f32) (a22 : FVec Ideal S256x256 .f32) :
    R.RP2of (F := Ideal) p1 q1 a2 a3 a4 a5 a17 a18 a19 a20 a21 a22 = K.P2of p1 q1 a2 a3 a4 a5 a17 a18 a19 a20 a21 a22 :=
  layer_two (R.msgPP p1 a2 a3) (R.clampP a3) _ (R.msgAP2 q1 a4 a5) (R.clampP a5) _ p1 a17 a19 a20 a22 a18 a21 _ _ _
    onesP_apply onesP_apply (clampP_ne a3) (clampP_ne a5)

theorem bridge_A2 (p1 : FVec Ideal S50000x256 .f32) (q1 : FVec Ideal S25000x256 .f32) (a6 a7 : IVec S400000 32)
    (a23 : FVec Ideal S256x256 .f32) (a24 : FVec Ideal S256 .f32) (a25 : FVec Ideal S256x256 .f32) :
    R.RA2of (F := Ideal) p1 q1 a6 a7 a23 a24 a25 = K.A2of p1 q1 a6 a7 a23 a24 a25 :=
  layer_one (R.msgPA p1 a6 a7) (R.clampA a7) _ q1 a23 a25 a24 _ _ _ onesA_apply (clampA_ne a7)

end Cert.Hetero

end
-- ==== Proof.Final.lean ====
/-
  The two runs side by side.

  `out0` and `out1` are the kernel program's two results as terms of its argument arrays (the second layer's paper rows
  and author rows). `kernel_run` is its run ending at those terms; `ref_out0_eq` / `ref_out1_eq` say the reference's
  results, from arguments that agree, are the same terms: the first layer's outputs agree, so the second layer's
  neighbour sums are taken of equal arrays, and the second layer's combine steps agree.
-/
import proofs.«102993_j62981400429145_2_alg».proof.Proof.KRun
import proofs.«102993_j62981400429145_2_alg».proof.Proof.KFold
import proofs.«102993_j62981400429145_2_alg».proof.Proof.RHost
import proofs.«102993_j62981400429145_2_alg».proof.Proof.Bridge

set_option synthInstance.maxSize 4096
set_option maxRecDepth 16384

noncomputable section

namespace Cert.Hetero

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg)

/-- The kernel program's first result: second layer, paper rows. -/
def out0 (c : Dev Cert.KernelIdeal.nD) : Mat 50000 256 := K.P2of (K.P1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (K.A1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))

/-- The kernel program's second result: second layer, author rows. -/
def out1 (c : Dev Cert.KernelIdeal.nD) : Mat 25000 256 := K.A2of (K.P1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) (K.A1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))

/-- Every weakly fair execution of the kernel program ends with its results at `out0`, `out1` and its arguments kept. -/
theorem kernel_run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v104) = out0 m c
      ∧ r.2.mem ((c.tc : Thread Cert.KernelIdeal.nD Cert.KernelIdeal.τ).loc Cert.KernelIdeal.main_v108) = out1 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)) :=
  (θ_run Cert.KernelIdeal.defs _ _).mono
    (fun r h c => ⟨(h c).1.trans (K.L8_v104 m ρ c), (h c).2.1.trans (K.L8_v108 m ρ c), (h c).2.2⟩)
    (K.run_results (F := Ideal) m ρ)

variable (m' : (ℓ : Loc Cert.ReferenceIdeal.nD Cert.ReferenceIdeal.τ Cert.ReferenceIdeal.sig) → Buf (Elt Ideal) ℓ)

/-- From agreeing arguments the reference's first result is the kernel program's. -/
theorem ref_out0_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v128 m' c = out0 m c := by
  rw [R.ref_out0 m' c, e0, e1, e2, e3, e4, e5, e6, e7, e8, e9, e10, e11, e12, e13, e14, e15, e16, e17, e18, e19, e20, e21, e22]
  unfold out0
  rw [bridge_P1, bridge_A1]
  exact bridge_P2 _ _ _ _ _ _ _ _ _ _ _ _

/-- From agreeing arguments the reference's second result is the kernel program's. -/
theorem ref_out1_eq (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (e22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (e23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (e24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (e25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v153 m' c = out1 m c := by
  rw [R.ref_out1 m' c, e0, e1, e2, e3, e4, e5, e6, e7, e8, e9, e10, e11, e12, e13, e14, e15, e16, e23, e24, e25]
  unfold out1
  rw [bridge_P1, bridge_A1]
  exact bridge_A2 _ _ _ _ _ _ _

end Cert.Hetero

end
-- ==== Proof.lean ====
/-
  A two-layer heterogeneous graph network (mean-aggregating SAGE convolutions over three edge types: paper → paper,
  author → paper, paper → author) as four row-tiled TensorCore kernels among host gathers and scatter-adds, against
  its plain array reference — equal results on the extended reals.

  Both programs form each edge type's neighbour sums and in-degrees with the same host operations. They differ in
  the combine step: the kernels scale the sums by the reciprocal of the clamped in-degree, cast to bf16 (the identity
  on the extended reals), add the four matrix products and one pre-summed bias; the reference divides by the clamped
  in-degree, and adds bias and self term per edge type before adding the edge types. Entry by entry these agree because
  x · (1 / c) = x / c for every c ≠ 0 (the clamped in-degree is at least 1) and because addition of extended reals is
  commutative and associative; finiteness of the inputs is never used. The first layer's outputs agree, hence the second
  layer's neighbour sums are of equal arrays, hence the second layer's outputs agree.

  The modules: Sums (the laws), Spec (a combine step as one whole-array function), KDots / KPay (a kernel body's store at
  an entry), KReg0–3 (a kernel's whole output array from its row tiles), KRun (the kernel program's run with its
  results kept), KHost / KFold (the results read back to terms of the arguments), RHost / RRead (the reference's results
  as structured terms, read at an entry), Bridge (the four combine steps agree), Final (the two runs side by side).
  The idealization rewrote nothing, so `preserves` is `True`.
-/
import proofs.«102993_j62981400429145_2_alg».proof.Defs
import proofs.«102993_j62981400429145_2_alg».proof.Proof.Gen.Kernel
import proofs.«102993_j62981400429145_2_alg».proof.Proof.Gen.Kernel.Skeleton
import proofs.«102993_j62981400429145_2_alg».proof.Proof.Gen.Kernel.Launch
import proofs.«102993_j62981400429145_2_alg».proof.Proof.Gen.Kernel.Points
import proofs.«102993_j62981400429145_2_alg».proof.Proof.Gen.Kernel.Frame
import proofs.«102993_j62981400429145_2_alg».proof.Proof.Gen.KernelIdeal
import proofs.«102993_j62981400429145_2_alg».proof.Proof.Gen.KernelIdeal.Skeleton
import proofs.«102993_j62981400429145_2_alg».proof.Proof.Gen.KernelIdeal.Launch
import proofs.«102993_j62981400429145_2_alg».proof.Proof.Gen.KernelIdeal.Points
import proofs.«102993_j62981400429145_2_alg».proof.Proof.Gen.KernelIdeal.Frame
import proofs.«102993_j62981400429145_2_alg».proof.Proof.Gen.ReferenceIdeal
import proofs.«102993_j62981400429145_2_alg».proof.Proof.Gen.Pre_finite_inputs
import proofs.«102993_j62981400429145_2_alg».proof.Proof.Gen.ReferenceIdeal.Run
import proofs.«102993_j62981400429145_2_alg».proof.Proof.Final
import Idealize.ShloMosaic.Adequacy
import Idealize.ShloMosaic.Init

noncomputable section

namespace Cert.Proof

open Idealize.ShloMosaic Idealize.SL.Sem Cert.Kernel

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two arrays. -/
theorem algebraic : Cert.algebraic_KernelIdeal_ReferenceIdeal := by
  intro m ρ m' ρ' _ hagree
  refine ⟨_, _, Cert.Hetero.kernel_run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12, e13, e14, e15, e16, e17, e18, e19, e20, e21, e22, e23, e24, e25⟩ := hagree c
  exact ⟨(h c).1.trans (Cert.Hetero.ref_out0_eq m m' c e0 e1 e2 e3 e4 e5 e6 e7 e8 e9 e10 e11 e12 e13 e14 e15 e16 e17 e18 e19 e20 e21 e22 e23 e24 e25),
    (h c).2.1.trans (Cert.Hetero.ref_out1_eq m m' c e0 e1 e2 e3 e4 e5 e6 e7 e8 e9 e10 e11 e12 e13 e14 e15 e16 e17 e18 e19 e20 e21 e22 e23 e24 e25), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
